-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : IVec S4096 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S_ : Shape := ⟨0, ![]⟩
abbrev S4096x1 : Shape := ⟨2, ![4096, 1]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 34
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .i32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .bf16⟩
  | .hbm, ⟨14, _⟩ => ⟨S4096x256, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .bf16⟩
  | .hbm, ⟨25, _⟩ => ⟨S8192x256, .bf16⟩
  | .hbm, ⟨26, _⟩ => ⟨S8192, .i32⟩
  | .hbm, ⟨27, _⟩ => ⟨S8192x1, .i32⟩
  | .hbm, ⟨28, _⟩ => ⟨S1x8192, .i32⟩
  | .hbm, ⟨29, _⟩ => ⟨S8192x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_25 : BitVec 32 := 0#32
  let v49 : BitVec 1 := Scalar.cmpi .ne v48 c0_i32_25
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  concatenates_S4096x256_S4096x256_S8192x256_d0 : Shape.Concatenates [S4096x256, S4096x256] S8192x256 0
  concatenates_S4096_S4096_S8192_d0 : Shape.Concatenates [S4096, S4096] S8192 0
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  iota_S1024x1024_d0_w32 : S1024x1024.Iotas .tc 32 [0]
  iota_S1024x1024_d1_w32 : S1024x1024.Iotas .tc 32 [1]
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v12) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S4096x1 : Shape := ⟨2, ![4096, 1]⟩
abbrev S4096x2 : Shape := ⟨2, ![4096, 2]⟩
abbrev S1x8192 : Shape := ⟨2, ![1, 8192]⟩

abbrev nBuf : Space → Nat
  | .hbm => 95
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .i32⟩
  | .hbm, ⟨3, _⟩ => ⟨S8192x256, .f32⟩
  | .hbm, ⟨4, _⟩ => ⟨S8192, .i32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | .hbm, ⟨15, _⟩ => ⟨S256x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x1, .i32⟩
  | .hbm, ⟨41, _⟩ => ⟨S4096x2, .i32⟩
  | .hbm, ⟨42, _⟩ => ⟨S4096, .f32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x1, .i32⟩
  | .hbm, ⟨64, _⟩ => ⟨S4096x2, .i32⟩
  | .hbm, ⟨65, _⟩ => ⟨S4096, .f32⟩
  | .hbm, ⟨66, _⟩ => ⟨S8192, .f32⟩
  | .hbm, ⟨67, _⟩ => ⟨S8192x1, .i32⟩
  | .hbm, ⟨68, _⟩ => ⟨S1x8192, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S_, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192x1, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_call1_v1 : Ref sig .tc := ⟨.hbm, 21, rfl⟩
abbrev main_call1_c : Ref sig .tc := ⟨.hbm, 22, rfl⟩
abbrev main_call1_v2 : Ref sig .tc := ⟨.hbm, 23, rfl⟩
abbrev main_call1_v3 : Ref sig .tc := ⟨.hbm, 24, rfl⟩
abbrev main_call1_c_0 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c_2 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_v15 : Ref sig .tc := ⟨.hbm, 40, rfl⟩
abbrev main_call1_v16 : Ref sig .tc := ⟨.hbm, 41, rfl⟩
abbrev main_v11 : Ref sig .tc := ⟨.hbm, 42, rfl⟩
abbrev main_call2_v0 : Ref sig .tc := ⟨.hbm, 43, rfl⟩
abbrev main_call2_v1 : Ref sig .tc := ⟨.hbm, 44, rfl⟩
abbrev main_call2_c : Ref sig .tc := ⟨.hbm, 45, rfl⟩
abbrev main_call2_v2 : Ref sig .tc := ⟨.hbm, 46, rfl⟩
abbrev main_call2_v3 : Ref sig .tc := ⟨.hbm, 47, rfl⟩
abbrev main_call2_c_0 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c_2 : Ref sig .tc := ⟨.hbm, 55, rfl⟩
abbrev main_call2_v9 : Ref sig .tc := ⟨.hbm, 56, rfl⟩
abbrev main_call2_v10 : Ref sig .tc := ⟨.hbm, 57, rfl⟩
abbrev main_call2_c_3 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_v15 : Ref sig .tc := ⟨.hbm, 63, rfl⟩
abbrev main_call2_v16 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_v19 : Ref sig .tc := ⟨.hbm, 75, rfl⟩
abbrev main_cst_2 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_3 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_4 : Ref sig .tc := ⟨.hbm, 91, rfl⟩
abbrev main_v33 : Ref sig .tc := ⟨.hbm, 92, rfl⟩
abbrev main_cst_5 : Ref sig .tc := ⟨.hbm, 93, rfl⟩
abbrev main_v34 : Ref sig .tc := ⟨.hbm, 94, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  concatenates_S4096_S4096_S8192_d0 : Shape.Concatenates [S4096, S4096] S8192 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KDatB.lean ====
/-
  The proof data of the one pipeline of the program, for any float instance.

  The grid is 8 × 8: row block `bi` (outer) and column block `bj` (inner), visited in row-major order, so the point
  `t` has `bj = t % 8`. Three whole scratch buffers are carried from point to point within a row block: the running row
  maximum, the running rescaled row sum and the row's positive logit. At `bj = 0` they are reset, at every point the
  maximum and the sum absorb the point's column block, at the column block paired with the row block the positive is
  taken from the tile's diagonal, and at `bj = 7` the row block's losses are stored into the output window, which is
  written back there and idle everywhere else.

  `step` is one point's effect on the three scratch buffers as a pure function of the point's input blocks, spelt
  with the body's named payloads; `stAt n` is the scratch state before point `n` (for `n` not a multiple of 8: at a
  multiple of 8 the buffers hold leftovers that the reset overwrites); `outOf` is the block of losses from a state.
-/
import proofs.«156892_j84602265797103_2_alg».proof.Proof.Gen.Kernel.Launch
import proofs.«156892_j84602265797103_2_alg».proof.Proof.Gen.Kernel.Skeleton
import proofs.«156892_j84602265797103_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point's effect on the carried scratch -/

/-- The first conditional's condition (`bj = 0`: reset the scratch), as the body computes it. -/
def cond1 (i : grid0.Coords) : BitVec 1 :=
  Scalar.cmpi .ne (Scalar.extui (Scalar.cmpi .eq (BitVec.ofNat 32 (i 1).val) 0#32)) 0#32

/-- The second conditional's condition (`bj` is the column block paired with row block `bi`), as the body computes it. -/
def cond2 (i : grid0.Coords) : BitVec 1 :=
  Scalar.cmpi .ne (Scalar.extui (Scalar.cmpi .eq (BitVec.ofNat 32 (i 1).val)
    (Scalar.select (Scalar.cmpi .slt (BitVec.ofNat 32 (i 0).val) 4#32) (Scalar.addi (BitVec.ofNat 32 (i 0).val) 4#32)
      (Scalar.subi (BitVec.ofNat 32 (i 0).val) 4#32)))) 0#32

/-- The three carried scratch buffers: running maximum, running sum, positive logit. -/
structure St (F : FTy → Type) where
  m : Vec F S1024x1 .f32
  l : Vec F S1024x1 .f32
  p : Vec F S1024x1 .f32

/-- One point: reset at `bj = 0`; absorb the tile into the maximum and the sum; take the diagonal at the paired block. -/
def step (i : grid0.Coords) (x0 x1 : Vec F S1024x256 .bf16) (li : Vec F S1024x1 .i32) (lj : Vec F S1x1024 .i32) (s : St F) : St F where
  m := k0_pay2 (k0_pay10 x0 x1 li lj (if cond1 i = 1#1 then k0_pay5 else s.m))
  l := k0_pay1 (k0_pay11 x0 x1 li lj (if cond1 i = 1#1 then k0_pay5 else s.m) (if cond1 i = 1#1 then k0_pay5 else s.m)
    (if cond1 i = 1#1 then k0_pay6 else s.l))
  p := if cond2 i = 1#1 then k0_pay3 (k0_pay8 x0 x1) else (if cond1 i = 1#1 then k0_pay7 else s.p)

/-- The block of losses the last column block's point stores, from the scratch state after that point's updates. -/
def outOf (s : St F) : Vec F S1024x1 .f32 := k0_pay4 s.m s.p s.m s.l s.p s.p

/-- At `bj = 0` the point's effect does not depend on what the scratch held. -/
theorem step_reset (i : grid0.Coords) (h : cond1 i = 1#1) (x0 x1 : Vec F S1024x256 .bf16) (li : Vec F S1024x1 .i32)
    (lj : Vec F S1x1024 .i32) (s s' : St F) : step i x0 x1 li lj s = step i x0 x1 li lj s' := by
  unfold step; simp only [h, if_true]

variable (V : (c : Dev nD) → (b : Ref sig .tc) → Buf (Elt F) ((c : Thread nD τ).loc b))

/-! ## The windows' blocks and the scratch state point by point -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried scratch before point `n` (meaningful when `n` is not a multiple of 8). -/
def stAt (c : Dev nD) : (n : Nat) → St F
  | 0 => ⟨k0_pay5, k0_pay6, k0_pay7⟩
  | n + 1 =>
    if h : n < cfg0.N then
      step (grid0.coords ⟨n, h⟩) (iblk V c 0 ⟨n, h⟩) (iblk V c 1 ⟨n, h⟩) (iblk V c 2 ⟨n, h⟩) (iblk V c 3 ⟨n, h⟩) (stAt c n)
    else stAt c n

theorem stAt_succ (c : Dev nD) (t : Fin cfg0.N) :
    stAt V c (t.val + 1) = step (grid0.coords t) (iblk V c 0 t) (iblk V c 1 t) (iblk V c 2 t) (iblk V c 3 t) (stAt V c t.val) := by
  rw [stAt, dif_pos t.isLt]

/-! ## The invariant and the proof data -/

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- Before point `n`: the generator register at some state, and the three scratch buffers whole at some state `s`,
    which is `stAt n` unless `n` is a multiple of 8 (a row block's first point, which resets them). -/
def PhiS (c : Dev nD) (n : Nat) : sProp 𝕄 :=
  iprop((∃ r, prngReg c r) ∗ ∃ s : St F, ⌜n % 8 ≠ 0 → s = stAt V c n⌝
    ∗ owns (c : Thread nD τ) scM0 fullShare s.m ∗ owns (c : Thread nD τ) scM1 fullShare s.l ∗ owns (c : Thread nD τ) scM2 fullShare s.p)

/-- The proof data: the arrays as the region finds them; after the body each input's buffer at its block and the
    output's at the losses of the state after the point (read only where the point writes back, `bj = 7`); the two
    windows on the one array of normalized rows hold complementary halves of it. -/
def dat0 (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outOf (stAt V c (t.val + 1))
  Φ t := PhiS V c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = outOf (stAt V c (t.val + 1)) := by dsimp only [dat0]

theorem Phi_eq (c : Dev nD) (t : Fin (cfg0.N + 1)) : (dat0 V c).Φ t = PhiS V c t.val := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The buffer contents when the region is entered, and the host's last lines -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first norm call, -/
def Wa (c : Dev nD) : Valuation τ sig (Elt F) := StableHlo.after hostOps0 (W0 m ρ c)
/-- the first argument's normalization, -/
def Wb (c : Dev nD) : Valuation τ sig (Elt F) := StableHlo.after hostOps0_1 (Wa m ρ c)
/-- the second norm call, -/
def Wc (c : Dev nD) : Valuation τ sig (Elt F) := StableHlo.after hostOps0_2 (Wb m ρ c)
/-- and the second argument's normalization, the stacking of the rows and of the labels: the region's entry. -/
def Wd (c : Dev nD) : Valuation τ sig (Elt F) := StableHlo.after hostOps0_3 (Wc m ρ c)
/-- The same read at the TensorCore's references: what the region's proof data take. -/
abbrev V0 : (c : Dev nD) → (b : Ref sig .tc) → Buf (Elt F) ((c : Thread nD τ).loc b) := fun c b => Wd m ρ c b

/-- The host's lines after the region, as one function of the region's result array: the sum of its entries over 8192. -/
def tailVal (y : (⟨S8192x1, .f32⟩ : BufTy).Contents (Elt F)) : (⟨S_, .f32⟩ : BufTy).Contents (Elt F) :=
  Host.divf (Host.reduceAdd y (constant S_ .f32 0x00000000#32) reducesTo_S8192x1_S_d0_1 h_S_) (constant S_ .f32 0x46000000#32)

end Cert.Kernel.Hand

end
-- ==== Proof.KRunB.lean ====
/-
  The run of the whole program, for any float instance, with the region's result named.

  The program is four stretches of host operations (two row normalizations, the stacking of the rows and of the
  labels, two reshapes), one kernel region on an 8 × 8 grid, and a last stretch (the sum of the region's result array
  divided by 8192). The thread state carried from segment to segment is "every unscoped buffer whole at the boundary's
  contents, the generator register at some state, nothing owed"; the contents at each boundary are a fold through the
  program: `W0` (the launch memory), `Wa` … `Wd` (after each of the four stretches), `W1` (after the region: the
  result array at what the write-backs leave, every other buffer as entered) and `We` (after the last stretch).

  Two of the region's five windows read ONE array, the stacked normalized rows. At the region's entry the buffer
  behind it, held whole at the full share, is split along the share into its left and right halves, one per window;
  an input window never writes its array, so at the exit both halves still hold the entry contents and are joined
  back into the full share. The other three arrays are distinct and each window holds its own whole.

  The three scratch buffers, scoped to the region, enter the invariant at whatever they hold (the first point of a
  row block resets them) and leave it at whatever the last point left.

  `run_main_of`: given the body obligation at every point, every weakly fair execution from any launch memory with zero
  counters terminates, the result buffer ends at `tailVal` of the region's result array, and the arguments end as launched.
-/
import proofs.«156892_j84602265797103_2_alg».proof.Proof.KDatB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Arrays

variable (V : (c : Dev nD) → (b : Ref sig .tc) → Buf (Elt F) ((c : Thread nD τ).loc b))

/-! ## The windows' arrays and the four buffers behind them -/

/-- The windows' arrays one by one: the two windows on the array of normalized rows hold its two halves. -/
theorem arrays_eq0 (c : Dev nD) (G : (w : Fin cfg0.W) → Buf (Elt F) ((cfg0.win w).arr.view.loc (c.tc : Thread nD τ))) :
    ((dat0 V c).arrays G : sProp 𝕄)
      = iprop((((c.tc : Thread nD τ).loc main_v12) ↦{fullShare.left} G 0) ∗ (((c.tc : Thread nD τ).loc main_v12) ↦{fullShare.right} G 1)
          ∗ (((c.tc : Thread nD τ).loc main_v14) ↦{fullShare} G 2) ∗ (((c.tc : Thread nD τ).loc main_v15) ↦{fullShare} G 3)
          ∗ (((c.tc : Thread nD τ).loc main_v16) ↦{fullShare} G 4)) := by
  unfold Dat.arrays
  rw [bigSep_W0, (arr_whole0 0).set_eq_univ, (arr_whole0 2).set_eq_univ, (arr_whole0 3).set_eq_univ,
    (arr_whole0 4).set_eq_univ]
  rfl

/-- The distinct buffers behind the windows' arrays, one by one. -/
theorem arrBufs_eq0 (c : Dev nD) (X : (b : Ref sig .tc) → Buf (Elt F) ((c.tc : Thread nD τ).loc b)) :
    (Pipeline.arrBufs (Ix := Unit) (Name := ℕ) (U := Pipeline.UD sig nD τ) (Lvl := ℕ) spec0 c X : sProp 𝕄)
      = iprop((((c.tc : Thread nD τ).loc main_v12) ↦{fullShare} X main_v12) ∗ (((c.tc : Thread nD τ).loc main_v14) ↦{fullShare} X main_v14)
          ∗ (((c.tc : Thread nD τ).loc main_v15) ↦{fullShare} X main_v15) ∗ (((c.tc : Thread nD τ).loc main_v16) ↦{fullShare} X main_v16)) := by
  unfold Pipeline.arrBufs
  exact BI.bigSep_eq_bigSepL_of_eq [main_v12, main_v14, main_v15, main_v16] (by decide) (by decide) _

/-- Every unscoped buffer whole is the four buffers behind the windows' arrays and the rest. -/
theorem held_split0 (c : Dev nD) (W : Valuation τ sig (Elt F)) :
    (StableHlo.held (c : Thread nD τ) (Pipeline.ucRefs τ sig) W : sProp 𝕄)
      = iprop(((((c.tc : Thread nD τ).loc main_v12) ↦{fullShare} W main_v12) ∗ (((c.tc : Thread nD τ).loc main_v14) ↦{fullShare} W main_v14)
          ∗ (((c.tc : Thread nD τ).loc main_v15) ↦{fullShare} W main_v15) ∗ (((c.tc : Thread nD τ).loc main_v16) ↦{fullShare} W main_v16))
        ∗ Pipeline.unscopedRest (Ix := Unit) (Name := ℕ) (U := Pipeline.UD sig nD τ) (Lvl := ℕ) spec0 c (fun b => W b)) := by
  rw [← Pipeline.unscopedBufs_held c W, Pipeline.unscopedBufs_split₀ cfgs 0 winFacts₀0.arr_unscoped c (fun b => W b)]
  exact congrArg (fun P => iprop(P ∗ Pipeline.unscopedRest (Ix := Unit) (Name := ℕ) (U := Pipeline.UD sig nD τ) (Lvl := ℕ) spec0 c (fun b => W b)))
    (arrBufs_eq0 c (fun b => W b))

/-- Off the windows' arrays only the contents off the result array are read. -/
theorem rest_congr0 (c : Dev nD) (W W' : Valuation τ sig (Elt F))
    (h : ∀ b : Ref sig .tc, b ≠ main_v16 → W' (Proc.devRef .tc b) = W (Proc.devRef .tc b)) :
    (Pipeline.unscopedRest (Ix := Unit) (Name := ℕ) (U := Pipeline.UD sig nD τ) (Lvl := ℕ) spec0 c (fun b => W' b) : sProp 𝕄)
      = Pipeline.unscopedRest spec0 c (fun b => W b) := by
  unfold Pipeline.unscopedRest
  exact bigSep_congr fun b hb => by
    dsimp only
    rw [h b fun e => (Finset.mem_sdiff.mp hb).2 (Finset.mem_image.mpr ⟨4, Finset.mem_univ _, e.symm⟩)]

/-- At the region's entry and exit the input windows' arrays hold the entry contents. -/
theorem arrays_at (c : Dev nD) (n : Nat) :
    ((dat0 V c).arrays ((dat0 V c).arrAt · n) : sProp 𝕄)
      = iprop((((c.tc : Thread nD τ).loc main_v12) ↦{fullShare.left} V c main_v12) ∗ (((c.tc : Thread nD τ).loc main_v12) ↦{fullShare.right} V c main_v12)
          ∗ (((c.tc : Thread nD τ).loc main_v14) ↦{fullShare} V c main_v14) ∗ (((c.tc : Thread nD τ).loc main_v15) ↦{fullShare} V c main_v15)
          ∗ (((c.tc : Thread nD τ).loc main_v16) ↦{fullShare} (dat0 V c).arrAt 4 n)) := by
  rw [arrays_eq0]
  rw [(dat0 V c).arrAt_in 0 rfl n, (dat0 V c).arrAt_in 1 rfl n, (dat0 V c).arrAt_in 2 rfl n, (dat0 V c).arrAt_in 3 rfl n]
  rfl

end Arrays

/-! ## The buffer contents after the region and after the host's last lines -/

variable (m : (ℓ : Loc nD τ sig) → Buf (Elt F) ℓ) (ρ : Dev nD → PrngReg)

/-- At the region's exit: the result array at what the write-backs leave, every other buffer as entered (an input
    window's array is never written, and nothing else is the region's to write). -/
def W1 (c : Dev nD) : Valuation τ sig (Elt F) :=
  Function.update (Wd m ρ c) (Proc.devRef .tc main_v16) ((dat0 (V0 m ρ) c).arrAt 4 cfg0.N)

/-- Read at the result array; -/
theorem W1_v16 (c : Dev nD) : W1 m ρ c (Proc.devRef .tc main_v16) = (dat0 (V0 m ρ) c).arrAt 4 cfg0.N := by
  unfold W1; exact Function.update_self ..

/-- and at any other reference. -/
theorem W1_of_ne (c : Dev nD) (b : Ref sig .tc) (hb : b ≠ main_v16) :
    W1 m ρ c (Proc.devRef .tc b) = Wd m ρ c (Proc.devRef .tc b) := by
  unfold W1; exact Function.update_of_ne (StableHlo.devRef_ne_of_ne hb) ..

/-- After the host's last lines: the last boundary. -/
def We (c : Dev nD) : Valuation τ sig (Elt F) := StableHlo.after hostOps1 (W1 m ρ c)

/-! ## The proof data family and the thread state -/

/-- The prefetched tables' admissible contents: the pipeline has no table. -/
abbrev adm : (p : Fin 1) → (pcfgs (F := F) p).Adm := fun p => (cfgs p).toPCfg_adm

/-- The one pipeline's proof data, at the region's entry contents — a literal match on the pipeline index, so that
    the pinned configuration at the numeral reduces to the printed one. -/
def pdats : (p : Fin 1) → (c : Dev nD) → Dat τ (Elt F) Unit ℕ (Pipeline.UD sig nD τ) ℕ (Pipeline.pin (pcfgs (F := F)) adm p) c
  | ⟨0, _⟩ => fun c => dat0 (V0 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A stretch of host operations as a segment: from every unscoped buffer whole at the contents `W`, to the same
    buffers at the contents after the operations, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of any stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (We m ρ c) ∗ ∃ r, prngReg c r)

/-! ## The region as a segment -/

-- a library lemma stated over the pinned configuration unifies with the printed one only when unification may unfold
-- plain definitions in a metavariable's type
set_option backward.isDefEq.respectTransparency.types false in
/-- The region over the thread state: entered from every unscoped buffer at `Wd`, left at `W1`. At the entry the four
    buffers behind the five windows are taken out of the unscoped buffers and the shared one is split along the share,
    the left half to window 0 and the right half to window 1; the generator register and the three scratch buffers,
    at whatever they hold, make the invariant at the first point (its pure side is vacuous there: point 0 starts a row
    block). At the exit the invariant gives them back, the two halves — still at the entry contents — are joined, and
    the four buffers go back among the unscoped ones at `W1`, which differs from `Wd` at the result array only. -/
def reg0 (hbody : ∀ c : Dev nD, BodyObligation (dat0 (F := F) (V0 m ρ) c) (defs₀ (F := F)) Variants.none () Set.univ) :
    Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (Wd m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none, held_split0 c (Wd m ρ c),
      show (pdats m ρ 0 c).arrays ((pdats m ρ 0 c).arrAt · 0) = (dat0 (V0 m ρ) c).arrays ((dat0 (V0 m ρ) c).arrAt · 0) from rfl,
      arrays_at (V0 m ρ) c 0]
    iintro ⟨⟨⟨⟨H12, H14, H15, H16⟩, Hrest⟩, Hp, HO⟩, -, -⟩
    ihave H := (pointsTo_share (PosShare.mem_left_op_right fullShare)).1 $$ H12
    icases H with ⟨H12l, H12r⟩
    imodintro
    isplitl [H12l H12r H14 H15 H16]
    · isplitl [H12l]; · iexact H12l
      isplitl [H12r]; · iexact H12r
      isplitl [H14]; · iexact H14
      isplitl [H15]; · iexact H15
      iexact H16
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS (V0 m ρ) c 0 from rfl,
      show (Pipeline.scopedRest (Pipeline.pin (pcfgs (F := F)) adm 0).spec c : sProp 𝕄) = Pipeline.scopedRest spec0 c from rfl, scopedRest0_eq]
    unfold PhiS
    simp only [owns_whole]
    iintro ⟨Hp, -, ⟨%f0, H0⟩, ⟨%f1, H1⟩, ⟨%f2, H2⟩⟩
    isplitl [Hp]; · iexact Hp
    iexists (⟨f0, f1, f2⟩ : St F)
    isplitr; · ipureintro; exact fun h => absurd rfl h
    isplitl [H0]; · iexact H0
    isplitl [H1]; · iexact H1
    iexact H2
  hout c := by
    rw [Pipeline.ownSems0_none, show (pdats m ρ 0 c).Φ (Fin.last _) = PhiS (V0 m ρ) c 64 from rfl,
      show (Pipeline.scopedRest (Pipeline.pin (pcfgs (F := F)) adm 0).spec c : sProp 𝕄) = Pipeline.scopedRest spec0 c from rfl, scopedRest0_eq]
    unfold PhiS
    simp only [owns_whole]
    iintro ⟨Hp, %s, -, H0, H1, H2⟩
    isplitl [Hp]; · iexact Hp
    isplitr; · iempintro
    isplitl [H0]; · iexists _; iexact H0
    isplitl [H1]; · iexists _; iexact H1
    iexists _; iexact H2
  hexit c := by
    rw [held_split0 c (W1 m ρ c), rest_congr0 c (Wd m ρ c) (W1 m ρ c) (fun b hb => W1_of_ne m ρ c b hb),
      show (pdats m ρ 0 c).arrays ((pdats m ρ 0 c).arrAt · (Pipeline.pin (pcfgs (F := F)) adm 0).N)
        = (dat0 (V0 m ρ) c).arrays ((dat0 (V0 m ρ) c).arrAt · cfg0.N) from rfl,
      arrays_at (V0 m ρ) c cfg0.N, W1_of_ne m ρ c main_v12 (by decide), W1_of_ne m ρ c main_v14 (by decide),
      W1_of_ne m ρ c main_v15 (by decide), W1_v16]
    iintro ⟨⟨H12l, H12r, H14, H15, H16⟩, HO, HY, Hrest⟩
    ihave H12 := (pointsTo_share (PosShare.mem_left_op_right fullShare)).2 $$ [H12l H12r]
    · isplitl [H12l]; · iexact H12l
      iexact H12r
    imodintro
    isplitl [H12 H14 H15 H16 Hrest]
    · isplitl [H12 H14 H15 H16]
      · isplitl [H12]; · iexact H12
        isplitl [H14]; · iexact H14
        isplitl [H15]; · iexact H15
        iexact H16
      iexact Hrest
    isplitl [HY]; · iexact HY
    unfold Pipeline.Dat.owesAt Pipeline.owesWithin
    icases HO with ⟨%W, -, HO⟩; iexists W; iexact HO

/-! ## The program as segments -/

/-- The program's six segments in order: a host segment per stretch from its boundary's contents, the region. -/
abbrev segs (hbody : ∀ c : Dev nD, BodyObligation (dat0 (F := F) (V0 m ρ) c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .host (hseg hostOps0_3 hostOps0_3_sub hostOps0_3_fresh (Wc m ρ)),
    .region (reg0 m ρ hbody),
    .host (hseg hostOps1 hostOps1_sub hostOps1_fresh (W1 m ρ)) ]

/-- The program IS the run of the segments: the generated chain of its items, then the segments' run against that chain
    by definitional unfolding. -/
theorem main_run (hbody : ∀ c : Dev nD, BodyObligation (dat0 (F := F) (V0 m ρ) c) (defs₀ (F := F)) Variants.none () Set.univ) (c : Dev nD) :
    main (F := F) c = Pipeline.Seg.run (segs m ρ hbody) := (main_chain c).trans (by chain_rfl)

/-! ## What the last boundary's contents hold -/

/-- The result: the host's last lines applied to the region's result array. -/
theorem We_v18 (c : Dev nD) :
    We m ρ c (Proc.devRef .tc main_v18) = tailVal ((dat0 (V0 m ρ) c).arrAt 4 cfg0.N) := by
  unfold We tailVal
  dsimp only [hostOps1]
  after_results
  rw [W1_v16]

/-- Closes "the contents after a stretch, at a buffer the stretch does not write, are the contents before it". -/
local macro "unwritten" : tactic => `(tactic| (
  refine StableHlo.after_of_forall_not_mem _ _ (List.forall_iff_forall_mem.mp ?_)
  simp only [hostOps0, hostOps0_1, hostOps0_2, hostOps0_3, hostOps1, List.Forall, StableHlo.nullary_writes, StableHlo.unary_writes,
    StableHlo.binary_writes, StableHlo.reshape_writes, Finset.mem_singleton]
  repeat' apply And.intro
  all_goals exact StableHlo.devRef_ne_of_ne (by decide)))

/-! No stretch writes an argument, and the region writes only its result array: each argument ends as launched. -/
theorem We_main_arg0 (c : Dev nD) : We m ρ c (Proc.devRef .tc main_arg0) = m ((c : Thread nD τ).loc main_arg0) :=
  calc We m ρ c (Proc.devRef .tc main_arg0)
    _ = W1 m ρ c (Proc.devRef .tc main_arg0) := by unfold We; unwritten
    _ = Wd m ρ c (Proc.devRef .tc main_arg0) := W1_of_ne m ρ c main_arg0 (by decide)
    _ = Wc m ρ c (Proc.devRef .tc main_arg0) := by unfold Wd; unwritten
    _ = Wb m ρ c (Proc.devRef .tc main_arg0) := by unfold Wc; unwritten
    _ = Wa m ρ c (Proc.devRef .tc main_arg0) := by unfold Wb; unwritten
    _ = W0 m ρ c (Proc.devRef .tc main_arg0) := by unfold Wa; unwritten
    _ = m ((c : Thread nD τ).loc main_arg0) := rfl
theorem We_main_arg1 (c : Dev nD) : We m ρ c (Proc.devRef .tc main_arg1) = m ((c : Thread nD τ).loc main_arg1) :=
  calc We m ρ c (Proc.devRef .tc main_arg1)
    _ = W1 m ρ c (Proc.devRef .tc main_arg1) := by unfold We; unwritten
    _ = Wd m ρ c (Proc.devRef .tc main_arg1) := W1_of_ne m ρ c main_arg1 (by decide)
    _ = Wc m ρ c (Proc.devRef .tc main_arg1) := by unfold Wd; unwritten
    _ = Wb m ρ c (Proc.devRef .tc main_arg1) := by unfold Wc; unwritten
    _ = Wa m ρ c (Proc.devRef .tc main_arg1) := by unfold Wb; unwritten
    _ = W0 m ρ c (Proc.devRef .tc main_arg1) := by unfold Wa; unwritten
    _ = m ((c : Thread nD τ).loc main_arg1) := rfl
theorem We_main_arg2 (c : Dev nD) : We m ρ c (Proc.devRef .tc main_arg2) = m ((c : Thread nD τ).loc main_arg2) :=
  calc We m ρ c (Proc.devRef .tc main_arg2)
    _ = W1 m ρ c (Proc.devRef .tc main_arg2) := by unfold We; unwritten
    _ = Wd m ρ c (Proc.devRef .tc main_arg2) := W1_of_ne m ρ c main_arg2 (by decide)
    _ = Wc m ρ c (Proc.devRef .tc main_arg2) := by unfold Wd; unwritten
    _ = Wb m ρ c (Proc.devRef .tc main_arg2) := by unfold Wc; unwritten
    _ = Wa m ρ c (Proc.devRef .tc main_arg2) := by unfold Wb; unwritten
    _ = W0 m ρ c (Proc.devRef .tc main_arg2) := by unfold Wa; unwritten
    _ = m ((c : Thread nD τ).loc main_arg2) := rfl

/-! ## The launch -/

set_option backward.isDefEq.respectTransparency.types false in
/-- From any launch memory with zero counters, every weakly fair execution of the program terminates without a fault, and
    in every final state the result buffer holds the host's last lines applied to the region's result array as the
    write-backs leave it, and the three arguments are as launched — given the body obligation at every point. -/
theorem run_main_of (hbody : ∀ c : Dev nD, BodyObligation (dat0 (F := F) (V0 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v18) = tailVal ((dat0 (V0 m ρ) c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj embL defs₀ 𝒱₀ L lv m ρ main (segs m ρ hbody)
    (fun c Q => by rw [main_run m ρ hbody c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (We m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c =>
      ⟨(h c _ (mem_uc main_v18 (by decide))).trans (We_v18 m ρ c),
       (h c _ (mem_uc main_arg0 (by decide))).trans (We_main_arg0 m ρ c),
       (h c _ (mem_uc main_arg1 (by decide))).trans (We_main_arg1 m ρ c),
       (h c _ (mem_uc main_arg2 (by decide))).trans (We_main_arg2 m ρ c)⟩)

/-- info: 'Cert.Kernel.Hand.run_main_of' depends on axioms: [propext, Classical.choice, Quot.sound] -/
#guard_msgs in #print axioms run_main_of

end Cert.Kernel.Hand

end
-- ==== Proof.KBodyB.lean ====
/-
  The kernel body's triple and the body obligation of the one pipeline, for any float instance.

  One grid point runs three conditionals on the point's coordinates. With the three scratch buffers whole at a
  state `s` and the four input buffers at their blocks, the body leaves the scratch at `step i … s` and the output
  buffer at the losses of that state where the third conditional is taken, untouched elsewhere. This is proved
  case by case over the eight truth assignments of the three conditions: in each case the body is a straight line
  of whole-buffer loads and whole-buffer stores, every buffer ends with at most two stores of which the last covers
  it, so it reads that store's payload; a load after such a store reads the payload stored, and a load of an
  untouched buffer reads what the buffer held. The payloads, opened at those reads, are the fields of `step`.

  The body obligation then follows point by point: the inputs' buffers hold their blocks; the invariant gives the
  scratch at a state that is the carried one unless the point is a row block's first (where the body's reset makes
  the state irrelevant), and the state after the point is the next carried one; the output window is live exactly at
  a row block's last point, where the losses are stored and written back, and is handed back as found elsewhere.
-/
import proofs.«156892_j84602265797103_2_alg».proof.Proof.KDatB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-buffer stores and loads -/

/-- The zero offsets of a rank-2 access, however spelt. -/
theorem kbody_hz : (![0, 0] : Fin 2 → Nat) = fun _ => 0 := funext fun a => by fin_cases a <;> rfl

/-- What a buffer reads after a list of stores whose last one covers it whole: that store's payload. -/
theorem kbody_read_writes {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- What a whole load reads after such a list of stores: the last store's payload. -/
theorem kbody_readCov {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The body's triple, case by case -/

set_option maxHeartbeats 1000000 in
/-- The body's triple where the reset is taken, the diagonal is taken and the losses are stored. -/
theorem sound_kernel_TTT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]

set_option maxHeartbeats 1000000 in
/-- The body's triple where the reset is taken, the diagonal is taken and the losses are not stored. -/
theorem sound_kernel_TTF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_pos hc1, if_pos hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_neg hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_neg hc3]

set_option maxHeartbeats 1000000 in
/-- The body's triple where the reset is taken, the diagonal is not taken and the losses are stored. -/
theorem sound_kernel_TFT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : ¬ cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]

set_option maxHeartbeats 1000000 in
/-- The body's triple where the reset is taken, the diagonal is not taken and the losses are not stored. -/
theorem sound_kernel_TFF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : ¬ cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_pos hc1, if_neg hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_neg hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_neg hc3]

set_option maxHeartbeats 1000000 in
/-- The body's triple where the reset is not taken, the diagonal is taken and the losses are stored. -/
theorem sound_kernel_FTT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]

set_option maxHeartbeats 1000000 in
/-- The body's triple where the reset is not taken, the diagonal is taken and the losses are not stored. -/
theorem sound_kernel_FTF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_neg hc1, if_pos hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_neg hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_neg hc3]

set_option maxHeartbeats 1000000 in
/-- The body's triple where the reset is not taken, the diagonal is not taken and the losses are stored. -/
theorem sound_kernel_FFT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : ¬ cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_pos hc3]
  · iexists _; isplitr; swap; · iexact H9
    ipureintro
    simp only [Memref.view_whole, View.read_whole, step, outOf, if_neg hc1, if_neg hc2, if_pos hc3]

set_option maxHeartbeats 1000000 in
/-- The body's triple where the reset is not taken, the diagonal is not taken and the losses are not stored. -/
theorem sound_kernel_FFF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : ¬ cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_neg hc1, if_neg hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_neg hc3]
  · iexists _; isplitr; swap; · iexact H9
    ipureintro
    simp only [Memref.view_whole, View.read_whole, step, outOf, if_neg hc1, if_neg hc2, if_neg hc3]

/-- The body's triple at any point: by cases on the three conditions. -/
theorem sound_kernel (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  by_cases hc1 : cond1 i = 1#1
  · by_cases hc2 : cond2 i = 1#1
    · by_cases hc3 : k0_cond3 i = 1#1
      · exact sound_kernel_TTT c E i arg2 harg2 arg3 harg3 arg4 harg4 arg5 harg5 arg6 harg6 x0 x1 li lj d s K hc1 hc2 hc3
      · exact sound_kernel_TTF c E i arg2 harg2 arg3 harg3 arg4 harg4 arg5 harg5 arg6 harg6 x0 x1 li lj d s K hc1 hc2 hc3
    · by_cases hc3 : k0_cond3 i = 1#1
      · exact sound_kernel_TFT c E i arg2 harg2 arg3 harg3 arg4 harg4 arg5 harg5 arg6 harg6 x0 x1 li lj d s K hc1 hc2 hc3
      · exact sound_kernel_TFF c E i arg2 harg2 arg3 harg3 arg4 harg4 arg5 harg5 arg6 harg6 x0 x1 li lj d s K hc1 hc2 hc3
  · by_cases hc2 : cond2 i = 1#1
    · by_cases hc3 : k0_cond3 i = 1#1
      · exact sound_kernel_FTT c E i arg2 harg2 arg3 harg3 arg4 harg4 arg5 harg5 arg6 harg6 x0 x1 li lj d s K hc1 hc2 hc3
      · exact sound_kernel_FTF c E i arg2 harg2 arg3 harg3 arg4 harg4 arg5 harg5 arg6 harg6 x0 x1 li lj d s K hc1 hc2 hc3
    · by_cases hc3 : k0_cond3 i = 1#1
      · exact sound_kernel_FFT c E i arg2 harg2 arg3 harg3 arg4 harg4 arg5 harg5 arg6 harg6 x0 x1 li lj d s K hc1 hc2 hc3
      · exact sound_kernel_FFF c E i arg2 harg2 arg3 harg3 arg4 harg4 arg5 harg5 arg6 harg6 x0 x1 li lj d s K hc1 hc2 hc3

/-! ## The body obligation -/

variable (V : (c : Dev nD) → (b : Ref sig .tc) → Buf (Elt F) ((c : Thread nD τ).loc b))

/-- The first conditional is taken exactly at a row block's first point. -/
theorem kbody_hcond1 : ∀ t : Fin cfg0.N, cond1 (grid0.coords t) = 1#1 ↔ t.val % 8 = 0 :=
  (by decide +kernel : ∀ t : Fin grid0.N, cond1 (grid0.coords t) = 1#1 ↔ t.val % 8 = 0)

/-- Where the third conditional is taken the output window is live; -/
theorem kbody_liveAt_4 : ∀ t : Fin cfg0.N, k0_cond3 (grid0.coords t) = 1#1 → cfg0.idle 4 (grid0.coords t) = false := by decide +kernel
/-- elsewhere it is idle -/
theorem kbody_idleAt_4 : ∀ t : Fin cfg0.N, ¬k0_cond3 (grid0.coords t) = 1#1 → cfg0.idle 4 (grid0.coords t) = true := by decide +kernel
/-- and not written back. -/
theorem kbody_noFlush_4 : ∀ t : Fin cfg0.N, ¬k0_cond3 (grid0.coords t) = 1#1 → (cfg0.win 4).flush t = false := by decide +kernel

/-- One point's effect on a state that is the carried one (or anything, at a row block's first point) is the next carried state. -/
theorem kbody_state_succ (c : Dev nD) (t : Fin cfg0.N) (s : St F) (hs : t.val % 8 ≠ 0 → s = stAt V c t.val) :
    step (grid0.coords t) (iblk V c 0 t) (iblk V c 1 t) (iblk V c 2 t) (iblk V c 3 t) s = stAt V c (t.val + 1) := by
  rw [stAt_succ]
  by_cases h : t.val % 8 = 0
  · exact step_reset _ ((kbody_hcond1 t).mpr h) _ _ _ _ _ _
  · rw [hs h]

/-- What the body is called with at point `t`, the windows one by one, -/
def kbodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def kbodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point: the inputs' buffers hold their blocks; the invariant hands the body the three scratch
    buffers at a state that is the carried one unless the point resets them, and takes them back at the next carried
    state; the output window is live exactly where the losses are stored, and handed back untouched elsewhere. -/
theorem kbody_sound (c : Dev nD) (t : Fin cfg0.N) :
    kbodyPre V c t ⊢ wp frame (wpE (defs₀ (F := F)) Variants.none c none) Set.univ (bodyAt0 t) (fun _ => kbodyPost V c t) := by
  unfold kbodyPre kbodyPost bodyAt0
  simp only [before_0, before_1, before_2, before_3]
  rw [show (dat0 V c).owesAt () t.succ = (dat0 V c).owesAt () t.castSucc from rfl]
  rw [Phi_eq, Phi_eq, Fin.coe_castSucc, Fin.val_succ]
  unfold PhiS
  rw [show (dat0 V c).leavesExact 0 t = owns (c : Thread nD τ) (st0_0 t) fullShare ((dat0 V c).after 0 t) from rfl, after_0,
    show (dat0 V c).leavesExact 1 t = owns (c : Thread nD τ) (st0_1 t) fullShare ((dat0 V c).after 1 t) from rfl, after_1,
    show (dat0 V c).leavesExact 2 t = owns (c : Thread nD τ) (st0_2 t) fullShare ((dat0 V c).after 2 t) from rfl, after_2,
    show (dat0 V c).leavesExact 3 t = owns (c : Thread nD τ) (st0_3 t) fullShare ((dat0 V c).after 3 t) from rfl, after_3]
  by_cases h3 : k0_cond3 (grid0.coords t) = 1#1
  · rw [show (dat0 V c).leavesExact 4 t = owns (c : Thread nD τ) (st0_4 t) fullShare ((dat0 V c).after 4 t) from by
      unfold Dat.leavesExact; rw [kbody_liveAt_4 t h3], after_4]
    iintro ⟨⟨Hg, ⟨%s, %hs, HS0, HS1, HS2⟩⟩, Ho, ⟨%d0, H0⟩, ⟨%d1, H1⟩, ⟨%d2, H2⟩, ⟨%d3, H3⟩, ⟨%d4, H4⟩⟩
    iapply (sound_kernel c Set.univ (grid0.coords t) _ _ _ _ _ _ _ _ _ _ (iblk V c 0 t) (iblk V c 1 t) (iblk V c 2 t) (iblk V c 3 t) ((dat0 V c).before 4 t d4) s _)
    rw [if_pos h3, kbody_state_succ V c t s hs]
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [Hg HS0 HS1 HS2]
    · isplitl [Hg]; · iexact Hg
      iexists (stAt V c (t.val + 1)); isplitr; · ipureintro; exact fun _ => rfl
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (kbody_idleAt_4 t h3) (kbody_noFlush_4 t h3)]
    iintro ⟨⟨Hg, ⟨%s, %hs, HS0, HS1, HS2⟩⟩, Ho, ⟨%d0, H0⟩, ⟨%d1, H1⟩, ⟨%d2, H2⟩, ⟨%d3, H3⟩, ⟨%d4, H4⟩⟩
    iapply (sound_kernel c Set.univ (grid0.coords t) _ _ _ _ _ _ _ _ _ _ (iblk V c 0 t) (iblk V c 1 t) (iblk V c 2 t) (iblk V c 3 t) ((dat0 V c).before 4 t d4) s _)
    rw [if_neg h3, kbody_state_succ V c t s hs]
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [Hg HS0 HS1 HS2]
    · isplitl [Hg]; · iexact Hg
      iexists (stAt V c (t.val + 1)); isplitr; · ipureintro; exact fun _ => rfl
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexists d4; iexact H4

/-- The library's body obligation, at every point. -/
theorem body_obligation (c : Dev nD) :
    BodyObligation (dat0 (F := F) V c) (defs₀ (F := F)) Variants.none () Set.univ := fun t => by
  rw [bigSep_W0, bigSep_W0]
  exact kbody_sound V c t

end Cert.Kernel.Hand

end
-- ==== Proof.KDatI.lean ====
/-
  The proof data of the one pipeline of the program, for any float instance.

  The grid is 8 × 8: row block `bi` (outer) and column block `bj` (inner), visited in row-major order, so the point
  `t` has `bj = t % 8`. Three whole scratch buffers are carried from point to point within a row block: the running row
  maximum, the running rescaled row sum and the row's positive logit. At `bj = 0` they are reset, at every point the
  maximum and the sum absorb the point's column block, at the column block paired with the row block the positive is
  taken from the tile's diagonal, and at `bj = 7` the row block's losses are stored into the output window, which is
  written back there and idle everywhere else.

  `step` is one point's effect on the three scratch buffers as a pure function of the point's input blocks, spelt
  with the body's named payloads; `stAt n` is the scratch state before point `n` (for `n` not a multiple of 8: at a
  multiple of 8 the buffers hold leftovers that the reset overwrites); `outOf` is the block of losses from a state.
-/
import proofs.«156892_j84602265797103_2_alg».proof.Proof.Gen.KernelIdeal.Launch
import proofs.«156892_j84602265797103_2_alg».proof.Proof.Gen.KernelIdeal.Skeleton
import proofs.«156892_j84602265797103_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point's effect on the carried scratch -/

/-- The first conditional's condition (`bj = 0`: reset the scratch), as the body computes it. -/
def cond1 (i : grid0.Coords) : BitVec 1 :=
  Scalar.cmpi .ne (Scalar.extui (Scalar.cmpi .eq (BitVec.ofNat 32 (i 1).val) 0#32)) 0#32

/-- The second conditional's condition (`bj` is the column block paired with row block `bi`), as the body computes it. -/
def cond2 (i : grid0.Coords) : BitVec 1 :=
  Scalar.cmpi .ne (Scalar.extui (Scalar.cmpi .eq (BitVec.ofNat 32 (i 1).val)
    (Scalar.select (Scalar.cmpi .slt (BitVec.ofNat 32 (i 0).val) 4#32) (Scalar.addi (BitVec.ofNat 32 (i 0).val) 4#32)
      (Scalar.subi (BitVec.ofNat 32 (i 0).val) 4#32)))) 0#32

/-- The three carried scratch buffers: running maximum, running sum, positive logit. -/
structure St (F : FTy → Type) where
  m : Vec F S1024x1 .f32
  l : Vec F S1024x1 .f32
  p : Vec F S1024x1 .f32

/-- One point: reset at `bj = 0`; absorb the tile into the maximum and the sum; take the diagonal at the paired block. -/
def step (i : grid0.Coords) (x0 x1 : Vec F S1024x256 .bf16) (li : Vec F S1024x1 .i32) (lj : Vec F S1x1024 .i32) (s : St F) : St F where
  m := k0_pay2 (k0_pay10 x0 x1 li lj (if cond1 i = 1#1 then k0_pay5 else s.m))
  l := k0_pay1 (k0_pay11 x0 x1 li lj (if cond1 i = 1#1 then k0_pay5 else s.m) (if cond1 i = 1#1 then k0_pay5 else s.m)
    (if cond1 i = 1#1 then k0_pay6 else s.l))
  p := if cond2 i = 1#1 then k0_pay3 (k0_pay8 x0 x1) else (if cond1 i = 1#1 then k0_pay7 else s.p)

/-- The block of losses the last column block's point stores, from the scratch state after that point's updates. -/
def outOf (s : St F) : Vec F S1024x1 .f32 := k0_pay4 s.m s.p s.m s.l s.p s.p

/-- At `bj = 0` the point's effect does not depend on what the scratch held. -/
theorem step_reset (i : grid0.Coords) (h : cond1 i = 1#1) (x0 x1 : Vec F S1024x256 .bf16) (li : Vec F S1024x1 .i32)
    (lj : Vec F S1x1024 .i32) (s s' : St F) : step i x0 x1 li lj s = step i x0 x1 li lj s' := by
  unfold step; simp only [h, if_true]

variable (V : (c : Dev nD) → (b : Ref sig .tc) → Buf (Elt F) ((c : Thread nD τ).loc b))

/-! ## The windows' blocks and the scratch state point by point -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried scratch before point `n` (meaningful when `n` is not a multiple of 8). -/
def stAt (c : Dev nD) : (n : Nat) → St F
  | 0 => ⟨k0_pay5, k0_pay6, k0_pay7⟩
  | n + 1 =>
    if h : n < cfg0.N then
      step (grid0.coords ⟨n, h⟩) (iblk V c 0 ⟨n, h⟩) (iblk V c 1 ⟨n, h⟩) (iblk V c 2 ⟨n, h⟩) (iblk V c 3 ⟨n, h⟩) (stAt c n)
    else stAt c n

theorem stAt_succ (c : Dev nD) (t : Fin cfg0.N) :
    stAt V c (t.val + 1) = step (grid0.coords t) (iblk V c 0 t) (iblk V c 1 t) (iblk V c 2 t) (iblk V c 3 t) (stAt V c t.val) := by
  rw [stAt, dif_pos t.isLt]

/-! ## The invariant and the proof data -/

abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- Before point `n`: the generator register at some state, and the three scratch buffers whole at some state `s`,
    which is `stAt n` unless `n` is a multiple of 8 (a row block's first point, which resets them). -/
def PhiS (c : Dev nD) (n : Nat) : sProp 𝕄 :=
  iprop((∃ r, prngReg c r) ∗ ∃ s : St F, ⌜n % 8 ≠ 0 → s = stAt V c n⌝
    ∗ owns (c : Thread nD τ) scM0 fullShare s.m ∗ owns (c : Thread nD τ) scM1 fullShare s.l ∗ owns (c : Thread nD τ) scM2 fullShare s.p)

/-- The proof data: the arrays as the region finds them; after the body each input's buffer at its block and the
    output's at the losses of the state after the point (read only where the point writes back, `bj = 7`); the two
    windows on the one array of normalized rows hold complementary halves of it. -/
def dat0 (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outOf (stAt V c (t.val + 1))
  Φ t := PhiS V c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = outOf (stAt V c (t.val + 1)) := by dsimp only [dat0]

theorem Phi_eq (c : Dev nD) (t : Fin (cfg0.N + 1)) : (dat0 V c).Φ t = PhiS V c t.val := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The buffer contents when the region is entered, and the host's last lines -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first norm call, -/
def Wa (c : Dev nD) : Valuation τ sig (Elt F) := StableHlo.after hostOps0 (W0 m ρ c)
/-- the first argument's normalization, -/
def Wb (c : Dev nD) : Valuation τ sig (Elt F) := StableHlo.after hostOps0_1 (Wa m ρ c)
/-- the second norm call, -/
def Wc (c : Dev nD) : Valuation τ sig (Elt F) := StableHlo.after hostOps0_2 (Wb m ρ c)
/-- and the second argument's normalization, the stacking of the rows and of the labels: the region's entry. -/
def Wd (c : Dev nD) : Valuation τ sig (Elt F) := StableHlo.after hostOps0_3 (Wc m ρ c)
/-- The same read at the TensorCore's references: what the region's proof data take. -/
abbrev V0 : (c : Dev nD) → (b : Ref sig .tc) → Buf (Elt F) ((c : Thread nD τ).loc b) := fun c b => Wd m ρ c b

/-- The host's lines after the region, as one function of the region's result array: the sum of its entries over 8192. -/
def tailVal (y : (⟨S8192x1, .f32⟩ : BufTy).Contents (Elt F)) : (⟨S_, .f32⟩ : BufTy).Contents (Elt F) :=
  Host.divf (Host.reduceAdd y (constant S_ .f32 0x00000000#32) reducesTo_S8192x1_S_d0_1 h_S_) (constant S_ .f32 0x46000000#32)

end Cert.KernelIdeal.Hand

end
-- ==== Proof.KRunI.lean ====
/-
  The run of the whole program, for any float instance, with the region's result named.

  The program is four stretches of host operations (two row normalizations, the stacking of the rows and of the
  labels, two reshapes), one kernel region on an 8 × 8 grid, and a last stretch (the sum of the region's result array
  divided by 8192). The thread state carried from segment to segment is "every unscoped buffer whole at the boundary's
  contents, the generator register at some state, nothing owed"; the contents at each boundary are a fold through the
  program: `W0` (the launch memory), `Wa` … `Wd` (after each of the four stretches), `W1` (after the region: the
  result array at what the write-backs leave, every other buffer as entered) and `We` (after the last stretch).

  Two of the region's five windows read ONE array, the stacked normalized rows. At the region's entry the buffer
  behind it, held whole at the full share, is split along the share into its left and right halves, one per window;
  an input window never writes its array, so at the exit both halves still hold the entry contents and are joined
  back into the full share. The other three arrays are distinct and each window holds its own whole.

  The three scratch buffers, scoped to the region, enter the invariant at whatever they hold (the first point of a
  row block resets them) and leave it at whatever the last point left.

  `run_main_of`: given the body obligation at every point, every weakly fair execution from any launch memory with zero
  counters terminates, the result buffer ends at `tailVal` of the region's result array, and the arguments end as launched.
-/
import proofs.«156892_j84602265797103_2_alg».proof.Proof.KDatI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Arrays

variable (V : (c : Dev nD) → (b : Ref sig .tc) → Buf (Elt F) ((c : Thread nD τ).loc b))

/-! ## The windows' arrays and the four buffers behind them -/

/-- The windows' arrays one by one: the two windows on the array of normalized rows hold its two halves. -/
theorem arrays_eq0 (c : Dev nD) (G : (w : Fin cfg0.W) → Buf (Elt F) ((cfg0.win w).arr.view.loc (c.tc : Thread nD τ))) :
    ((dat0 V c).arrays G : sProp 𝕄)
      = iprop((((c.tc : Thread nD τ).loc main_v12) ↦{fullShare.left} G 0) ∗ (((c.tc : Thread nD τ).loc main_v12) ↦{fullShare.right} G 1)
          ∗ (((c.tc : Thread nD τ).loc main_v14) ↦{fullShare} G 2) ∗ (((c.tc : Thread nD τ).loc main_v15) ↦{fullShare} G 3)
          ∗ (((c.tc : Thread nD τ).loc main_v16) ↦{fullShare} G 4)) := by
  unfold Dat.arrays
  rw [bigSep_W0, (arr_whole0 0).set_eq_univ, (arr_whole0 2).set_eq_univ, (arr_whole0 3).set_eq_univ,
    (arr_whole0 4).set_eq_univ]
  rfl

/-- The distinct buffers behind the windows' arrays, one by one. -/
theorem arrBufs_eq0 (c : Dev nD) (X : (b : Ref sig .tc) → Buf (Elt F) ((c.tc : Thread nD τ).loc b)) :
    (Pipeline.arrBufs (Ix := Unit) (Name := ℕ) (U := Pipeline.UD sig nD τ) (Lvl := ℕ) spec0 c X : sProp 𝕄)
      = iprop((((c.tc : Thread nD τ).loc main_v12) ↦{fullShare} X main_v12) ∗ (((c.tc : Thread nD τ).loc main_v14) ↦{fullShare} X main_v14)
          ∗ (((c.tc : Thread nD τ).loc main_v15) ↦{fullShare} X main_v15) ∗ (((c.tc : Thread nD τ).loc main_v16) ↦{fullShare} X main_v16)) := by
  unfold Pipeline.arrBufs
  exact BI.bigSep_eq_bigSepL_of_eq [main_v12, main_v14, main_v15, main_v16] (by decide) (by decide) _

/-- Every unscoped buffer whole is the four buffers behind the windows' arrays and the rest. -/
theorem held_split0 (c : Dev nD) (W : Valuation τ sig (Elt F)) :
    (StableHlo.held (c : Thread nD τ) (Pipeline.ucRefs τ sig) W : sProp 𝕄)
      = iprop(((((c.tc : Thread nD τ).loc main_v12) ↦{fullShare} W main_v12) ∗ (((c.tc : Thread nD τ).loc main_v14) ↦{fullShare} W main_v14)
          ∗ (((c.tc : Thread nD τ).loc main_v15) ↦{fullShare} W main_v15) ∗ (((c.tc : Thread nD τ).loc main_v16) ↦{fullShare} W main_v16))
        ∗ Pipeline.unscopedRest (Ix := Unit) (Name := ℕ) (U := Pipeline.UD sig nD τ) (Lvl := ℕ) spec0 c (fun b => W b)) := by
  rw [← Pipeline.unscopedBufs_held c W, Pipeline.unscopedBufs_split₀ cfgs 0 winFacts₀0.arr_unscoped c (fun b => W b)]
  exact congrArg (fun P => iprop(P ∗ Pipeline.unscopedRest (Ix := Unit) (Name := ℕ) (U := Pipeline.UD sig nD τ) (Lvl := ℕ) spec0 c (fun b => W b)))
    (arrBufs_eq0 c (fun b => W b))

/-- Off the windows' arrays only the contents off the result array are read. -/
theorem rest_congr0 (c : Dev nD) (W W' : Valuation τ sig (Elt F))
    (h : ∀ b : Ref sig .tc, b ≠ main_v16 → W' (Proc.devRef .tc b) = W (Proc.devRef .tc b)) :
    (Pipeline.unscopedRest (Ix := Unit) (Name := ℕ) (U := Pipeline.UD sig nD τ) (Lvl := ℕ) spec0 c (fun b => W' b) : sProp 𝕄)
      = Pipeline.unscopedRest spec0 c (fun b => W b) := by
  unfold Pipeline.unscopedRest
  exact bigSep_congr fun b hb => by
    dsimp only
    rw [h b fun e => (Finset.mem_sdiff.mp hb).2 (Finset.mem_image.mpr ⟨4, Finset.mem_univ _, e.symm⟩)]

/-- At the region's entry and exit the input windows' arrays hold the entry contents. -/
theorem arrays_at (c : Dev nD) (n : Nat) :
    ((dat0 V c).arrays ((dat0 V c).arrAt · n) : sProp 𝕄)
      = iprop((((c.tc : Thread nD τ).loc main_v12) ↦{fullShare.left} V c main_v12) ∗ (((c.tc : Thread nD τ).loc main_v12) ↦{fullShare.right} V c main_v12)
          ∗ (((c.tc : Thread nD τ).loc main_v14) ↦{fullShare} V c main_v14) ∗ (((c.tc : Thread nD τ).loc main_v15) ↦{fullShare} V c main_v15)
          ∗ (((c.tc : Thread nD τ).loc main_v16) ↦{fullShare} (dat0 V c).arrAt 4 n)) := by
  rw [arrays_eq0]
  rw [(dat0 V c).arrAt_in 0 rfl n, (dat0 V c).arrAt_in 1 rfl n, (dat0 V c).arrAt_in 2 rfl n, (dat0 V c).arrAt_in 3 rfl n]
  rfl

end Arrays

/-! ## The buffer contents after the region and after the host's last lines -/

variable (m : (ℓ : Loc nD τ sig) → Buf (Elt F) ℓ) (ρ : Dev nD → PrngReg)

/-- At the region's exit: the result array at what the write-backs leave, every other buffer as entered (an input
    window's array is never written, and nothing else is the region's to write). -/
def W1 (c : Dev nD) : Valuation τ sig (Elt F) :=
  Function.update (Wd m ρ c) (Proc.devRef .tc main_v16) ((dat0 (V0 m ρ) c).arrAt 4 cfg0.N)

/-- Read at the result array; -/
theorem W1_v16 (c : Dev nD) : W1 m ρ c (Proc.devRef .tc main_v16) = (dat0 (V0 m ρ) c).arrAt 4 cfg0.N := by
  unfold W1; exact Function.update_self ..

/-- and at any other reference. -/
theorem W1_of_ne (c : Dev nD) (b : Ref sig .tc) (hb : b ≠ main_v16) :
    W1 m ρ c (Proc.devRef .tc b) = Wd m ρ c (Proc.devRef .tc b) := by
  unfold W1; exact Function.update_of_ne (StableHlo.devRef_ne_of_ne hb) ..

/-- After the host's last lines: the last boundary. -/
def We (c : Dev nD) : Valuation τ sig (Elt F) := StableHlo.after hostOps1 (W1 m ρ c)

/-! ## The proof data family and the thread state -/

/-- The prefetched tables' admissible contents: the pipeline has no table. -/
abbrev adm : (p : Fin 1) → (pcfgs (F := F) p).Adm := fun p => (cfgs p).toPCfg_adm

/-- The one pipeline's proof data, at the region's entry contents — a literal match on the pipeline index, so that
    the pinned configuration at the numeral reduces to the printed one. -/
def pdats : (p : Fin 1) → (c : Dev nD) → Dat τ (Elt F) Unit ℕ (Pipeline.UD sig nD τ) ℕ (Pipeline.pin (pcfgs (F := F)) adm p) c
  | ⟨0, _⟩ => fun c => dat0 (V0 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A stretch of host operations as a segment: from every unscoped buffer whole at the contents `W`, to the same
    buffers at the contents after the operations, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of any stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (We m ρ c) ∗ ∃ r, prngReg c r)

/-! ## The region as a segment -/

-- a library lemma stated over the pinned configuration unifies with the printed one only when unification may unfold
-- plain definitions in a metavariable's type
set_option backward.isDefEq.respectTransparency.types false in
/-- The region over the thread state: entered from every unscoped buffer at `Wd`, left at `W1`. At the entry the four
    buffers behind the five windows are taken out of the unscoped buffers and the shared one is split along the share,
    the left half to window 0 and the right half to window 1; the generator register and the three scratch buffers,
    at whatever they hold, make the invariant at the first point (its pure side is vacuous there: point 0 starts a row
    block). At the exit the invariant gives them back, the two halves — still at the entry contents — are joined, and
    the four buffers go back among the unscoped ones at `W1`, which differs from `Wd` at the result array only. -/
def reg0 (hbody : ∀ c : Dev nD, BodyObligation (dat0 (F := F) (V0 m ρ) c) (defs₀ (F := F)) Variants.none () Set.univ) :
    Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (Wd m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none, held_split0 c (Wd m ρ c),
      show (pdats m ρ 0 c).arrays ((pdats m ρ 0 c).arrAt · 0) = (dat0 (V0 m ρ) c).arrays ((dat0 (V0 m ρ) c).arrAt · 0) from rfl,
      arrays_at (V0 m ρ) c 0]
    iintro ⟨⟨⟨⟨H12, H14, H15, H16⟩, Hrest⟩, Hp, HO⟩, -, -⟩
    ihave H := (pointsTo_share (PosShare.mem_left_op_right fullShare)).1 $$ H12
    icases H with ⟨H12l, H12r⟩
    imodintro
    isplitl [H12l H12r H14 H15 H16]
    · isplitl [H12l]; · iexact H12l
      isplitl [H12r]; · iexact H12r
      isplitl [H14]; · iexact H14
      isplitl [H15]; · iexact H15
      iexact H16
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS (V0 m ρ) c 0 from rfl,
      show (Pipeline.scopedRest (Pipeline.pin (pcfgs (F := F)) adm 0).spec c : sProp 𝕄) = Pipeline.scopedRest spec0 c from rfl, scopedRest0_eq]
    unfold PhiS
    simp only [owns_whole]
    iintro ⟨Hp, -, ⟨%f0, H0⟩, ⟨%f1, H1⟩, ⟨%f2, H2⟩⟩
    isplitl [Hp]; · iexact Hp
    iexists (⟨f0, f1, f2⟩ : St F)
    isplitr; · ipureintro; exact fun h => absurd rfl h
    isplitl [H0]; · iexact H0
    isplitl [H1]; · iexact H1
    iexact H2
  hout c := by
    rw [Pipeline.ownSems0_none, show (pdats m ρ 0 c).Φ (Fin.last _) = PhiS (V0 m ρ) c 64 from rfl,
      show (Pipeline.scopedRest (Pipeline.pin (pcfgs (F := F)) adm 0).spec c : sProp 𝕄) = Pipeline.scopedRest spec0 c from rfl, scopedRest0_eq]
    unfold PhiS
    simp only [owns_whole]
    iintro ⟨Hp, %s, -, H0, H1, H2⟩
    isplitl [Hp]; · iexact Hp
    isplitr; · iempintro
    isplitl [H0]; · iexists _; iexact H0
    isplitl [H1]; · iexists _; iexact H1
    iexists _; iexact H2
  hexit c := by
    rw [held_split0 c (W1 m ρ c), rest_congr0 c (Wd m ρ c) (W1 m ρ c) (fun b hb => W1_of_ne m ρ c b hb),
      show (pdats m ρ 0 c).arrays ((pdats m ρ 0 c).arrAt · (Pipeline.pin (pcfgs (F := F)) adm 0).N)
        = (dat0 (V0 m ρ) c).arrays ((dat0 (V0 m ρ) c).arrAt · cfg0.N) from rfl,
      arrays_at (V0 m ρ) c cfg0.N, W1_of_ne m ρ c main_v12 (by decide), W1_of_ne m ρ c main_v14 (by decide),
      W1_of_ne m ρ c main_v15 (by decide), W1_v16]
    iintro ⟨⟨H12l, H12r, H14, H15, H16⟩, HO, HY, Hrest⟩
    ihave H12 := (pointsTo_share (PosShare.mem_left_op_right fullShare)).2 $$ [H12l H12r]
    · isplitl [H12l]; · iexact H12l
      iexact H12r
    imodintro
    isplitl [H12 H14 H15 H16 Hrest]
    · isplitl [H12 H14 H15 H16]
      · isplitl [H12]; · iexact H12
        isplitl [H14]; · iexact H14
        isplitl [H15]; · iexact H15
        iexact H16
      iexact Hrest
    isplitl [HY]; · iexact HY
    unfold Pipeline.Dat.owesAt Pipeline.owesWithin
    icases HO with ⟨%W, -, HO⟩; iexists W; iexact HO

/-! ## The program as segments -/

/-- The program's six segments in order: a host segment per stretch from its boundary's contents, the region. -/
abbrev segs (hbody : ∀ c : Dev nD, BodyObligation (dat0 (F := F) (V0 m ρ) c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (Wa m ρ)),
    .host (hseg hostOps0_2 hostOps0_2_sub hostOps0_2_fresh (Wb m ρ)),
    .host (hseg hostOps0_3 hostOps0_3_sub hostOps0_3_fresh (Wc m ρ)),
    .region (reg0 m ρ hbody),
    .host (hseg hostOps1 hostOps1_sub hostOps1_fresh (W1 m ρ)) ]

/-- The program IS the run of the segments: the generated chain of its items, then the segments' run against that chain
    by definitional unfolding. -/
theorem main_run (hbody : ∀ c : Dev nD, BodyObligation (dat0 (F := F) (V0 m ρ) c) (defs₀ (F := F)) Variants.none () Set.univ) (c : Dev nD) :
    main (F := F) c = Pipeline.Seg.run (segs m ρ hbody) := (main_chain c).trans (by chain_rfl)

/-! ## What the last boundary's contents hold -/

/-- The result: the host's last lines applied to the region's result array. -/
theorem We_v18 (c : Dev nD) :
    We m ρ c (Proc.devRef .tc main_v18) = tailVal ((dat0 (V0 m ρ) c).arrAt 4 cfg0.N) := by
  unfold We tailVal
  dsimp only [hostOps1]
  after_results
  rw [W1_v16]

/-- Closes "the contents after a stretch, at a buffer the stretch does not write, are the contents before it". -/
local macro "unwritten" : tactic => `(tactic| (
  refine StableHlo.after_of_forall_not_mem _ _ (List.forall_iff_forall_mem.mp ?_)
  simp only [hostOps0, hostOps0_1, hostOps0_2, hostOps0_3, hostOps1, List.Forall, StableHlo.nullary_writes, StableHlo.unary_writes,
    StableHlo.binary_writes, StableHlo.reshape_writes, Finset.mem_singleton]
  repeat' apply And.intro
  all_goals exact StableHlo.devRef_ne_of_ne (by decide)))

/-! No stretch writes an argument, and the region writes only its result array: each argument ends as launched. -/
theorem We_main_arg0 (c : Dev nD) : We m ρ c (Proc.devRef .tc main_arg0) = m ((c : Thread nD τ).loc main_arg0) :=
  calc We m ρ c (Proc.devRef .tc main_arg0)
    _ = W1 m ρ c (Proc.devRef .tc main_arg0) := by unfold We; unwritten
    _ = Wd m ρ c (Proc.devRef .tc main_arg0) := W1_of_ne m ρ c main_arg0 (by decide)
    _ = Wc m ρ c (Proc.devRef .tc main_arg0) := by unfold Wd; unwritten
    _ = Wb m ρ c (Proc.devRef .tc main_arg0) := by unfold Wc; unwritten
    _ = Wa m ρ c (Proc.devRef .tc main_arg0) := by unfold Wb; unwritten
    _ = W0 m ρ c (Proc.devRef .tc main_arg0) := by unfold Wa; unwritten
    _ = m ((c : Thread nD τ).loc main_arg0) := rfl
theorem We_main_arg1 (c : Dev nD) : We m ρ c (Proc.devRef .tc main_arg1) = m ((c : Thread nD τ).loc main_arg1) :=
  calc We m ρ c (Proc.devRef .tc main_arg1)
    _ = W1 m ρ c (Proc.devRef .tc main_arg1) := by unfold We; unwritten
    _ = Wd m ρ c (Proc.devRef .tc main_arg1) := W1_of_ne m ρ c main_arg1 (by decide)
    _ = Wc m ρ c (Proc.devRef .tc main_arg1) := by unfold Wd; unwritten
    _ = Wb m ρ c (Proc.devRef .tc main_arg1) := by unfold Wc; unwritten
    _ = Wa m ρ c (Proc.devRef .tc main_arg1) := by unfold Wb; unwritten
    _ = W0 m ρ c (Proc.devRef .tc main_arg1) := by unfold Wa; unwritten
    _ = m ((c : Thread nD τ).loc main_arg1) := rfl
theorem We_main_arg2 (c : Dev nD) : We m ρ c (Proc.devRef .tc main_arg2) = m ((c : Thread nD τ).loc main_arg2) :=
  calc We m ρ c (Proc.devRef .tc main_arg2)
    _ = W1 m ρ c (Proc.devRef .tc main_arg2) := by unfold We; unwritten
    _ = Wd m ρ c (Proc.devRef .tc main_arg2) := W1_of_ne m ρ c main_arg2 (by decide)
    _ = Wc m ρ c (Proc.devRef .tc main_arg2) := by unfold Wd; unwritten
    _ = Wb m ρ c (Proc.devRef .tc main_arg2) := by unfold Wc; unwritten
    _ = Wa m ρ c (Proc.devRef .tc main_arg2) := by unfold Wb; unwritten
    _ = W0 m ρ c (Proc.devRef .tc main_arg2) := by unfold Wa; unwritten
    _ = m ((c : Thread nD τ).loc main_arg2) := rfl

/-! ## The launch -/

set_option backward.isDefEq.respectTransparency.types false in
/-- From any launch memory with zero counters, every weakly fair execution of the program terminates without a fault, and
    in every final state the result buffer holds the host's last lines applied to the region's result array as the
    write-backs leave it, and the three arguments are as launched — given the body obligation at every point. -/
theorem run_main_of (hbody : ∀ c : Dev nD, BodyObligation (dat0 (F := F) (V0 m ρ) c) (defs₀ (F := F)) Variants.none () Set.univ) :
    θ_run defs (onTc (τ := τ) (main (F := F))) ⟨m, fun _ => 0, ρ⟩ (fun r => ∀ c : Dev nD,
      r.2.mem ((c.tc : Thread nD τ).loc main_v18) = tailVal ((dat0 (V0 m ρ) c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj embL defs₀ 𝒱₀ L lv m ρ main (segs m ρ hbody)
    (fun c Q => by rw [main_run m ρ hbody c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (We m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c =>
      ⟨(h c _ (mem_uc main_v18 (by decide))).trans (We_v18 m ρ c),
       (h c _ (mem_uc main_arg0 (by decide))).trans (We_main_arg0 m ρ c),
       (h c _ (mem_uc main_arg1 (by decide))).trans (We_main_arg1 m ρ c),
       (h c _ (mem_uc main_arg2 (by decide))).trans (We_main_arg2 m ρ c)⟩)

/-- info: 'Cert.KernelIdeal.Hand.run_main_of' depends on axioms: [propext, Classical.choice, Quot.sound] -/
#guard_msgs in #print axioms run_main_of

end Cert.KernelIdeal.Hand

end
-- ==== Proof.KBodyI.lean ====
/-
  The kernel body's triple and the body obligation of the one pipeline, for any float instance.

  One grid point runs three conditionals on the point's coordinates. With the three scratch buffers whole at a
  state `s` and the four input buffers at their blocks, the body leaves the scratch at `step i … s` and the output
  buffer at the losses of that state where the third conditional is taken, untouched elsewhere. This is proved
  case by case over the eight truth assignments of the three conditions: in each case the body is a straight line
  of whole-buffer loads and whole-buffer stores, every buffer ends with at most two stores of which the last covers
  it, so it reads that store's payload; a load after such a store reads the payload stored, and a load of an
  untouched buffer reads what the buffer held. The payloads, opened at those reads, are the fields of `step`.

  The body obligation then follows point by point: the inputs' buffers hold their blocks; the invariant gives the
  scratch at a state that is the carried one unless the point is a row block's first (where the body's reset makes
  the state irrelevant), and the state after the point is the next carried one; the output window is live exactly at
  a row block's last point, where the losses are stored and written back, and is handed back as found elsewhere.
-/
import proofs.«156892_j84602265797103_2_alg».proof.Proof.KDatI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-buffer stores and loads -/

/-- The zero offsets of a rank-2 access, however spelt. -/
theorem kbody_hz : (![0, 0] : Fin 2 → Nat) = fun _ => 0 := funext fun a => by fin_cases a <;> rfl

/-- What a buffer reads after a list of stores whose last one covers it whole: that store's payload. -/
theorem kbody_read_writes {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- What a whole load reads after such a list of stores: the last store's payload. -/
theorem kbody_readCov {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The body's triple, case by case -/

set_option maxHeartbeats 1000000 in
/-- The body's triple where the reset is taken, the diagonal is taken and the losses are stored. -/
theorem sound_kernel_TTT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_pos hc3]

set_option maxHeartbeats 1000000 in
/-- The body's triple where the reset is taken, the diagonal is taken and the losses are not stored. -/
theorem sound_kernel_TTF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_pos hc1, if_pos hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_neg hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_pos hc2, if_neg hc3]

set_option maxHeartbeats 1000000 in
/-- The body's triple where the reset is taken, the diagonal is not taken and the losses are stored. -/
theorem sound_kernel_TFT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : ¬ cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_pos hc3]

set_option maxHeartbeats 1000000 in
/-- The body's triple where the reset is taken, the diagonal is not taken and the losses are not stored. -/
theorem sound_kernel_TFF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : cond1 i = 1#1) (hc2 : ¬ cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_pos hc1, if_neg hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_neg hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_pos hc1, if_neg hc2, if_neg hc3]

set_option maxHeartbeats 1000000 in
/-- The body's triple where the reset is not taken, the diagonal is taken and the losses are stored. -/
theorem sound_kernel_FTT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_pos hc3]

set_option maxHeartbeats 1000000 in
/-- The body's triple where the reset is not taken, the diagonal is taken and the losses are not stored. -/
theorem sound_kernel_FTF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_neg hc1, if_pos hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_neg hc3]
  · iexists _; isplitr; swap; · iexact H9
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_pos hc2, if_neg hc3]

set_option maxHeartbeats 1000000 in
/-- The body's triple where the reset is not taken, the diagonal is not taken and the losses are stored. -/
theorem sound_kernel_FFT (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : ¬ cond2 i = 1#1) (hc3 : k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_pos hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_pos hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_pos hc3]
  · iexists _; isplitr; swap; · iexact H9
    ipureintro
    simp only [Memref.view_whole, View.read_whole, step, outOf, if_neg hc1, if_neg hc2, if_pos hc3]

set_option maxHeartbeats 1000000 in
/-- The body's triple where the reset is not taken, the diagonal is not taken and the losses are not stored. -/
theorem sound_kernel_FFF (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄)
    (hc1 : ¬ cond1 i = 1#1) (hc2 : ¬ cond2 i = 1#1) (hc3 : ¬ k0_cond3 i = 1#1) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  have h1 := hc1; have h2 := hc2; have h3 := hc3
  unfold cond1 at h1; unfold cond2 at h2
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6
  simp only [Memref.view_whole, View.read_whole] at hf7 hf8 hf9
  subst hf7; subst hf8; subst hf9
  sl_exec (disch := first | exact h1 | exact h2 | exact h3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine hf6.trans ?_
    simp only [step, outOf, if_neg hc1, if_neg hc2, if_neg hc3]
  isplitl [H7]
  · iexists _; isplitr; swap; · iexact H7
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_neg hc3]
  isplitl [H8]
  · iexists _; isplitr; swap; · iexact H8
    ipureintro
    sl_unfold_words
    refine (kbody_read_writes _ _ kbody_hz _ _ _).trans ?_
    try simp only [View.readAt_eq_ld, Memref.IsWhole.read_unread, Memref.view_whole, View.read_whole, View.ld_unit_zero (S := S1024x256) kbody_hz, View.ld_unit_zero (S := S1024x1) kbody_hz, View.ld_unit_zero (S := S1x1024) kbody_hz, kbody_readCov (S := S1024x1) _ kbody_hz]
    simp only [step, outOf, if_neg hc1, if_neg hc2, if_neg hc3]
  · iexists _; isplitr; swap; · iexact H9
    ipureintro
    simp only [Memref.view_whole, View.read_whole, step, outOf, if_neg hc1, if_neg hc2, if_neg hc3]

/-- The body's triple at any point: by cases on the three conditions. -/
theorem sound_kernel (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole)
    (x0 x1 : Vec F S1024x256 .bf16) (li : Vec F S1024x1 .i32) (lj : Vec F S1x1024 .i32) (d : Vec F S1024x1 .f32) (s : St F) (K : PUnit → sProp 𝕄) :
    iprop(owns (c : Thread nD τ) arg2 fullShare x0 ∗ owns (c : Thread nD τ) arg3 fullShare x1 ∗ owns (c : Thread nD τ) arg4 fullShare li ∗ owns (c : Thread nD τ) arg5 fullShare lj
          ∗ owns (c : Thread nD τ) arg6 fullShare d ∗ owns (c : Thread nD τ) scM0 fullShare s.m ∗ owns (c : Thread nD τ) scM1 fullShare s.l ∗ owns (c : Thread nD τ) scM2 fullShare s.p
          ∗ (iprop(owns (c : Thread nD τ) arg2 fullShare x0 ∗ owns (c : Thread nD τ) arg3 fullShare x1 ∗ owns (c : Thread nD τ) arg4 fullShare li ∗ owns (c : Thread nD τ) arg5 fullShare lj
              ∗ owns (c : Thread nD τ) arg6 fullShare (if k0_cond3 i = 1#1 then outOf (step i x0 x1 li lj s) else d)
              ∗ owns (c : Thread nD τ) scM0 fullShare (step i x0 x1 li lj s).m ∗ owns (c : Thread nD τ) scM1 fullShare (step i x0 x1 li lj s).l ∗ owns (c : Thread nD τ) scM2 fullShare (step i x0 x1 li lj s).p) -∗ K ⟨⟩))
        ⊢ wp frame (wpE (defs₀ (F := F)) Variants.none c none) E
            (cc0_kernel i arg2 harg2 arg3 harg3 arg4 harg4 arg5 harg5 arg6 harg6 scM0 (Memref.isWhole_whole _) scM1 (Memref.isWhole_whole _) scM2 (Memref.isWhole_whole _)) K := by
  by_cases hc1 : cond1 i = 1#1
  · by_cases hc2 : cond2 i = 1#1
    · by_cases hc3 : k0_cond3 i = 1#1
      · exact sound_kernel_TTT c E i arg2 harg2 arg3 harg3 arg4 harg4 arg5 harg5 arg6 harg6 x0 x1 li lj d s K hc1 hc2 hc3
      · exact sound_kernel_TTF c E i arg2 harg2 arg3 harg3 arg4 harg4 arg5 harg5 arg6 harg6 x0 x1 li lj d s K hc1 hc2 hc3
    · by_cases hc3 : k0_cond3 i = 1#1
      · exact sound_kernel_TFT c E i arg2 harg2 arg3 harg3 arg4 harg4 arg5 harg5 arg6 harg6 x0 x1 li lj d s K hc1 hc2 hc3
      · exact sound_kernel_TFF c E i arg2 harg2 arg3 harg3 arg4 harg4 arg5 harg5 arg6 harg6 x0 x1 li lj d s K hc1 hc2 hc3
  · by_cases hc2 : cond2 i = 1#1
    · by_cases hc3 : k0_cond3 i = 1#1
      · exact sound_kernel_FTT c E i arg2 harg2 arg3 harg3 arg4 harg4 arg5 harg5 arg6 harg6 x0 x1 li lj d s K hc1 hc2 hc3
      · exact sound_kernel_FTF c E i arg2 harg2 arg3 harg3 arg4 harg4 arg5 harg5 arg6 harg6 x0 x1 li lj d s K hc1 hc2 hc3
    · by_cases hc3 : k0_cond3 i = 1#1
      · exact sound_kernel_FFT c E i arg2 harg2 arg3 harg3 arg4 harg4 arg5 harg5 arg6 harg6 x0 x1 li lj d s K hc1 hc2 hc3
      · exact sound_kernel_FFF c E i arg2 harg2 arg3 harg3 arg4 harg4 arg5 harg5 arg6 harg6 x0 x1 li lj d s K hc1 hc2 hc3

/-! ## The body obligation -/

variable (V : (c : Dev nD) → (b : Ref sig .tc) → Buf (Elt F) ((c : Thread nD τ).loc b))

/-- The first conditional is taken exactly at a row block's first point. -/
theorem kbody_hcond1 : ∀ t : Fin cfg0.N, cond1 (grid0.coords t) = 1#1 ↔ t.val % 8 = 0 :=
  (by decide +kernel : ∀ t : Fin grid0.N, cond1 (grid0.coords t) = 1#1 ↔ t.val % 8 = 0)

/-- Where the third conditional is taken the output window is live; -/
theorem kbody_liveAt_4 : ∀ t : Fin cfg0.N, k0_cond3 (grid0.coords t) = 1#1 → cfg0.idle 4 (grid0.coords t) = false := by decide +kernel
/-- elsewhere it is idle -/
theorem kbody_idleAt_4 : ∀ t : Fin cfg0.N, ¬k0_cond3 (grid0.coords t) = 1#1 → cfg0.idle 4 (grid0.coords t) = true := by decide +kernel
/-- and not written back. -/
theorem kbody_noFlush_4 : ∀ t : Fin cfg0.N, ¬k0_cond3 (grid0.coords t) = 1#1 → (cfg0.win 4).flush t = false := by decide +kernel

/-- One point's effect on a state that is the carried one (or anything, at a row block's first point) is the next carried state. -/
theorem kbody_state_succ (c : Dev nD) (t : Fin cfg0.N) (s : St F) (hs : t.val % 8 ≠ 0 → s = stAt V c t.val) :
    step (grid0.coords t) (iblk V c 0 t) (iblk V c 1 t) (iblk V c 2 t) (iblk V c 3 t) s = stAt V c (t.val + 1) := by
  rw [stAt_succ]
  by_cases h : t.val % 8 = 0
  · exact step_reset _ ((kbody_hcond1 t).mpr h) _ _ _ _ _ _
  · rw [hs h]

/-- What the body is called with at point `t`, the windows one by one, -/
def kbodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def kbodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point: the inputs' buffers hold their blocks; the invariant hands the body the three scratch
    buffers at a state that is the carried one unless the point resets them, and takes them back at the next carried
    state; the output window is live exactly where the losses are stored, and handed back untouched elsewhere. -/
theorem kbody_sound (c : Dev nD) (t : Fin cfg0.N) :
    kbodyPre V c t ⊢ wp frame (wpE (defs₀ (F := F)) Variants.none c none) Set.univ (bodyAt0 t) (fun _ => kbodyPost V c t) := by
  unfold kbodyPre kbodyPost bodyAt0
  simp only [before_0, before_1, before_2, before_3]
  rw [show (dat0 V c).owesAt () t.succ = (dat0 V c).owesAt () t.castSucc from rfl]
  rw [Phi_eq, Phi_eq, Fin.coe_castSucc, Fin.val_succ]
  unfold PhiS
  rw [show (dat0 V c).leavesExact 0 t = owns (c : Thread nD τ) (st0_0 t) fullShare ((dat0 V c).after 0 t) from rfl, after_0,
    show (dat0 V c).leavesExact 1 t = owns (c : Thread nD τ) (st0_1 t) fullShare ((dat0 V c).after 1 t) from rfl, after_1,
    show (dat0 V c).leavesExact 2 t = owns (c : Thread nD τ) (st0_2 t) fullShare ((dat0 V c).after 2 t) from rfl, after_2,
    show (dat0 V c).leavesExact 3 t = owns (c : Thread nD τ) (st0_3 t) fullShare ((dat0 V c).after 3 t) from rfl, after_3]
  by_cases h3 : k0_cond3 (grid0.coords t) = 1#1
  · rw [show (dat0 V c).leavesExact 4 t = owns (c : Thread nD τ) (st0_4 t) fullShare ((dat0 V c).after 4 t) from by
      unfold Dat.leavesExact; rw [kbody_liveAt_4 t h3], after_4]
    iintro ⟨⟨Hg, ⟨%s, %hs, HS0, HS1, HS2⟩⟩, Ho, ⟨%d0, H0⟩, ⟨%d1, H1⟩, ⟨%d2, H2⟩, ⟨%d3, H3⟩, ⟨%d4, H4⟩⟩
    iapply (sound_kernel c Set.univ (grid0.coords t) _ _ _ _ _ _ _ _ _ _ (iblk V c 0 t) (iblk V c 1 t) (iblk V c 2 t) (iblk V c 3 t) ((dat0 V c).before 4 t d4) s _)
    rw [if_pos h3, kbody_state_succ V c t s hs]
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [Hg HS0 HS1 HS2]
    · isplitl [Hg]; · iexact Hg
      iexists (stAt V c (t.val + 1)); isplitr; · ipureintro; exact fun _ => rfl
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexact H4
  · rw [Dat.leavesExact_idle (dat0 V c) 4 t (kbody_idleAt_4 t h3) (kbody_noFlush_4 t h3)]
    iintro ⟨⟨Hg, ⟨%s, %hs, HS0, HS1, HS2⟩⟩, Ho, ⟨%d0, H0⟩, ⟨%d1, H1⟩, ⟨%d2, H2⟩, ⟨%d3, H3⟩, ⟨%d4, H4⟩⟩
    iapply (sound_kernel c Set.univ (grid0.coords t) _ _ _ _ _ _ _ _ _ _ (iblk V c 0 t) (iblk V c 1 t) (iblk V c 2 t) (iblk V c 3 t) ((dat0 V c).before 4 t d4) s _)
    rw [if_neg h3, kbody_state_succ V c t s hs]
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [Hg HS0 HS1 HS2]
    · isplitl [Hg]; · iexact Hg
      iexists (stAt V c (t.val + 1)); isplitr; · ipureintro; exact fun _ => rfl
      isplitl [HS0]; · iexact HS0
      isplitl [HS1]; · iexact HS1
      iexact HS2
    isplitl [Ho]; · iexact Ho
    isplitl [H0]; · iexact H0
    isplitl [H1]; · iexact H1
    isplitl [H2]; · iexact H2
    isplitl [H3]; · iexact H3
    iexists d4; iexact H4

/-- The library's body obligation, at every point. -/
theorem body_obligation (c : Dev nD) :
    BodyObligation (dat0 (F := F) V c) (defs₀ (F := F)) Variants.none () Set.univ := fun t => by
  rw [bigSep_W0, bigSep_W0]
  exact kbody_sound V c t

end Cert.KernelIdeal.Hand

end
-- ==== Proof.KBlkI.lean ====
/-
  Where each window's block sits in its array: at point `t` of the 8 × 8 grid the row block is `t / 8` and the
  column block `t % 8`; windows 0, 2 and 4 follow the row block, windows 1 and 3 the column block. An element of a
  block is the array's element at the block index times the block's extent plus the coordinate inside the block.
-/
import proofs.«156892_j84602265797103_2_alg».proof.Proof.KDatI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The printed index maps in closed form, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

theorem N_64 : cfg0.N = 64 := N_0

/-- Window 0's block: rows `1024·(t/8) + r` of the normalized rows. -/
theorem iblk0_apply (c : Dev nD) (t : Fin cfg0.N) (r : Fin 1024) (k : Fin 256) (i : Fin 8192) (hi : i.val = t.val / 8 * 1024 + r.val) :
    iblk V c 0 t (ix2 r k) = V c main_v12 (ix2 i k) := by
  obtain ⟨e0, e1, -⟩ := idx_facts t
  show V c main_v12 (((cfg0.win 0).blk t).view.emb (ix2 r k)) = V c main_v12 (ix2 i k)
  refine congrArg _ ?_
  funext a; apply Fin.ext
  match a with
  | ⟨0, _⟩ => show win0_0.index t (0 : Fin 2) * 1024 + 1 * r.val = i.val; omega
  | ⟨1, _⟩ => show win0_0.index t (1 : Fin 2) * 256 + 1 * k.val = k.val; omega

/-- Window 1's block: rows `1024·(t%8) + q` of the normalized rows. -/
theorem iblk1_apply (c : Dev nD) (t : Fin cfg0.N) (q : Fin 1024) (k : Fin 256) (j : Fin 8192) (hj : j.val = t.val % 8 * 1024 + q.val) :
    iblk V c 1 t (ix2 q k) = V c main_v12 (ix2 j k) := by
  obtain ⟨-, -, e0, e1, -⟩ := idx_facts t
  show V c main_v12 (((cfg0.win 1).blk t).view.emb (ix2 q k)) = V c main_v12 (ix2 j k)
  refine congrArg _ ?_
  funext a; apply Fin.ext
  match a with
  | ⟨0, _⟩ => show win0_1.index t (0 : Fin 2) * 1024 + 1 * q.val = j.val; omega
  | ⟨1, _⟩ => show win0_1.index t (1 : Fin 2) * 256 + 1 * k.val = k.val; omega

/-- Window 2's block: the labels of rows `1024·(t/8) + r`, as a column. -/
theorem iblk2_apply (c : Dev nD) (t : Fin cfg0.N) (r : Fin 1024) (i : Fin 8192) (hi : i.val = t.val / 8 * 1024 + r.val) :
    iblk V c 2 t (ix2 r 0) = V c main_v14 (ix2 i 0) := by
  obtain ⟨-, -, -, -, e0, e1, -⟩ := idx_facts t
  show V c main_v14 (((cfg0.win 2).blk t).view.emb (ix2 r 0)) = V c main_v14 (ix2 i 0)
  refine congrArg _ ?_
  funext a; apply Fin.ext
  match a with
  | ⟨0, _⟩ => show win0_2.index t (0 : Fin 2) * 1024 + 1 * r.val = i.val; omega
  | ⟨1, _⟩ => show win0_2.index t (1 : Fin 2) * 1 + 1 * 0 = 0; omega

/-- Window 3's block: the labels of rows `1024·(t%8) + q`, as a row. -/
theorem iblk3_apply (c : Dev nD) (t : Fin cfg0.N) (q : Fin 1024) (j : Fin 8192) (hj : j.val = t.val % 8 * 1024 + q.val) :
    iblk V c 3 t (ix2 0 q) = V c main_v15 (ix2 0 j) := by
  obtain ⟨-, -, -, -, -, -, e0, e1, -⟩ := idx_facts t
  show V c main_v15 (((cfg0.win 3).blk t).view.emb (ix2 0 q)) = V c main_v15 (ix2 0 j)
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * q.val = j.val; omega

end Cert.KernelIdeal.Hand

end
-- ==== Proof.Spec.lean ====
/-
  The mathematics both programs compute, over the extended reals, with plain index types.

  Rows `i : Fin 8192` are the 4096 rows of the first argument followed by the 4096 rows of the second; each row is
  divided by `max (‖row‖, ε)`; `S i j` is the scaled inner product of rows `i` and `j`; the positive of row `i` is
  `S i (partner i)`, the row 4096 places away; the negatives of row `i` are the `S i j` with a different label, every
  other column replaced by one large negative constant. A row's loss is `logsumexp(positive, negatives) - positive`
  and the result is the mean of the rows' losses.

  Two evaluations of a row's loss are stated: in two passes over the whole row (`rowLoss`), and by the recurrence that
  visits the row's columns in eight blocks of 1024, carrying a running maximum and a running sum rescaled whenever
  the maximum grows (`onl`, `fin`). They agree on rows of real numbers.
-/
import Idealize.ShloMosaic.PureOps.Ideal

noncomputable section

namespace Cert.Spec

open Idealize.ShloMosaic

/-- The row paired with row `i`: 4096 places further, cyclically. -/
def partner (i : Fin 8192) : Fin 8192 :=
  if h : i.val < 4096 then ⟨i.val + 4096, by omega⟩ else ⟨i.val - 4096, by omega⟩

/-- The constant that replaces a masked logit (the float `-1e30`). -/
def negBig : EReal := Ideal.ofBits .f32 0xF149F2CA#32
/-- The clamp of a row's norm (the float `1e-8`). -/
def eps : EReal := Ideal.ofBits .f32 0x322BCC77#32
/-- The number of rows as a float (8192). -/
def nRows : EReal := Ideal.ofBits .f32 0x46000000#32
/-- The scale of the logits as the kernel applies it (a product with 2) -/
def two : EReal := Ideal.ofBits .f32 0x40000000#32
/-- and as the reference does (a quotient by 1/2). -/
def half : EReal := Ideal.ofBits .f32 0x3F000000#32

/-- The two arguments' rows, stacked. -/
def zcat (a0 a1 : Fin 4096 → Fin 256 → EReal) (i : Fin 8192) (k : Fin 256) : EReal :=
  if h : i.val < 4096 then a0 ⟨i.val, h⟩ k else a1 ⟨i.val - 4096, by omega⟩ k

/-- The labels, stacked twice. -/
def labcat (lab : Fin 4096 → BitVec 32) (i : Fin 8192) : BitVec 32 :=
  if h : i.val < 4096 then lab ⟨i.val, h⟩ else lab ⟨i.val - 4096, by omega⟩

/-- A row's norm, clamped from below. -/
def rnorm (z : Fin 8192 → Fin 256 → EReal) (i : Fin 8192) : EReal :=
  max (Ideal.sqrt (∑ k : Fin 256, z i k * z i k)) eps

/-- The rows, normalized. -/
def znorm (z : Fin 8192 → Fin 256 → EReal) (i : Fin 8192) (k : Fin 256) : EReal :=
  Ideal.div (z i k) (rnorm z i)

/-- The inner product of two rows. -/
def dotn (y : Fin 8192 → Fin 256 → EReal) (i j : Fin 8192) : EReal := ∑ k : Fin 256, y i k * y j k

/-- The logits as the kernel scales them -/
def simK (y : Fin 8192 → Fin 256 → EReal) (i j : Fin 8192) : EReal := dotn y i j * two
/-- and as the reference does. -/
def simR (y : Fin 8192 → Fin 256 → EReal) (i j : Fin 8192) : EReal := Ideal.div (dotn y i j) half

/-- Row `i`'s logits with the same-label columns masked. -/
def neg (S : Fin 8192 → Fin 8192 → EReal) (lab : Fin 8192 → BitVec 32) (i j : Fin 8192) : EReal :=
  if lab i ≠ lab j then S i j else negBig

/-- Row `i`'s positive logit. -/
def pos (S : Fin 8192 → Fin 8192 → EReal) (i : Fin 8192) : EReal := S i (partner i)

/-- A row's loss in two passes: `g` its masked logits, `p` its positive. -/
def rowLoss (g : Fin 8192 → EReal) (p : EReal) : EReal :=
  (max p (⨆ j, g j) + Ideal.log (Ideal.exp (p - max p (⨆ j, g j)) + ∑ j, Ideal.exp (g j - max p (⨆ j, g j)))) - p

/-- Column `q` of column block `b`. -/
def col (b : Fin 8) (q : Fin 1024) : Fin 8192 := ⟨b.val * 1024 + q.val, by omega⟩

/-- The running maximum and the running rescaled sum after the first `n` column blocks. -/
def onl (g : Fin 8192 → EReal) : (n : Nat) → EReal × EReal
  | 0 => (⊥, 0)
  | n + 1 =>
    if h : n < 8 then
      (max (onl g n).1 (⨆ q : Fin 1024, g (col ⟨n, h⟩ q)),
        Ideal.exp ((onl g n).1 - max (onl g n).1 (⨆ q : Fin 1024, g (col ⟨n, h⟩ q))) * (onl g n).2
          + ∑ q : Fin 1024, Ideal.exp (g (col ⟨n, h⟩ q) - max (onl g n).1 (⨆ q : Fin 1024, g (col ⟨n, h⟩ q))))
    else onl g n

/-- The row's loss from the running maximum `m`, the running sum `l` and the positive `p`. -/
def fin (m l p : EReal) : EReal :=
  (max m p + Ideal.log (Ideal.exp (m - max m p) * l + Ideal.exp (p - max m p))) - p

/-- The mean of the rows' values. -/
def total (f : Fin 8192 → EReal) : EReal := Ideal.div (∑ i, f i) nRows

/-- The result, as the reference spells it: two passes per row, the logits a quotient by 1/2. -/
def resultR (a0 a1 : Fin 4096 → Fin 256 → EReal) (lab : Fin 4096 → BitVec 32) : EReal :=
  total fun i => rowLoss (neg (simR (znorm (zcat a0 a1))) (labcat lab) i) (pos (simR (znorm (zcat a0 a1))) i)

/-- The result, as the kernel spells it: the recurrence over column blocks, the logits a product with 2. -/
def resultK (a0 a1 : Fin 4096 → Fin 256 → EReal) (lab : Fin 4096 → BitVec 32) : EReal :=
  total fun i =>
    fin (onl (neg (simK (znorm (zcat a0 a1))) (labcat lab) i) 8).1 (onl (neg (simK (znorm (zcat a0 a1))) (labcat lab) i) 8).2
      (pos (simK (znorm (zcat a0 a1))) i)

end Cert.Spec

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.KPayI.lean ====
/-
  The body's arithmetic read at an index, at the ideal values.

  Each payload of the kernel's body is one pure term over the vectors the body loads. Read at the ideal float
  values (a float is an extended real) and at one index, each is the formula below: the scaled inner product of
  two rows, the masked logit, the running maximum, the rescaled running sum, the diagonal entry, and the row's
  loss from the carried maximum, sum and positive logit.
-/
import proofs.«156892_j84602265797103_2_alg».proof.Proof.Gen.KernelIdeal.Skeleton
import proofs.«156892_j84602265797103_2_alg».proof.Proof.Spec
import proofs.«156892_j84602265797103_2_alg».proof.Proof.LibMaxReduce
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The row's loss from the carried maximum, the carried sum and the positive logit, entry by entry. -/
theorem pay4_apply (v50 v51 v53 v56 v58 v64 : Vec Ideal S1024x1 .f32) (j : S1024x1.Idx) :
    k0_pay4 (F := Ideal) v50 v51 v53 v56 v58 v64 j
      = (max (v50 j) (v51 j) + Ideal.log (Ideal.exp (v53 j - max (v50 j) (v51 j)) * v56 j
          + Ideal.exp (v58 j - max (v50 j) (v51 j)))) - v64 j := rfl

/-- A cast to the same shape changes nothing. -/
theorem pay1_eq (v : FVec Ideal S1024x1 .f32) : k0_pay1 (F := Ideal) v = v :=
  shapeCast_self v _

theorem pay2_eq (v : FVec Ideal S1024x1 .f32) : k0_pay2 (F := Ideal) v = v :=
  shapeCast_self v _

/-- The running maximum starts at the bottom of the extended reals. -/
theorem pay5_apply (j : S1024x1.Idx) : k0_pay5 (F := Ideal) j = (⊥ : EReal) := by
  unfold k0_pay5
  rw [shapeCast_self]
  exact Ideal.ofBits_negInf_f32

/-- The running sum starts at zero. -/
theorem pay6_apply (j : S1024x1.Idx) : k0_pay6 (F := Ideal) j = 0 := by
  unfold k0_pay6
  rw [shapeCast_self]
  exact Ideal.ofBits_zero_f32

/-- The positive logit's cell starts at zero. -/
theorem pay7_apply (j : S1024x1.Idx) : k0_pay7 (F := Ideal) j = 0 := by
  unfold k0_pay7
  rw [shapeCast_self]
  exact Ideal.ofBits_zero_f32

/-! ## The column and row forms of the layout operations, at this body's shapes -/

/-- A vector of 1024 entries cast to one column reads, at row `r`, entry `r`. -/
private theorem colCast_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- One column copied across 1024 columns reads, at `(r, q)`, the column's entry at row `r`. -/
private theorem colBcast_apply {α : Type} (v : S1024x1.Idx → α) (h : S1024x1.Broadcasts S1024x1024) (r q : Fin 1024) :
    broadcastTo S1024x1024 v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- One row copied down 1024 rows reads, at `(r, q)`, the row's entry at column `q`. -/
private theorem rowBcast_apply {α : Type} (v : S1x1024.Idx → α) (h : S1x1024.Broadcasts S1024x1024) (r q : Fin 1024) :
    broadcastTo S1024x1024 v h (ix2 r q) = v (ix2 (0 : Fin 1) q) :=
  broadcastTo_1b_ab_apply v h r q

/-- A select on the bit of "the two words differ" is the `if` on their difference. -/
private theorem select_cmpi_ne {α : Type} (a b : BitVec 32) (X Y : α) :
    Scalar.select (IntOp.cmpi .ne a b) X Y = if a ≠ b then X else Y := by
  unfold Scalar.select IntOp.cmpi
  by_cases h : a = b
  · subst h; simp
  · have hb : (a != b) = true := bne_iff_ne.mpr h
    simp [h, hb]

/-- The index of row `r` with column `k` put back on the reduced axis. -/
private theorem lift_ix1 (h : S1024x1024.Reduces [1] S1024) (r k : Fin 1024) : h.lift (ix1 r) k = ix2 r k := by
  funext c
  refine Fin.ext ?_
  match c with
  | ⟨0, _⟩ => rfl
  | ⟨1, _⟩ => rfl

/-- The maximum along a row from the bottom, kept as one column: at row `r` the supremum of that row's entries. -/
private theorem rowMax_apply (src : FVec Ideal S1024x1024 .f32) (h : S1024x1024.Reduces [1] S1024)
    (hφ : FKind.Formats .f32) (hacc : (0xFF800000#32 : BitVec 32) = FKind.maximumf.neutral .f32 hφ)
    (hc : S1024.ShapeCasts S1024x1) (r : Fin 1024) (u : Fin 1) :
    shapeCast S1024x1 (multiReduction (F := Ideal) .maximumf [1] S1024 src 0xFF800000#32 h hφ hacc) hc (ix2 r u)
      = ⨆ q : Fin 1024, src (ix2 r q) := by
  refine (colCast_apply _ hc r u).trans ?_
  refine (Ideal.multiReduction_maximumf_single_iSup src h hφ hacc (ix1 r)).trans ?_
  exact iSup_congr fun k => congrArg src (lift_ix1 h r k)

/-- The sum along a row from zero, kept as one column: at row `r` the sum of that row's entries. -/
private theorem rowSum_apply (src : FVec Ideal S1024x1024 .f32) (h : S1024x1024.Reduces [1] S1024)
    (hφ : FKind.Formats .f32) (hacc : (0x00000000#32 : BitVec 32) = FKind.add.neutral .f32 hφ)
    (hc : S1024.ShapeCasts S1024x1) (r : Fin 1024) (u : Fin 1) :
    shapeCast S1024x1 (multiReduction (F := Ideal) .add [1] S1024 src 0x00000000#32 h hφ hacc) hc (ix2 r u)
      = ∑ q : Fin 1024, src (ix2 r q) := by
  refine (colCast_apply _ hc r u).trans ?_
  refine (Ideal.multiReduction_add_single src 0x00000000#32 h hφ hacc (ix1 r)).trans ?_
  exact Finset.sum_congr rfl fun k _ => congrArg src (lift_ix1 h r k)

/-- The carried sum rescaled, entry by entry. -/
private theorem rescale_apply (a p c : FVec Ideal S1024x1 .f32) (j : S1024x1.Idx) :
    mulf (exp (subf a p)) c j = Ideal.exp (a j - p j) * c j := rfl

/-- The exponential of an entry against its row's column value. -/
private theorem expSub_apply (g : FVec Ideal S1024x1024 .f32) (p : FVec Ideal S1024x1 .f32)
    (hb : S1024x1.Broadcasts S1024x1024) (r q : Fin 1024) :
    exp (subf g (broadcastTo S1024x1024 p hb)) (ix2 r q) = Ideal.exp (g (ix2 r q) - p (ix2 r 0)) := by
  show Ideal.exp (g (ix2 r q) - broadcastTo S1024x1024 p hb (ix2 r q)) = _
  rw [colBcast_apply]

/-! ## The matrix product read at an index -/

/-- On the left operand's kept axis the contraction reads the result's row. -/
private theorem lhs_0 (i : S1024x1024.Idx) (κ : dot_S1024x256_S1024x256_S1024x1024_1_1_0_0_n_n.contr.Idx) :
    (dot_S1024x256_S1024x256_S1024x1024_1_1_0_0_n_n.lhsIdx i κ 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- On the left operand's contracted axis it reads the contraction's coordinate. -/
private theorem lhs_1 (i : S1024x1024.Idx) (κ : dot_S1024x256_S1024x256_S1024x1024_1_1_0_0_n_n.contr.Idx) :
    (dot_S1024x256_S1024x256_S1024x1024_1_1_0_0_n_n.lhsIdx i κ 1).val = (κ ⟨0, by decide⟩).val :=
  dot_S1024x256_S1024x256_S1024x1024_1_1_0_0_n_n.lhsIdx_val_of_single rfl i κ

/-- On the right operand's kept axis the contraction reads the result's column. -/
private theorem rhs_0 (i : S1024x1024.Idx) (κ : dot_S1024x256_S1024x256_S1024x1024_1_1_0_0_n_n.contr.Idx) :
    (dot_S1024x256_S1024x256_S1024x1024_1_1_0_0_n_n.rhsIdx i κ 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- On the right operand's contracted axis it reads the contraction's coordinate. -/
private theorem rhs_1 (i : S1024x1024.Idx) (κ : dot_S1024x256_S1024x256_S1024x1024_1_1_0_0_n_n.contr.Idx) :
    (dot_S1024x256_S1024x256_S1024x1024_1_1_0_0_n_n.rhsIdx i κ 1).val = (κ ⟨0, by decide⟩).val :=
  dot_S1024x256_S1024x256_S1024x1024_1_1_0_0_n_n.rhsIdx_val_of_single rfl i κ

/-- The product of the two blocks into a zero accumulator, at `(r, q)`: the inner product of row `r` of the first
    with row `q` of the second. -/
private theorem matmul_rows_apply (x0 x1 : FVec Ideal S1024x256 .bf16) (r q : Fin 1024) :
    FloatOps.matmul dot_S1024x256_S1024x256_S1024x1024_1_1_0_0_n_n none x0 x1 (constant (F := Ideal) S1024x1024 .f32 0x00000000#32) (ix2 r q)
      = ∑ k : Fin 256, x0 (ix2 r k) * x1 (ix2 q k) := by
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r q) ((contrEquiv1 dot_S1024x256_S1024x256_S1024x1024_1_1_0_0_n_n 256 rfl rfl).symm k) = ix2 r k :=
    funext fun a => Fin.ext (by
      match a with
      | ⟨0, _⟩ => exact lhs_0 _ _
      | ⟨1, _⟩ => exact (lhs_1 _ _).trans hk)
  have er : dot_S1024x256_S1024x256_S1024x1024_1_1_0_0_n_n.rhsIdx (ix2 r q) ((contrEquiv1 dot_S1024x256_S1024x256_S1024x1024_1_1_0_0_n_n 256 rfl rfl).symm k) = ix2 q k :=
    funext fun a => Fin.ext (by
      match a with
      | ⟨0, _⟩ => exact rhs_0 _ _
      | ⟨1, _⟩ => exact (rhs_1 _ _).trans hk)
  rw [el, er]

/-- The logit before masking: the inner product of the two rows, times two. -/
theorem pay8_apply (x0 x1 : Vec Ideal S1024x256 .bf16) (r q : Fin 1024) :
    k0_pay8 (F := Ideal) x0 x1 (ix2 r q) = (∑ k : Fin 256, x0 (ix2 r k) * x1 (ix2 q k)) * Cert.Spec.two := by
  unfold k0_pay8
  refine (mulf_apply _ _ (ix2 r q)).trans ?_
  refine congrArg₂ (fun a b : EReal => a * b) ?_ rfl
  rw [shapeCast_self, shapeCast_self]
  exact matmul_rows_apply x0 x1 r q

/-- The masked logit: the scaled inner product where the two labels differ, the large negative constant where they agree. -/
theorem pay9_apply (x0 x1 : Vec Ideal S1024x256 .bf16) (li : Vec Ideal S1024x1 .i32) (lj : Vec Ideal S1x1024 .i32)
    (r q : Fin 1024) :
    k0_pay9 (F := Ideal) x0 x1 li lj (ix2 r q)
      = if li (ix2 r 0) ≠ lj (ix2 0 q) then k0_pay8 (F := Ideal) x0 x1 (ix2 r q) else Cert.Spec.negBig := by
  unfold k0_pay9
  show Scalar.select (IntOp.cmpi .ne
      (broadcastTo S1024x1024 (shapeCast S1024x1 li shapeCasts_S1024x1_S1024x1) broadcasts_S1024x1_S1024x1024 (ix2 r q))
      (broadcastTo S1024x1024 (shapeCast S1x1024 lj shapeCasts_S1x1024_S1x1024) broadcasts_S1x1024_S1024x1024 (ix2 r q)))
      (k0_pay8 (F := Ideal) x0 x1 (ix2 r q)) (Ideal.ofBits .f32 0xF149F2CA#32) = _
  rw [shapeCast_self, shapeCast_self, colBcast_apply, rowBcast_apply]
  exact select_cmpi_ne _ _ _ _

/-- The running maximum: the carried maximum against the supremum of the row's masked logits in this block. -/
theorem pay10_apply (x0 x1 : Vec Ideal S1024x256 .bf16) (li : Vec Ideal S1024x1 .i32) (lj : Vec Ideal S1x1024 .i32)
    (v21 : Vec Ideal S1024x1 .f32) (r : Fin 1024) :
    k0_pay10 (F := Ideal) x0 x1 li lj v21 (ix2 r 0)
      = max (v21 (ix2 r 0)) (⨆ q : Fin 1024, k0_pay9 (F := Ideal) x0 x1 li lj (ix2 r q)) := by
  unfold k0_pay10
  refine (maximumf_apply v21 _ (ix2 r 0)).trans ?_
  exact congrArg (max (v21 (ix2 r 0))) (rowMax_apply _ _ _ _ _ r 0)

/-- The running sum: the carried sum rescaled to the new maximum, plus the block's exponentials against it. -/
theorem pay11_apply (x0 x1 : Vec Ideal S1024x256 .bf16) (li : Vec Ideal S1024x1 .i32) (lj : Vec Ideal S1x1024 .i32)
    (v21 v23 v26 : Vec Ideal S1024x1 .f32) (r : Fin 1024) :
    k0_pay11 (F := Ideal) x0 x1 li lj v21 v23 v26 (ix2 r 0)
      = Ideal.exp (v23 (ix2 r 0) - k0_pay10 (F := Ideal) x0 x1 li lj v21 (ix2 r 0)) * v26 (ix2 r 0)
        + ∑ q : Fin 1024, Ideal.exp (k0_pay9 (F := Ideal) x0 x1 li lj (ix2 r q)
            - k0_pay10 (F := Ideal) x0 x1 li lj v21 (ix2 r 0)) := by
  unfold k0_pay11
  refine (addf_apply _ _ (ix2 r 0)).trans ?_
  refine congrArg₂ (fun a b : EReal => a + b)
    (rescale_apply v23 (k0_pay10 (F := Ideal) x0 x1 li lj v21) v26 (ix2 r 0)) ?_
  refine (rowSum_apply _ _ _ _ _ r 0).trans ?_
  exact Finset.sum_congr rfl fun q _ => expSub_apply _ _ _ r q

/-! ## The diagonal entry -/

/-- A select on the bit of "the two coordinates' words agree" is the `if` on the coordinates: two coordinates below
    1024 are equal exactly when their 32-bit words are. -/
private theorem select_cmpi_eq_coord {α : Type} (r k : Fin 1024) (X Y : α) :
    Scalar.select (IntOp.cmpi .eq (BitVec.ofNat 32 r.val) (BitVec.ofNat 32 k.val)) X Y = if r = k then X else Y := by
  unfold Scalar.select IntOp.cmpi
  by_cases h : r = k
  · subst h; simp
  · have hne : BitVec.ofNat 32 r.val ≠ BitVec.ofNat 32 k.val := by
      intro e
      have e' := congrArg BitVec.toNat e
      simp only [BitVec.toNat_ofNat] at e'
      have hr := r.isLt
      have hk := k.isLt
      rw [Nat.mod_eq_of_lt (by omega), Nat.mod_eq_of_lt (by omega)] at e'
      exact h (Fin.ext e')
    have hb : (BitVec.ofNat 32 r.val == BitVec.ofNat 32 k.val) = false := beq_eq_false_iff_ne.mpr hne
    simp [h, hb]

/-- The entry kept where the row's and the column's coordinates agree, zero elsewhere. -/
private theorem diagSel_apply (v9 : FVec Ideal S1024x1024 .f32) (h0 : S1024x1024.Iotas .tc 32 [0])
    (h1 : S1024x1024.Iotas .tc 32 [1]) (r k : Fin 1024) :
    select (cmpi .eq (iota .tc S1024x1024 32 [0] h0) (iota .tc S1024x1024 32 [1] h1)) v9
        (broadcast S1024x1024 (Scalar.ofBits (F := Ideal) .f32 0x00000000#32)) (ix2 r k)
      = if r = k then v9 (ix2 r k) else 0 := by
  show Scalar.select (IntOp.cmpi .eq (iota .tc S1024x1024 32 [0] h0 (ix2 r k)) (iota .tc S1024x1024 32 [1] h1 (ix2 r k)))
      (v9 (ix2 r k)) (Ideal.ofBits .f32 0x00000000#32) = _
  rw [iota_single_apply, iota_single_apply, Ideal.ofBits_zero_f32]
  exact select_cmpi_eq_coord r k _ _

/-- The diagonal entry of the block: the row's sum of the entries kept where the column is the row. -/
theorem pay3_apply (v9 : FVec Ideal S1024x1024 .f32) (r : Fin 1024) :
    k0_pay3 (F := Ideal) v9 (ix2 r 0) = v9 (ix2 r r) := by
  unfold k0_pay3
  rw [shapeCast_self]
  refine (rowSum_apply _ _ _ _ _ r 0).trans ?_
  refine (Finset.sum_congr rfl fun k _ => diagSel_apply v9 _ _ r k).trans ?_
  rw [Finset.sum_ite_eq]
  exact if_pos (Finset.mem_univ r)

end Cert.KernelIdeal.Pay

end
-- ==== Proof.Online.lean ====
/-
  The two evaluations of a row's loss agree on rows of real numbers, and with them the two spellings of the result.

  A row's loss is `logsumexp(p, g) - p` for the row's positive `p` and its 8192 masked logits `g`. In two passes
  one first takes `M = max(p, max_j g_j)` and then sums `exp(p - M) + ∑_j exp(g_j - M)`. The recurrence visits the
  columns in eight blocks of 1024: it carries the maximum `m` of the columns seen so far, starting from `-∞`, and
  the sum `l = ∑ exp(g_j - m)` over the columns seen so far, starting from `0`; when a block raises the maximum to
  `m'` the old sum is multiplied by `exp(m - m')`, which turns every term `exp(g_j - m)` into `exp(g_j - m')`,
  because `exp(a) · exp(b) = exp(a + b)`. After the eighth block `m = max_j g_j` and `l = ∑_j exp(g_j - m)`, and
  the merge with the positive rescales once more, to `M = max(m, p)`.

  Over the extended reals the only step that is not a statement about real numbers is the first: there `m = -∞`,
  the old sum is `0`, and the product of anything with `0` is `0`. From the first block on the maximum is the
  largest of finitely many reals, hence a real, and every quantity is the image of a real number; sums, products,
  maxima and exponentials of images are the images of the real sums, products, maxima and exponentials.

  The second half relates the two spellings of the whole computation: a quotient by `1/2` is a product with `2`;
  the clamp of the norm is a positive real, so normalized rows of reals are rows of reals, their scaled inner
  products are reals, and so are the masked logits, the masking constant being a real.
-/
import proofs.«156892_j84602265797103_2_alg».proof.Proof.Spec
import proofs.«156892_j84602265797103_2_alg».proof.Proof.LibMaxReduce

noncomputable section

namespace Cert.Spec

open Idealize.ShloMosaic

/-! ### Images of reals in the extended reals -/

/-- The image of a finite sum of reals is the sum of the images. -/
theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The image of the larger of two reals is the larger of the images: the embedding is monotone. -/
theorem coe_max (a b : ℝ) : ((max a b : ℝ) : EReal) = max (a : EReal) (b : EReal) :=
  EReal.coe_strictMono.monotone.map_max

/-- The exponential of a difference of two reals is the image of the real exponential. -/
theorem exp_sub_coe (a b : ℝ) :
    Ideal.exp ((a : EReal) - (b : EReal)) = ((Real.exp (a - b) : ℝ) : EReal) := by
  rw [← EReal.coe_sub, Ideal.exp_coe]

/-- A finite sum of exponentials of real differences is the image of the real sum. -/
theorem sum_exp_coe {ι : Type} [Fintype ι] (f : ι → ℝ) (b : ℝ) :
    ∑ i, Ideal.exp ((f i : EReal) - (b : EReal)) = ((∑ i, Real.exp (f i - b) : ℝ) : EReal) := by
  rw [coe_sum]
  exact Finset.sum_congr rfl fun i _ => exp_sub_coe _ _

/-- Rescaling: `exp(a - b) · ∑ exp(f_i - a) = ∑ exp(f_i - b)`, term by term from
    `exp(a - b) · exp(f_i - a) = exp(f_i - b)`. -/
theorem rescale {ι : Type} [Fintype ι] (f : ι → ℝ) (a b : ℝ) :
    Ideal.exp ((a : EReal) - (b : EReal)) * ((∑ i, Real.exp (f i - a) : ℝ) : EReal)
      = ((∑ i, Real.exp (f i - b) : ℝ) : EReal) := by
  rw [exp_sub_coe, ← EReal.coe_mul, Finset.mul_sum]
  congr 1
  refine Finset.sum_congr rfl fun i _ => ?_
  rw [← Real.exp_add]
  congr 1
  ring

/-- The supremum of 1024 reals is one of them, hence a real. -/
theorem iSup_real (f : Fin 1024 → ℝ) : ∃ r : ℝ, (⨆ i, (f i : EReal)) = (r : EReal) := by
  obtain ⟨i, hi⟩ := exists_eq_ciSup_of_finite (f := fun i => (f i : EReal))
  exact ⟨f i, hi.symm⟩

/-! ### The recurrence -/

/-- One step of the recurrence, for a block index below eight. -/
theorem onl_succ (g : Fin 8192 → EReal) (n : Nat) (h : n < 8) :
    onl g (n + 1) =
      (max (onl g n).1 (⨆ q : Fin 1024, g (col ⟨n, h⟩ q)),
        Ideal.exp ((onl g n).1 - max (onl g n).1 (⨆ q : Fin 1024, g (col ⟨n, h⟩ q))) * (onl g n).2
          + ∑ q : Fin 1024, Ideal.exp (g (col ⟨n, h⟩ q) - max (onl g n).1 (⨆ q : Fin 1024, g (col ⟨n, h⟩ q)))) := by
  rw [onl, dif_pos h]

/-- The running maximum after `n` blocks is the supremum over the columns of the first `n` blocks (for `n = 0` the
    empty supremum, `-∞`). This needs nothing of the row. -/
theorem onl_fst (g : Fin 8192 → EReal) (n : Nat) (hn : n ≤ 8) :
    (onl g n).1 = ⨆ b : Fin 8, ⨆ (_ : b.val < n), ⨆ q : Fin 1024, g (col b q) := by
  induction n with
  | zero => simp [onl]
  | succ n ih =>
    have h : n < 8 := hn
    rw [onl_succ g n h, ih (by omega)]
    show max _ _ = _
    apply le_antisymm
    · apply max_le
      · exact iSup_le fun b => iSup_le fun hb => le_iSup_of_le b (le_iSup_of_le (by omega) le_rfl)
      · exact le_iSup_of_le ⟨n, h⟩ (le_iSup_of_le (Nat.lt_succ_self n) le_rfl)
    · refine iSup_le fun b => iSup_le fun hb => ?_
      rcases Nat.lt_succ_iff_lt_or_eq.mp hb with h1 | h1
      · exact le_max_of_le_left (le_iSup_of_le b (le_iSup_of_le h1 le_rfl))
      · have e : b = ⟨n, h⟩ := Fin.ext h1
        subst e
        exact le_max_right _ _

/-- After all eight blocks the running maximum is the supremum of the whole row: every column `j` is column
    `j mod 1024` of block `j / 1024`. -/
theorem onl_fst_eight (g : Fin 8192 → EReal) : (onl g 8).1 = ⨆ j, g j := by
  rw [onl_fst g 8 le_rfl]
  apply le_antisymm
  · exact iSup_le fun b => iSup_le fun _ => iSup_le fun q => le_iSup g (col b q)
  · refine iSup_le fun j => ?_
    have e : j = col ⟨j.val / 1024, by omega⟩ ⟨j.val % 1024, by omega⟩ :=
      Fin.ext (by simp only [col]; omega)
    refine (congrArg g e).le.trans ?_
    exact le_iSup_of_le _ (le_iSup_of_le (Fin.is_lt _) (le_iSup_of_le _ le_rfl))

/-- The real sum `∑ exp(g_j - m)` over the columns of the first `n` blocks. -/
def partSum (gr : Fin 8192 → ℝ) (n : Nat) (m : ℝ) : ℝ :=
  ∑ b : Fin 8, if b.val < n then ∑ q : Fin 1024, Real.exp (gr (col b q) - m) else 0

/-- Over no block the sum is zero. -/
theorem partSum_zero (gr : Fin 8192 → ℝ) (m : ℝ) : partSum gr 0 m = 0 := by
  simp [partSum]

/-- One more block adds that block's sum. -/
theorem partSum_succ (gr : Fin 8192 → ℝ) (n : Nat) (h : n < 8) (m : ℝ) :
    partSum gr (n + 1) m = partSum gr n m + ∑ q : Fin 1024, Real.exp (gr (col ⟨n, h⟩ q) - m) := by
  have key : ∀ b : Fin 8,
      (if b.val < n + 1 then ∑ q : Fin 1024, Real.exp (gr (col b q) - m) else 0)
        = (if b.val < n then ∑ q : Fin 1024, Real.exp (gr (col b q) - m) else 0)
          + (if b = ⟨n, h⟩ then ∑ q : Fin 1024, Real.exp (gr (col b q) - m) else 0) := by
    intro b
    rcases lt_trichotomy b.val n with h1 | h1 | h1
    · rw [if_pos (by omega), if_pos h1, if_neg (by intro e; subst e; simp at h1), add_zero]
    · have e : b = ⟨n, h⟩ := Fin.ext h1
      rw [if_pos (by omega), if_neg (by omega), if_pos e, zero_add]
    · rw [if_neg (by omega), if_neg (by omega), if_neg (by intro e; subst e; simp at h1), add_zero]
  unfold partSum
  rw [Finset.sum_congr rfl (fun b _ => key b), Finset.sum_add_distrib, Finset.sum_ite_eq',
    if_pos (Finset.mem_univ _)]

/-- A sum over the 8192 columns is the sum over the eight blocks of the sums over each block's 1024 columns:
    `(b, q) ↦ 1024 b + q` is a bijection. -/
theorem sum_blocks (f : Fin 8192 → ℝ) : ∑ b : Fin 8, ∑ q : Fin 1024, f (col b q) = ∑ j, f j := by
  refine (Fintype.sum_prod_type (fun x : Fin 8 × Fin 1024 => f (col x.1 x.2))).symm.trans ?_
  refine Fintype.sum_bijective (fun x : Fin 8 × Fin 1024 => col x.1 x.2) ⟨?_, ?_⟩ _ _ (fun _ => rfl)
  · rintro ⟨b, q⟩ ⟨b', q'⟩ hh
    have h' : b.val * 1024 + q.val = b'.val * 1024 + q'.val := congrArg Fin.val hh
    have hb : b = b' := Fin.ext (by omega)
    have hq : q = q' := Fin.ext (by omega)
    rw [hb, hq]
  · intro j
    exact ⟨(⟨j.val / 1024, by omega⟩, ⟨j.val % 1024, by omega⟩), Fin.ext (by simp only [col]; omega)⟩

/-- Over all eight blocks the sum is the sum over the whole row. -/
theorem partSum_eight (gr : Fin 8192 → ℝ) (m : ℝ) : partSum gr 8 m = ∑ j, Real.exp (gr j - m) := by
  unfold partSum
  rw [Finset.sum_congr rfl (fun b _ => if_pos b.is_lt)]
  exact sum_blocks fun j => Real.exp (gr j - m)

/-- Rescaling the sum over the first `n` blocks from the maximum `a` to the maximum `b`. -/
theorem rescale_partSum (gr : Fin 8192 → ℝ) (n : Nat) (a b : ℝ) :
    Ideal.exp ((a : EReal) - (b : EReal)) * ((partSum gr n a : ℝ) : EReal) = ((partSum gr n b : ℝ) : EReal) := by
  rw [exp_sub_coe, ← EReal.coe_mul]
  congr 1
  unfold partSum
  rw [Finset.mul_sum]
  refine Finset.sum_congr rfl fun c _ => ?_
  split_ifs
  · rw [Finset.mul_sum]
    refine Finset.sum_congr rfl fun q _ => ?_
    rw [← Real.exp_add]
    congr 1
    ring
  · exact mul_zero _

/-- One step of the recurrence on a row of reals. Before the step either nothing has been seen (`m = -∞`, `l = 0`,
    no block) or `m` is a real and `l` the sum over the blocks seen, relative to `m`; after it the maximum is a real
    and the sum is the sum over one more block, relative to the new maximum. In the first case the old sum
    contributes `exp(…) · 0 = 0`; in the second it is rescaled. -/
theorem step_real (g : Fin 8192 → EReal) (gr : Fin 8192 → ℝ) (hg : ∀ j, g j = (gr j : EReal))
    (n : Nat) (h : n < 8) (m l : EReal)
    (hc : (m = ⊥ ∧ l = 0 ∧ n = 0) ∨ ∃ mr : ℝ, m = (mr : EReal) ∧ l = ((partSum gr n mr : ℝ) : EReal)) :
    ∃ mr : ℝ, max m (⨆ q : Fin 1024, g (col ⟨n, h⟩ q)) = (mr : EReal) ∧
      Ideal.exp (m - max m (⨆ q : Fin 1024, g (col ⟨n, h⟩ q))) * l
          + ∑ q : Fin 1024, Ideal.exp (g (col ⟨n, h⟩ q) - max m (⨆ q : Fin 1024, g (col ⟨n, h⟩ q)))
        = ((partSum gr (n + 1) mr : ℝ) : EReal) := by
  obtain ⟨b0, hb0⟩ : ∃ r : ℝ, (⨆ q : Fin 1024, g (col ⟨n, h⟩ q)) = (r : EReal) := by
    simp only [hg]
    exact iSup_real fun q => gr (col ⟨n, h⟩ q)
  rw [hb0]
  simp only [hg]
  rcases hc with ⟨hm, hl, hn⟩ | ⟨mr, hm, hl⟩
  · subst hn
    refine ⟨b0, ?_, ?_⟩
    · rw [hm]; exact max_eq_right bot_le
    · rw [hm, hl, max_eq_right bot_le, mul_zero, zero_add,
        sum_exp_coe (fun q => gr (col ⟨0, h⟩ q)) b0, partSum_succ gr 0 h, partSum_zero gr b0, zero_add]
  · refine ⟨max mr b0, ?_, ?_⟩
    · rw [hm, coe_max]
    · rw [hm, hl, ← coe_max, rescale_partSum, sum_exp_coe (fun q => gr (col ⟨n, h⟩ q)) (max mr b0),
        ← EReal.coe_add, partSum_succ gr n h]

/-- The state of the recurrence on a row of reals: before the first block `(-∞, 0)`; after `n ≥ 1` blocks a real
    maximum and the sum over those blocks relative to it. -/
theorem onl_inv (g : Fin 8192 → EReal) (gr : Fin 8192 → ℝ) (hg : ∀ j, g j = (gr j : EReal))
    (n : Nat) (hn : n ≤ 8) :
    ((onl g n).1 = ⊥ ∧ (onl g n).2 = 0 ∧ n = 0) ∨
      ∃ mr : ℝ, (onl g n).1 = (mr : EReal) ∧ (onl g n).2 = ((partSum gr n mr : ℝ) : EReal) := by
  induction n with
  | zero => exact Or.inl ⟨rfl, rfl, rfl⟩
  | succ n ih =>
    have h : n < 8 := hn
    right
    rw [onl_succ g n h]
    exact step_real g gr hg n h _ _ (ih (by omega))

/-- On a row of reals with a real positive, the recurrence followed by the merge with the positive gives the
    two-pass loss: with `m = max_j g_j` and `M = max(m, p)`, `exp(m - M) · ∑_j exp(g_j - m) = ∑_j exp(g_j - M)`, and the
    two sums under the logarithm differ only in the order of their two terms. -/
theorem online_eq (g : Fin 8192 → EReal) (p : EReal) (hg : ∀ j, ∃ r : ℝ, g j = (r : EReal))
    (hp : ∃ r : ℝ, p = (r : EReal)) : fin (onl g 8).1 (onl g 8).2 p = rowLoss g p := by
  choose gr hgr using hg
  obtain ⟨pr, rfl⟩ := hp
  rcases onl_inv g gr hgr 8 le_rfl with ⟨_, _, h0⟩ | ⟨mr, hm, hl⟩
  · omega
  · have hs : (⨆ j, g j) = (mr : EReal) := by rw [← onl_fst_eight, hm]
    have key : Ideal.exp ((mr : EReal) - ((max mr pr : ℝ) : EReal)) * ((partSum gr 8 mr : ℝ) : EReal)
        = ∑ j, Ideal.exp (g j - ((max mr pr : ℝ) : EReal)) := by
      rw [partSum_eight, rescale, ← sum_exp_coe]
      exact Finset.sum_congr rfl fun j _ => by rw [hgr j]
    rw [fin, rowLoss, hm, hl, hs, max_comm (pr : EReal) (mr : EReal), ← coe_max, key,
      add_comm (∑ j, Ideal.exp (g j - ((max mr pr : ℝ) : EReal))) _]

/-! ### The constants -/

/-- The float `2.0` denotes the real `2`. -/
theorem two_eq : two = ((2 : ℝ) : EReal) := by
  simp [two, Ideal.ofBits, Ideal.ieee, -EReal.coe_mul]; norm_num

/-- The float `0.5` denotes the real `1/2`. -/
theorem half_eq : half = ((1 / 2 : ℝ) : EReal) := by
  simp [half, Ideal.ofBits, Ideal.ieee, -EReal.coe_mul]; norm_num

/-- The float `8192.0` denotes the real `8192`. -/
theorem nRows_eq : nRows = ((8192 : ℝ) : EReal) := by
  simp [nRows, Ideal.ofBits, Ideal.ieee, -EReal.coe_mul]; norm_num

/-- The masking constant denotes the real `-13234890 · 2^76` (about `-1e30`). -/
theorem negBig_eq : negBig = ((-(13234890 * 2 ^ 76) : ℝ) : EReal) := by
  simp [negBig, Ideal.ofBits, Ideal.ieee, -EReal.coe_mul]

/-- The masking constant is a real. -/
theorem negBig_real : ∃ r : ℝ, negBig = (r : EReal) := ⟨_, negBig_eq⟩

/-- The clamp of the norm is a positive real. -/
theorem eps_pos : ∃ r : ℝ, 0 < r ∧ eps = (r : EReal) := by
  simp [eps, Ideal.ofBits, Ideal.ieee, -EReal.coe_mul]

/-! ### The two spellings of the result -/

/-- A quotient by `1/2` is a product with `2`, whatever the dividend (the infinities included). -/
theorem simR_eq_simK (y : Fin 8192 → Fin 256 → EReal) (i j : Fin 8192) : simR y i j = simK y i j := by
  have h2 : (1 / (1 / 2) : ℝ) = 2 := by norm_num
  rw [simR, simK, half_eq, two_eq, Ideal.div_coe (by norm_num : (1 / 2 : ℝ) ≠ 0), h2]

/-- Normalized rows of reals are rows of reals: the sum of squares is a nonnegative real, its root a real, the
    clamped norm a real that is at least the positive clamp, and a real divided by a nonzero real is a real. -/
theorem znorm_real (z : Fin 8192 → Fin 256 → EReal) (hz : ∀ i k, ∃ r : ℝ, z i k = (r : EReal)) :
    ∀ i k, ∃ r : ℝ, znorm z i k = (r : EReal) := by
  intro i k
  choose zr hzr using hz
  obtain ⟨e, he0, he⟩ := eps_pos
  have hsum : (∑ k : Fin 256, z i k * z i k) = ((∑ k : Fin 256, zr i k * zr i k : ℝ) : EReal) := by
    rw [coe_sum]
    exact Finset.sum_congr rfl fun k _ => by rw [hzr i k, EReal.coe_mul]
  have hnn : 0 ≤ ∑ k : Fin 256, zr i k * zr i k := Finset.sum_nonneg fun k _ => mul_self_nonneg _
  have hr : rnorm z i = ((max (Real.sqrt (∑ k : Fin 256, zr i k * zr i k)) e : ℝ) : EReal) := by
    rw [rnorm, hsum, Ideal.sqrt_coe, if_neg (not_lt.mpr hnn), he, coe_max]
  have hpos : max (Real.sqrt (∑ k : Fin 256, zr i k * zr i k)) e ≠ 0 :=
    (lt_of_lt_of_le he0 (le_max_right _ _)).ne'
  refine ⟨zr i k * (1 / max (Real.sqrt (∑ k : Fin 256, zr i k * zr i k)) e), ?_⟩
  rw [znorm, hr, Ideal.div_coe hpos, hzr i k, ← EReal.coe_mul]

/-- The scaled inner products of rows of reals are reals. -/
theorem simK_real (y : Fin 8192 → Fin 256 → EReal) (hy : ∀ i k, ∃ r : ℝ, y i k = (r : EReal)) :
    ∀ i j, ∃ r : ℝ, simK y i j = (r : EReal) := by
  intro i j
  choose yr hyr using hy
  refine ⟨(∑ k : Fin 256, yr i k * yr j k) * 2, ?_⟩
  rw [simK, dotn, two_eq, EReal.coe_mul, coe_sum]
  congr 1
  exact Finset.sum_congr rfl fun k _ => by rw [hyr i k, hyr j k, EReal.coe_mul]

/-- Masking keeps a matrix of reals a matrix of reals: a masked entry is the masking constant, a real. -/
theorem neg_real (S : Fin 8192 → Fin 8192 → EReal) (lab : Fin 8192 → BitVec 32)
    (hS : ∀ i j, ∃ r : ℝ, S i j = (r : EReal)) : ∀ i j, ∃ r : ℝ, neg S lab i j = (r : EReal) := by
  intro i j
  unfold neg
  split_ifs
  · exact hS i j
  · exact negBig_real

/-- Stacking two matrices of reals gives a matrix of reals. -/
theorem zcat_real (a0 a1 : Fin 4096 → Fin 256 → EReal) (h0 : ∀ i k, ∃ r : ℝ, a0 i k = (r : EReal))
    (h1 : ∀ i k, ∃ r : ℝ, a1 i k = (r : EReal)) : ∀ i k, ∃ r : ℝ, zcat a0 a1 i k = (r : EReal) := by
  intro i k
  unfold zcat
  split_ifs
  · exact h0 _ _
  · exact h1 _ _

/-- On real arguments the two spellings of the result agree: the logits agree entry by entry, every row of masked
    logits and every positive is real, so each row's loss is the same by either evaluation, and the means agree. -/
theorem resultK_eq_resultR (a0 a1 : Fin 4096 → Fin 256 → EReal) (lab : Fin 4096 → BitVec 32)
    (h0 : ∀ i k, ∃ r : ℝ, a0 i k = (r : EReal)) (h1 : ∀ i k, ∃ r : ℝ, a1 i k = (r : EReal)) :
    resultK a0 a1 lab = resultR a0 a1 lab := by
  have hs : simR (znorm (zcat a0 a1)) = simK (znorm (zcat a0 a1)) :=
    funext fun i => funext fun j => simR_eq_simK _ i j
  have hS := simK_real _ (znorm_real _ (zcat_real a0 a1 h0 h1))
  unfold resultK resultR
  rw [hs]
  congr 1
  funext i
  exact online_eq _ _ (neg_real _ _ hS i) (hS i (partner i))

end Cert.Spec

end
-- ==== Proof.KStateI.lean ====
/-
  The carried scratch, point by point, at the ideal values.

  Fix a row block `bi` and a row `r` of it; its global row is `col bi r`. Write `g` for that row's masked logits over
  all 8192 columns. After the row block's first `n` points (`1 ≤ n ≤ 8`) the running maximum and the running sum at
  row `r` are the recurrence `onl g n`: the first point starts from `-∞` and `0`, every point takes the maximum with
  its tile's row maximum and rescales the sum before adding the tile's exponentials. From the point whose column block
  is the one paired with the row block on, the third buffer holds the row's positive logit: the tile's diagonal entry
  there is the logit of the row against the row 4096 places away. At the last point the stored loss is `fin` of the
  three.
-/
import proofs.«156892_j84602265797103_2_alg».proof.Proof.KBlkI
import proofs.«156892_j84602265797103_2_alg».proof.Proof.KPayI
import proofs.«156892_j84602265797103_2_alg».proof.Proof.Online

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The normalized rows, the labels as a column and the labels as a row, as the region finds them. -/
def Y (c : Dev nD) (i : Fin 8192) (k : Fin 256) : EReal := V c main_v12 (ix2 i k)
def LC (c : Dev nD) (i : Fin 8192) : BitVec 32 := V c main_v14 (ix2 i 0)
def LR (c : Dev nD) (j : Fin 8192) : BitVec 32 := V c main_v15 (ix2 0 j)

/-- The conditions in closed form, decided over the grid. -/
theorem cond_facts : ∀ t : Fin cfg0.N,
    (cond1 (grid0.coords t) = 1#1 ↔ t.val % 8 = 0)
    ∧ (cond2 (grid0.coords t) = 1#1 ↔ t.val % 8 = (t.val / 8 + 4) % 8)
    ∧ (k0_cond3 (grid0.coords t) = 1#1 ↔ t.val % 8 = 7) :=
  (by decide +kernel : ∀ t : Fin grid0.N, _)

/-- A tile's scaled product entry is the logit of its global row against its global column. -/
theorem tile8 (c : Dev nD) (t : Fin cfg0.N) (bi bj : Fin 8) (hbi : bi.val = t.val / 8) (hbj : bj.val = t.val % 8) (r q : Fin 1024) :
    k0_pay8 (F := Ideal) (iblk V c 0 t) (iblk V c 1 t) (ix2 r q) = Cert.Spec.simK (Y V c) (Cert.Spec.col bi r) (Cert.Spec.col bj q) := by
  refine (pay8_apply (iblk V c 0 t) (iblk V c 1 t) r q).trans ?_
  unfold Cert.Spec.simK Cert.Spec.dotn Y
  refine congrArg (· * Cert.Spec.two) ?_
  refine Finset.sum_congr rfl fun k _ => ?_
  rw [iblk0_apply V c t r k (Cert.Spec.col bi r) (by show bi.val * 1024 + r.val = _; rw [hbi]),
    iblk1_apply V c t q k (Cert.Spec.col bj q) (by show bj.val * 1024 + q.val = _; rw [hbj])]

/-- A tile's masked entry is the row's masked logit at the global column. -/
theorem tile9 (c : Dev nD) (hlab : ∀ j, LR V c j = LC V c j) (t : Fin cfg0.N) (bi bj : Fin 8) (hbi : bi.val = t.val / 8) (hbj : bj.val = t.val % 8) (r q : Fin 1024) :
    k0_pay9 (F := Ideal) (iblk V c 0 t) (iblk V c 1 t) (iblk V c 2 t) (iblk V c 3 t) (ix2 r q)
      = Cert.Spec.neg (Cert.Spec.simK (Y V c)) (LC V c) (Cert.Spec.col bi r) (Cert.Spec.col bj q) := by
  refine (pay9_apply (iblk V c 0 t) (iblk V c 1 t) (iblk V c 2 t) (iblk V c 3 t) r q).trans ?_
  rw [tile8 V c t bi bj hbi hbj r q,
    iblk2_apply V c t r (Cert.Spec.col bi r) (by show bi.val * 1024 + r.val = _; rw [hbi]),
    iblk3_apply V c t q (Cert.Spec.col bj q) (by show bj.val * 1024 + q.val = _; rw [hbj])]
  unfold Cert.Spec.neg
  rw [show V c main_v15 (ix2 0 (Cert.Spec.col bj q)) = LC V c (Cert.Spec.col bj q) from hlab _]
  rfl

/-- The masked logits of global row `col bi r`, over all columns. -/
def grow (c : Dev nD) (bi : Fin 8) (r : Fin 1024) : Fin 8192 → EReal :=
  Cert.Spec.neg (Cert.Spec.simK (Y V c)) (LC V c) (Cert.Spec.col bi r)

/-- One point's effect on the running maximum and the running sum at row `r`, given what they enter the update at
    (`M`, `L`: after the reset, if the point resets). -/
theorem step_ml (c : Dev nD) (hlab : ∀ j, LR V c j = LC V c j) (t : Fin cfg0.N) (bi bj : Fin 8) (hbi : bi.val = t.val / 8)
    (hbj : bj.val = t.val % 8) (r : Fin 1024) (s : St Ideal) (M L : EReal)
    (hM : (if cond1 (grid0.coords t) = 1#1 then k0_pay5 (F := Ideal) else s.m) (ix2 r 0) = M)
    (hL : (if cond1 (grid0.coords t) = 1#1 then k0_pay6 (F := Ideal) else s.l) (ix2 r 0) = L) :
    (step (grid0.coords t) (iblk V c 0 t) (iblk V c 1 t) (iblk V c 2 t) (iblk V c 3 t) s).m (ix2 r 0)
        = max M (⨆ q : Fin 1024, grow V c bi r (Cert.Spec.col bj q))
    ∧ (step (grid0.coords t) (iblk V c 0 t) (iblk V c 1 t) (iblk V c 2 t) (iblk V c 3 t) s).l (ix2 r 0)
        = Ideal.exp (M - max M (⨆ q : Fin 1024, grow V c bi r (Cert.Spec.col bj q))) * L
          + ∑ q : Fin 1024, Ideal.exp (grow V c bi r (Cert.Spec.col bj q) - max M (⨆ q : Fin 1024, grow V c bi r (Cert.Spec.col bj q))) := by
  have h9 : ∀ q : Fin 1024, k0_pay9 (F := Ideal) (iblk V c 0 t) (iblk V c 1 t) (iblk V c 2 t) (iblk V c 3 t) (ix2 r q)
      = grow V c bi r (Cert.Spec.col bj q) := fun q => tile9 V c hlab t bi bj hbi hbj r q
  have h10 : k0_pay10 (F := Ideal) (iblk V c 0 t) (iblk V c 1 t) (iblk V c 2 t) (iblk V c 3 t)
      (if cond1 (grid0.coords t) = 1#1 then k0_pay5 (F := Ideal) else s.m) (ix2 r 0)
      = max M (⨆ q : Fin 1024, grow V c bi r (Cert.Spec.col bj q)) := by
    refine (pay10_apply _ _ _ _ _ r).trans ?_
    rw [hM]
    exact congrArg (max M) (iSup_congr h9)
  constructor
  · show k0_pay2 (F := Ideal) (k0_pay10 (F := Ideal) (iblk V c 0 t) (iblk V c 1 t) (iblk V c 2 t) (iblk V c 3 t)
      (if cond1 (grid0.coords t) = 1#1 then k0_pay5 (F := Ideal) else s.m)) (ix2 r 0) = _
    rw [pay2_eq]
    exact h10
  · show k0_pay1 (F := Ideal) (k0_pay11 (F := Ideal) (iblk V c 0 t) (iblk V c 1 t) (iblk V c 2 t) (iblk V c 3 t)
      (if cond1 (grid0.coords t) = 1#1 then k0_pay5 (F := Ideal) else s.m) (if cond1 (grid0.coords t) = 1#1 then k0_pay5 (F := Ideal) else s.m)
      (if cond1 (grid0.coords t) = 1#1 then k0_pay6 (F := Ideal) else s.l)) (ix2 r 0) = _
    rw [pay1_eq]
    refine (pay11_apply _ _ _ _ _ _ _ r).trans ?_
    rw [h10, hM, hL]
    exact congrArg (_ + ·) (Finset.sum_congr rfl fun q _ => by rw [h9 q])

/-- The point `8·bi + n` of the grid. -/
def pt (bi : Fin 8) (n : Nat) (hn : n < 8) : Fin cfg0.N := ⟨8 * bi.val + n, by have := N_64; omega⟩

/-- After the first `n + 1` points of row block `bi` the running maximum and sum at row `r` are the recurrence's. -/
theorem st_ml (c : Dev nD) (hlab : ∀ j, LR V c j = LC V c j) (bi : Fin 8) (r : Fin 1024) :
    ∀ (n : Nat) (hn : n < 8),
      (stAt V c (8 * bi.val + n + 1)).m (ix2 r 0) = (Cert.Spec.onl (grow V c bi r) (n + 1)).1
      ∧ (stAt V c (8 * bi.val + n + 1)).l (ix2 r 0) = (Cert.Spec.onl (grow V c bi r) (n + 1)).2 := by
  intro n
  induction n with
  | zero =>
    intro hn
    have hc1 : cond1 (grid0.coords (pt bi 0 hn)) = 1#1 := ((cond_facts (pt bi 0 hn)).1).mpr (by show (8 * bi.val + 0) % 8 = 0; omega)
    have h := step_ml V c hlab (pt bi 0 hn) bi ⟨0, hn⟩ (by show bi.val = (8 * bi.val + 0) / 8; omega) (by show 0 = (8 * bi.val + 0) % 8; omega) r
      (stAt V c (8 * bi.val + 0)) ⊥ 0 (by rw [if_pos hc1]; exact pay5_apply _) (by rw [if_pos hc1]; exact pay6_apply _)
    rw [show 8 * bi.val + 0 + 1 = (pt bi 0 hn).val + 1 from rfl, stAt_succ, Cert.Spec.onl_succ _ 0 hn]
    exact h
  | succ n ih =>
    intro hn
    obtain ⟨ihm, ihl⟩ := ih (by omega)
    have hc1 : ¬ cond1 (grid0.coords (pt bi (n + 1) hn)) = 1#1 := fun h =>
      absurd (((cond_facts (pt bi (n + 1) hn)).1).mp h) (by show ¬ (8 * bi.val + (n + 1)) % 8 = 0; omega)
    have h := step_ml V c hlab (pt bi (n + 1) hn) bi ⟨n + 1, hn⟩ (by show bi.val = (8 * bi.val + (n + 1)) / 8; omega)
      (by show n + 1 = (8 * bi.val + (n + 1)) % 8; omega) r
      (stAt V c (8 * bi.val + n + 1)) (Cert.Spec.onl (grow V c bi r) (n + 1)).1 (Cert.Spec.onl (grow V c bi r) (n + 1)).2
      (by rw [if_neg hc1]; exact ihm) (by rw [if_neg hc1]; exact ihl)
    rw [show 8 * bi.val + (n + 1) + 1 = (pt bi (n + 1) hn).val + 1 from rfl, stAt_succ, Cert.Spec.onl_succ _ (n + 1) hn]
    exact h

/-- Arithmetic of the point index: `8b + n` with `n < 8` has column block `n` and row block `b`. -/
theorem paired_fin : ∀ (b n : Fin 8), ((8 * b.val + n.val) % 8 = ((8 * b.val + n.val) / 8 + 4) % 8 → (b.val + 4) % 8 = (8 * b.val + n.val) % 8)
    ∧ (¬ (8 * b.val + n.val) % 8 = ((8 * b.val + n.val) / 8 + 4) % 8 → (b.val + 4) % 8 ≤ n.val → (b.val + 4) % 8 + 1 ≤ n.val) := by decide
theorem paired_of_eq (b n : Nat) (hb : b < 8) (hn : n < 8) (h : (8 * b + n) % 8 = ((8 * b + n) / 8 + 4) % 8) :
    (b + 4) % 8 = (8 * b + n) % 8 := (paired_fin ⟨b, hb⟩ ⟨n, hn⟩).1 h
theorem paired_lt_of_ne (b n : Nat) (hb : b < 8) (hn : n + 1 < 8) (h : ¬ (8 * b + (n + 1)) % 8 = ((8 * b + (n + 1)) / 8 + 4) % 8)
    (hp : (b + 4) % 8 ≤ n + 1) : (b + 4) % 8 ≤ n := Nat.le_of_succ_le_succ ((paired_fin ⟨b, hb⟩ ⟨n + 1, hn⟩).2 h hp)

/-- The column block paired with row block `bi`. -/
def pb (bi : Fin 8) : Fin 8 := ⟨(bi.val + 4) % 8, by omega⟩

/-- The row 4096 places away is row `r` of the paired block. -/
theorem partner_col (bi : Fin 8) (r : Fin 1024) : Cert.Spec.partner (Cert.Spec.col bi r) = Cert.Spec.col (pb bi) r := by
  unfold Cert.Spec.partner Cert.Spec.col pb
  have hb := bi.isLt; have hr := r.isLt
  apply Fin.ext
  by_cases h : bi.val * 1024 + r.val < 4096
  · rw [dif_pos h]; show bi.val * 1024 + r.val + 4096 = (bi.val + 4) % 8 * 1024 + r.val; omega
  · rw [dif_neg h]; show bi.val * 1024 + r.val - 4096 = (bi.val + 4) % 8 * 1024 + r.val; omega

/-- From the paired block's point on, the third scratch buffer holds the row's positive logit. -/
theorem st_p (c : Dev nD) (bi : Fin 8) (r : Fin 1024) :
    ∀ (n : Nat) (hn : n < 8), (pb bi).val ≤ n →
      (stAt V c (8 * bi.val + n + 1)).p (ix2 r 0) = Cert.Spec.pos (Cert.Spec.simK (Y V c)) (Cert.Spec.col bi r) := by
  intro n
  induction n with
  | zero =>
    intro hn hp
    have hc2 : cond2 (grid0.coords (pt bi 0 hn)) = 1#1 := ((cond_facts (pt bi 0 hn)).2.1).mpr (by
      show (8 * bi.val + 0) % 8 = ((8 * bi.val + 0) / 8 + 4) % 8
      have : (pb bi).val = (bi.val + 4) % 8 := rfl
      have hb := bi.isLt; omega)
    rw [show 8 * bi.val + 0 + 1 = (pt bi 0 hn).val + 1 from rfl, stAt_succ]
    show (if cond2 (grid0.coords (pt bi 0 hn)) = 1#1 then k0_pay3 (F := Ideal) (k0_pay8 (F := Ideal) (iblk V c 0 (pt bi 0 hn)) (iblk V c 1 (pt bi 0 hn))) else _) (ix2 r 0) = _
    rw [if_pos hc2]
    refine (pay3_apply _ r).trans ?_
    rw [tile8 V c (pt bi 0 hn) bi (pb bi) (by show bi.val = (8 * bi.val + 0) / 8; omega)
      (by show (pb bi).val = (8 * bi.val + 0) % 8; omega) r r]
    unfold Cert.Spec.pos; rw [partner_col]
  | succ n ih =>
    intro hn hp
    rw [show 8 * bi.val + (n + 1) + 1 = (pt bi (n + 1) hn).val + 1 from rfl, stAt_succ]
    by_cases hc2 : cond2 (grid0.coords (pt bi (n + 1) hn)) = 1#1
    · show (if cond2 (grid0.coords (pt bi (n + 1) hn)) = 1#1 then k0_pay3 (F := Ideal) (k0_pay8 (F := Ideal) (iblk V c 0 (pt bi (n + 1) hn)) (iblk V c 1 (pt bi (n + 1) hn))) else _) (ix2 r 0) = _
      rw [if_pos hc2]
      refine (pay3_apply _ r).trans ?_
      have hpb : (pb bi).val = (8 * bi.val + (n + 1)) % 8 := by
        have h := ((cond_facts (pt bi (n + 1) hn)).2.1).mp hc2
        have h' : (8 * bi.val + (n + 1)) % 8 = ((8 * bi.val + (n + 1)) / 8 + 4) % 8 := h
        exact paired_of_eq bi.val (n + 1) bi.isLt hn h'
      rw [tile8 V c (pt bi (n + 1) hn) bi (pb bi) (by show bi.val = (8 * bi.val + (n + 1)) / 8; omega) hpb r r]
      unfold Cert.Spec.pos; rw [partner_col]
    · have hc1 : ¬ cond1 (grid0.coords (pt bi (n + 1) hn)) = 1#1 := fun h =>
        absurd (((cond_facts (pt bi (n + 1) hn)).1).mp h) (by show ¬ (8 * bi.val + (n + 1)) % 8 = 0; omega)
      have hlt : (pb bi).val ≤ n := by
        have h : ¬ (8 * bi.val + (n + 1)) % 8 = ((8 * bi.val + (n + 1)) / 8 + 4) % 8 := fun h => hc2 (((cond_facts (pt bi (n + 1) hn)).2.1).mpr h)
        exact paired_lt_of_ne bi.val n bi.isLt hn h hp
      show (if cond2 (grid0.coords (pt bi (n + 1) hn)) = 1#1 then _ else (if cond1 (grid0.coords (pt bi (n + 1) hn)) = 1#1 then k0_pay7 (F := Ideal) else (stAt V c (8 * bi.val + (n + 1))).p)) (ix2 r 0) = _
      rw [if_neg hc2, if_neg hc1]
      exact ih (by omega) hlt

/-- The loss stored for global row `col bi r` at the row block's last point. -/
def rowK (c : Dev nD) (i : Fin 8192) : EReal :=
  Cert.Spec.fin (Cert.Spec.onl (Cert.Spec.neg (Cert.Spec.simK (Y V c)) (LC V c) i) 8).1
    (Cert.Spec.onl (Cert.Spec.neg (Cert.Spec.simK (Y V c)) (LC V c) i) 8).2 (Cert.Spec.pos (Cert.Spec.simK (Y V c)) i)

theorem out_last (c : Dev nD) (hlab : ∀ j, LR V c j = LC V c j) (bi : Fin 8) (r : Fin 1024) :
    outOf (stAt V c (8 * bi.val + 7 + 1)) (ix2 r 0) = rowK V c (Cert.Spec.col bi r) := by
  obtain ⟨hm, hl⟩ := st_ml V c hlab bi r 7 (by omega)
  have hp := st_p V c bi r 7 (by omega) (by have := (pb bi).isLt; omega)
  show k0_pay4 (F := Ideal) _ _ _ _ _ _ (ix2 r 0) = _
  refine (pay4_apply _ _ _ _ _ _ _).trans ?_
  rw [hm, hl, hp]
  rfl

end Cert.KernelIdeal.Hand

end
-- ==== Proof.KHostI.lean ====
/-
  What the host's lines before the region leave in the three arrays the region reads, and what the host's lines
  after it compute, at the ideal values.

  Before the region each argument's rows are normalized: the row's squares are summed (from an initial zero), the
  root is taken, the norm is clamped from below by `1e-8`, and every entry of the row is divided by the clamped norm;
  the conversion to the narrower float format that follows is the identity on ideal values. The two normalized
  arrays are stacked, rows `0 … 4095` from the first argument and rows `4096 … 8191` from the second. The labels are
  stacked with themselves and laid out once as a column and once as a row; a relayout keeps each entry at its
  row-major position, and in a column or a row that position is the entry's one nontrivial coordinate.

  Every array is read at explicit coordinates: a stacked array at row `i` is the first piece at `i` when `i < 4096`
  and the second at `i - 4096` otherwise; a value broadcast along an axis is read at the remaining coordinates; a
  sum along the columns is the initial value plus the sum of the row's entries.

  After the region the host adds up the 8192 row losses (from an initial zero) and divides by `8192`: the mean.
-/
import proofs.«156892_j84602265797103_2_alg».proof.Proof.KDatI
import proofs.«156892_j84602265797103_2_alg».proof.Proof.Online
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx Idealize.SL.Sem

/-! ### One argument's normalization -/

/-- One argument's rows divided by their clamped norms, as the host spells it: squares, row sums from zero, roots,
    the clamp, the division, the change of format. -/
def nrm (x : FVec Ideal S4096x256 .f32) : FVec Ideal S4096x256 .bf16 :=
  truncf .bf16 (Host.divf x (broadcastInDim S4096x256 ![0, 1] bcast_S4096x1_S4096x256_0_1
    (maximumf (Host.sqrt (broadcastInDim S4096x1 ![0] bcast_S4096_S4096x1_0
        (Host.reduceAdd (mulf x x) (constant S_ .f32 0x00000000#32) reducesTo_S4096x256_S4096_d1 h_S_)))
      (broadcastInDim S4096x1 ![] bcast_S_S4096x1 (constant S_ .f32 0x322BCC77#32))))) bitsLt_bf16_f32

/-- The row sums of the squares: row `r` of the reduction, started from zero, is `∑ k, x r k * x r k`. -/
theorem rowSum_apply (x : FVec Ideal S4096x256 .f32) (r : Fin 4096) :
    Host.reduceAdd (mulf x x) (constant (F := Ideal) S_ .f32 0x00000000#32) reducesTo_S4096x256_S4096_d1 h_S_ (ix1 r)
      = ∑ k : Fin 256, x (ix2 r k) * x (ix2 r k) := by
  have h : S4096x256.Reduces [1] S4096 := by decide
  refine (hostReduceAdd_apply _ _ _ _ _).trans ?_
  refine (Ideal.hostReduceAdd_single reducesTo_S4096x256_S4096_d1 h _ _ _).trans ?_
  have h0 : constant (F := Ideal) S_ .f32 0x00000000#32 (Shape.Idx.first h_S_) = 0 := Ideal.ofBits_zero_f32
  rw [h0, zero_add]
  refine Finset.sum_congr rfl fun k _ => ?_
  have e : h.lift (ix1 r) k = ix2 r k := by
    funext a
    match a with
    | ⟨0, _⟩ => rfl
    | ⟨1, _⟩ => rfl
  exact congrArg (fun j => x j * x j) e

/-- The normalization at row `r`, column `k`: the entry divided by `max (sqrt (∑ k', x r k' ^ 2), 1e-8)`. The broadcast
    of the column of norms is read at `(r, 0)`, the broadcast of the row sums at `r`, the broadcast clamp anywhere. -/
theorem nrm_apply (x : FVec Ideal S4096x256 .f32) (r : Fin 4096) (k : Fin 256) :
    nrm x (ix2 r k)
      = Ideal.div (x (ix2 r k)) (max (Ideal.sqrt (∑ k' : Fin 256, x (ix2 r k') * x (ix2 r k'))) Cert.Spec.eps) := by
  unfold nrm
  refine (truncf_apply (ψ := .bf16) _ bitsLt_bf16_f32 (ix2 r k)).trans ?_
  refine (hostDivf_apply _ _ _).trans ?_
  congr 1
  refine (broadcastInDim_apply _ _ _ _ (ix2 r (0 : Fin 1)) ?_).trans ?_
  · intro a
    match a with
    | ⟨0, _⟩ => rfl
    | ⟨1, _⟩ => rfl
  refine (maximumf_apply _ _ _).trans ?_
  congr 1
  · show Ideal.sqrt _ = _
    congr 1
    refine (broadcastInDim_apply _ _ _ _ (ix1 r) ?_).trans ?_
    · intro a
      match a with
      | ⟨0, _⟩ => rfl
    exact rowSum_apply x r

/-! ### The labels and the mean -/

/-- The labels stacked with themselves, at `i`: the label `i` below 4096 and the label `i - 4096` from there on. -/
theorem labels_apply (L : (⟨S4096, .i32⟩ : BufTy).Contents (Elt Ideal)) (i : Fin 8192) :
    concatenate S8192 0 [⟨S4096, L⟩, ⟨S4096, L⟩] concatenates_S4096_S4096_S8192_d0 (ix1 i)
      = Cert.Spec.labcat (fun r => L (ix1 r)) i := by
  unfold Cert.Spec.labcat
  by_cases h : i.val < 4096
  · rw [dif_pos h]
    refine concatenate_pair_apply_left (s₁ := S4096) (s₂ := S4096) (0 : Fin 1) L L _ (ix1 i) rfl
      (ix1 (⟨i.val, h⟩ : Fin 4096)) ?_
    intro b
    match b with
    | ⟨0, _⟩ => rfl
  · rw [dif_neg h]
    have h2 : i.val - 4096 < 4096 := by omega
    refine concatenate_pair_apply_right (s₁ := S4096) (s₂ := S4096) (0 : Fin 1) L L _ (ix1 i) rfl rfl
      (ix1 (⟨i.val - 4096, h2⟩ : Fin 4096)) ?_ ?_
    · intro b hb
      have hb1 : b.val < 1 := b.isLt
      exact absurd (Fin.ext (by show b.val = 0; omega)) hb
    · show (i.val - 4096) + 4096 = i.val
      omega

/-- The host's last lines: the sum over the column of losses, from zero, divided by `8192`. An index of the
    `8192 × 1` column is a row number and the column number `0`, so the sum over the column's indices is the sum over
    the rows. -/
theorem tailVal_apply (y : (⟨S8192x1, .f32⟩ : BufTy).Contents (Elt Ideal)) :
    tailVal (F := Ideal) y ix0 = Cert.Spec.total (fun i => y (ix2 i (0 : Fin 1))) := by
  unfold tailVal Cert.Spec.total
  refine (hostDivf_apply _ _ _).trans ?_
  congr 1
  refine (hostReduceAdd_apply _ _ _ _ _).trans ?_
  refine (Ideal.hostReduceAdd_total reducesTo_S8192x1_S_d0_1 (fun b => b.elim0) _ _ _).trans ?_
  have h0 : constant (F := Ideal) S_ .f32 0x00000000#32 (Shape.Idx.first h_S_) = 0 := Ideal.ofBits_zero_f32
  rw [h0, zero_add, sum_idx2]
  refine Finset.sum_congr rfl fun a _ => ?_
  exact Fin.sum_univ_one _

/-! ### The arrays the region reads -/

variable (m : (ℓ : Loc nD τ sig) → Buf (Elt Ideal) ℓ) (ρ : Dev nD → PrngReg)

/-- The stacked normalized rows, as the operations' composed term over the launch contents. -/
theorem V0_v12_term (c : Dev nD) :
    (V0 (F := Ideal) m ρ c main_v12 : (⟨S8192x256, .bf16⟩ : BufTy).Contents (Elt Ideal))
      = concatenate S8192x256 0
          [⟨S4096x256, nrm (W0 m ρ c (Proc.devRef .tc main_arg0))⟩, ⟨S4096x256, nrm (W0 m ρ c (Proc.devRef .tc main_arg1))⟩]
          concatenates_S4096x256_S4096x256_S8192x256_d0 := by
  unfold V0 Wd Wc Wb Wa
  dsimp only [hostOps0, hostOps0_1, hostOps0_2, hostOps0_3]
  after_results
  rfl

/-- The stacked labels as a column, as the operations' composed term over the launch contents. -/
theorem V0_v14_term (c : Dev nD) :
    (V0 (F := Ideal) m ρ c main_v14 : (⟨S8192x1, .i32⟩ : BufTy).Contents (Elt Ideal))
      = shapeCast S8192x1 (concatenate S8192 0
          [⟨S4096, W0 m ρ c (Proc.devRef .tc main_arg2)⟩, ⟨S4096, W0 m ρ c (Proc.devRef .tc main_arg2)⟩]
          concatenates_S4096_S4096_S8192_d0) shapeCasts_S8192_S8192x1 := by
  unfold V0 Wd Wc Wb Wa
  dsimp only [hostOps0, hostOps0_1, hostOps0_2, hostOps0_3]
  after_results
  rfl

/-- The stacked labels as a row, as the operations' composed term over the launch contents. -/
theorem V0_v15_term (c : Dev nD) :
    (V0 (F := Ideal) m ρ c main_v15 : (⟨S1x8192, .i32⟩ : BufTy).Contents (Elt Ideal))
      = shapeCast S1x8192 (concatenate S8192 0
          [⟨S4096, W0 m ρ c (Proc.devRef .tc main_arg2)⟩, ⟨S4096, W0 m ρ c (Proc.devRef .tc main_arg2)⟩]
          concatenates_S4096_S4096_S8192_d0) shapeCasts_S8192_S1x8192 := by
  unfold V0 Wd Wc Wb Wa
  dsimp only [hostOps0, hostOps0_1, hostOps0_2, hostOps0_3]
  after_results
  rfl

/-- The region's first two windows read the normalized stacked rows: row `i`, column `k` of the stacked array is the
    `i`-th row of the first argument for `i < 4096` and row `i - 4096` of the second otherwise, divided by its clamped
    norm. -/
theorem V0_v12 (c : Dev nD) (i : Fin 8192) (k : Fin 256) :
    (V0 (F := Ideal) m ρ c main_v12 : (⟨S8192x256, .bf16⟩ : BufTy).Contents (Elt Ideal)) (ix2 i k)
      = Cert.Spec.znorm (Cert.Spec.zcat
          (fun (r : Fin 4096) (k : Fin 256) =>
            (m ((c.tc : Thread nD τ).loc main_arg0) : (⟨S4096x256, .f32⟩ : BufTy).Contents (Elt Ideal)) (ix2 r k))
          (fun (r : Fin 4096) (k : Fin 256) =>
            (m ((c.tc : Thread nD τ).loc main_arg1) : (⟨S4096x256, .f32⟩ : BufTy).Contents (Elt Ideal)) (ix2 r k))) i k := by
  refine (congrFun (V0_v12_term m ρ c) (ix2 i k)).trans ?_
  by_cases h : i.val < 4096
  · refine (concatenate_pair_apply_left (s₁ := S4096x256) (s₂ := S4096x256) (0 : Fin 2) _ _ _ (ix2 i k) rfl
      (ix2 (⟨i.val, h⟩ : Fin 4096) k) ?_).trans ?_
    · intro b
      match b with
      | ⟨0, _⟩ => rfl
      | ⟨1, _⟩ => rfl
    refine (nrm_apply _ _ _).trans ?_
    simp only [Cert.Spec.znorm, Cert.Spec.rnorm, Cert.Spec.zcat, dif_pos h]
  · have h2 : i.val - 4096 < 4096 := by omega
    refine (concatenate_pair_apply_right (s₁ := S4096x256) (s₂ := S4096x256) (0 : Fin 2) _ _ _ (ix2 i k) rfl rfl
      (ix2 (⟨i.val - 4096, h2⟩ : Fin 4096) k) ?_ ?_).trans ?_
    · intro b hb
      have hb2 : b.val < 2 := b.isLt
      have hb0 : b.val ≠ 0 := fun e => hb (Fin.ext e)
      have hb1 : b = (⟨1, by decide⟩ : Fin S4096x256.rank) := Fin.ext (by show b.val = 1; omega)
      subst hb1
      rfl
    · show (i.val - 4096) + 4096 = i.val
      omega
    refine (nrm_apply _ _ _).trans ?_
    simp only [Cert.Spec.znorm, Cert.Spec.rnorm, Cert.Spec.zcat, dif_neg h]

/-- The third window reads the labels stacked twice, as a column. -/
theorem V0_v14 (c : Dev nD) (i : Fin 8192) :
    (V0 (F := Ideal) m ρ c main_v14 : (⟨S8192x1, .i32⟩ : BufTy).Contents (Elt Ideal)) (ix2 i (0 : Fin 1))
      = Cert.Spec.labcat (fun r : Fin 4096 =>
          (m ((c.tc : Thread nD τ).loc main_arg2) : (⟨S4096, .i32⟩ : BufTy).Contents (Elt Ideal)) (ix1 r)) i := by
  refine (congrFun (V0_v14_term m ρ c) (ix2 i (0 : Fin 1))).trans ?_
  refine (shapeCast_apply _ _ (ix2 i (0 : Fin 1)) (ix1 i) ?_).trans ?_
  · rw [Shape.rowMajor_val_two, Shape.rowMajor_val_one]
    show i.val = i.val * 1 + 0
    omega
  exact labels_apply _ i

/-- The fourth window reads the labels stacked twice, as a row. -/
theorem V0_v15 (c : Dev nD) (i : Fin 8192) :
    (V0 (F := Ideal) m ρ c main_v15 : (⟨S1x8192, .i32⟩ : BufTy).Contents (Elt Ideal)) (ix2 (0 : Fin 1) i)
      = Cert.Spec.labcat (fun r : Fin 4096 =>
          (m ((c.tc : Thread nD τ).loc main_arg2) : (⟨S4096, .i32⟩ : BufTy).Contents (Elt Ideal)) (ix1 r)) i := by
  refine (congrFun (V0_v15_term m ρ c) (ix2 (0 : Fin 1) i)).trans ?_
  refine (shapeCast_apply _ _ (ix2 (0 : Fin 1) i) (ix1 i) ?_).trans ?_
  · rw [Shape.rowMajor_val_two, Shape.rowMajor_val_one]
    show i.val = 0 * 8192 + i.val
    omega
  exact labels_apply _ i

end Cert.KernelIdeal.Hand

end
-- ==== Proof.KFinalI.lean ====
/-
  The region's result array and the program's result, at the ideal values.

  The output window is written back only at each row block's last point, with the block of that row block's losses;
  those eight blocks tile the 8192 × 1 result array, so the array ends holding, at row `i`, the loss of row `i` by the
  block recurrence. The host's last lines average the array.
-/
import proofs.«156892_j84602265797103_2_alg».proof.Proof.KStateI
import proofs.«156892_j84602265797103_2_alg».proof.Proof.KHostI

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- An index of the result array is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v16).slice (win0_4.rect t)).set ↔ _
  rw [View.set_slice_whole, Rect.mem_set_unit]
  exact Iff.rfl

/-- The result array after the region: row `i` holds row `i`'s loss by the block recurrence. -/
theorem arr4 (c : Dev nD) (hlab : ∀ j, LR V c j = LC V c j) :
    (dat0 V c).arrAt 4 cfg0.N = fun i : S8192x1.Idx => rowK V c ⟨(i 0).val, (i 0).isLt⟩ := by
  refine (dat0 V c).arrAt_eq_of_cover 4 (fun i : S8192x1.Idx => rowK V c ⟨(i 0).val, (i 0).isLt⟩) (fun t hf => ?_) (fun i => ?_)
  · have h7 : t.val % 8 = 7 := (flush0_4 t).mp hf
    have ht : t.val < 64 := lt_of_lt_of_eq t.isLt N_64
    obtain ⟨-, -, -, -, -, -, -, -, e0, e1⟩ := idx_facts t
    show (cfg0.win 4).cut (grid0.coords t) ((dat0 V c).after 4 t) = _
    rw [after_4]
    funext y
    have hy1 : (y 1).val = 0 := by have h : (y 1).val < 1 := (y 1).isLt; omega
    have hy : y = ix2 (y 0) 0 := by
      funext a
      match a with
      | ⟨0, _⟩ => rfl
      | ⟨1, _⟩ => exact Fin.ext hy1
    obtain ⟨bi, hbi⟩ : ∃ bi : Fin 8, bi.val = t.val / 8 := ⟨⟨t.val / 8, by omega⟩, rfl⟩
    obtain ⟨r, hr⟩ : ∃ r : Fin 1024, r = y 0 := ⟨y 0, rfl⟩
    rw [hy, ← hr]
    show outOf (stAt V c (t.val + 1)) (ix2 r 0) = rowK V c ⟨((((cfg0.win 4).blk t).view.emb (ix2 r 0)) 0).val, _⟩
    rw [show t.val + 1 = 8 * bi.val + 7 + 1 by omega]
    refine (out_last V c hlab bi r).trans ?_
    refine congrArg (rowK V c) ?_
    apply Fin.ext
    show bi.val * 1024 + r.val = win0_4.index t (0 : Fin 2) * 1024 + 1 * r.val
    omega
  · have hi0 : (i 0).val < 8192 := (i 0).isLt
    have hi1 : (i 1).val < 1 := (i 1).isLt
    let t : Fin cfg0.N := ⟨8 * ((i 0).val / 1024) + 7, lt_of_lt_of_eq (show 8 * ((i 0).val / 1024) + 7 < 64 by omega) N_64.symm⟩
    have htv : t.val = 8 * ((i 0).val / 1024) + 7 := rfl
    obtain ⟨-, -, -, -, -, -, -, -, e0, e1⟩ := idx_facts t
    refine ⟨t, (flush0_4 t).mpr (by omega), ?_⟩
    rw [mem_blk4]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1 ≤ (i 1).val ∧ (i 1).val < win0_4.index t (1 : Fin 2) * 1 + 1; omega

variable (m : (ℓ : Loc nD τ sig) → Buf (Elt Ideal) ℓ) (ρ : Dev nD → PrngReg)

/-- The program's result at the ideal values: the mean over the rows of the losses by the block recurrence, of the
    normalized stacked rows and the stacked labels. -/
theorem kernel_value (c : Dev nD) :
    tailVal (F := Ideal) ((dat0 (V0 m ρ) c).arrAt 4 cfg0.N) ix0
      = Cert.Spec.resultK (fun (r : Fin 4096) (k : Fin 256) => m ((c.tc : Thread nD τ).loc main_arg0) (ix2 r k))
          (fun (r : Fin 4096) (k : Fin 256) => m ((c.tc : Thread nD τ).loc main_arg1) (ix2 r k))
          (fun (r : Fin 4096) => m ((c.tc : Thread nD τ).loc main_arg2) (ix1 r)) := by
  have hY : Y (V0 m ρ) c = Cert.Spec.znorm (Cert.Spec.zcat (fun (r : Fin 4096) (k : Fin 256) => m ((c.tc : Thread nD τ).loc main_arg0) (ix2 r k))
      (fun (r : Fin 4096) (k : Fin 256) => m ((c.tc : Thread nD τ).loc main_arg1) (ix2 r k))) :=
    funext fun i => funext fun k => V0_v12 m ρ c i k
  have hLC : LC (V0 m ρ) c = Cert.Spec.labcat (fun (r : Fin 4096) => m ((c.tc : Thread nD τ).loc main_arg2) (ix1 r)) :=
    funext fun i => V0_v14 m ρ c i
  have hLR : LR (V0 m ρ) c = Cert.Spec.labcat (fun (r : Fin 4096) => m ((c.tc : Thread nD τ).loc main_arg2) (ix1 r)) :=
    funext fun i => V0_v15 m ρ c i
  rw [arr4 (V0 m ρ) c (fun j => by rw [hLR, hLC])]
  refine (tailVal_apply _).trans ?_
  unfold Cert.Spec.resultK
  refine congrArg Cert.Spec.total (funext fun i => ?_)
  show rowK (V0 m ρ) c ⟨((ix2 i (0 : Fin 1) : S8192x1.Idx) 0).val, _⟩ = _
  unfold rowK
  rw [hY, hLC]

end Cert.KernelIdeal.Hand

end
-- ==== Proof.RefValue.lean ====
/-
  The reference program's result, read one operation at a time, is the two-pass mean of the rows' losses.
-/
import proofs.«156892_j84602265797103_2_alg».proof.Proof.Gen.ReferenceIdeal.Read
import proofs.«156892_j84602265797103_2_alg».proof.Proof.Spec
import proofs.«156892_j84602265797103_2_alg».proof.Proof.LibMaxReduce
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

/-! ## Indices -/

/-- Two rank-2 indices with the same coordinates are equal. -/
theorem idx2_ext {n0 n1 : Nat} (i j : (⟨2, ![n0, n1]⟩ : Shape).Idx) (h0 : (i 0).val = (j 0).val) (h1 : (i 1).val = (j 1).val) :
    i = j := by
  funext a
  match a with
  | ⟨0, _⟩ => exact Fin.ext h0
  | ⟨1, _⟩ => exact Fin.ext h1

/-- Two rank-1 indices with the same coordinate are equal. -/
theorem idx1_ext {n : Nat} (i j : (⟨1, ![n]⟩ : Shape).Idx) (h0 : (i 0).val = (j 0).val) : i = j := by
  funext a
  match a with
  | ⟨0, _⟩ => exact Fin.ext h0

variable (x0 x1 : (⟨S4096x256, .f32⟩ : BufTy).Contents (Elt Ideal)) (x2 : (⟨S4096, .i32⟩ : BufTy).Contents (Elt Ideal))

/-- The first argument's rows, -/
abbrev A0 : Fin 4096 → Fin 256 → EReal := fun r k => x0 (ix2 r k)
/-- the second's, -/
abbrev A1 : Fin 4096 → Fin 256 → EReal := fun r k => x1 (ix2 r k)
/-- and the labels. -/
abbrev LAB : Fin 4096 → BitVec 32 := fun r => x2 (ix1 r)

/-! ## The stacked rows and labels -/

/-- The concatenated rows at `(r, k)`. -/
theorem z_apply (r : Fin 8192) (k : Fin 256) :
    val_main_v0 (F := Ideal) x0 x1 (ix2 r k) = Cert.Spec.zcat (A0 x0) (A1 x1) r k := by
  unfold val_main_v0 Cert.Spec.zcat
  by_cases h : r.val < 4096
  · rw [dif_pos h]
    exact concatenate_pair_apply_left (t := S8192x256) (s₁ := S4096x256) (s₂ := S4096x256) 0 x0 x1 _ (ix2 r k) rfl
      (ix2 ⟨r.val, h⟩ k) (fun b => match b with | ⟨0, _⟩ => rfl | ⟨1, _⟩ => rfl)
  · rw [dif_neg h]
    exact concatenate_pair_apply_right (t := S8192x256) (s₁ := S4096x256) (s₂ := S4096x256) 0 x0 x1 _ (ix2 r k) rfl rfl
      (ix2 ⟨r.val - 4096, by omega⟩ k)
      (fun b hb => match b, hb with
        | ⟨0, _⟩, hb => absurd rfl hb
        | ⟨1, _⟩, _ => rfl)
      (by show r.val - 4096 + 4096 = r.val; omega)

/-- The concatenated labels at `r`. -/
theorem lab_apply (r : Fin 8192) :
    val_main_v1 (F := Ideal) x2 (ix1 r) = Cert.Spec.labcat (LAB x2) r := by
  unfold val_main_v1 Cert.Spec.labcat
  by_cases h : r.val < 4096
  · rw [dif_pos h]
    exact concatenate_pair_apply_left (t := S8192) (s₁ := S4096) (s₂ := S4096) 0 x2 x2 _ (ix1 r) rfl
      (ix1 ⟨r.val, h⟩) (fun b => match b with | ⟨0, _⟩ => rfl)
  · rw [dif_neg h]
    exact concatenate_pair_apply_right (t := S8192) (s₁ := S4096) (s₂ := S4096) 0 x2 x2 _ (ix1 r) rfl rfl
      (ix1 ⟨r.val - 4096, by omega⟩)
      (fun b hb => match b, hb with
        | ⟨0, _⟩, hb => absurd rfl hb)
      (by show r.val - 4096 + 4096 = r.val; omega)

/-! ## The rows' norms and the normalized rows -/

/-- The stacked rows. -/
abbrev Z : Fin 8192 → Fin 256 → EReal := Cert.Spec.zcat (A0 x0) (A1 x1)

/-- An entry's square. -/
theorem sq_apply (r : Fin 8192) (k : Fin 256) :
    val_main_call0_v0 (F := Ideal) x0 x1 (ix2 r k) = Z x0 x1 r k * Z x0 x1 r k := by
  rw [val_main_call0_v0_apply, z_apply]
  rfl

/-- A row's sum of squares: the sum from zero is the sum. -/
theorem sumsq_apply (r : Fin 8192) :
    val_main_call0_v1 (F := Ideal) x0 x1 (ix1 r) = ∑ k : Fin 256, Z x0 x1 r k * Z x0 x1 r k := by
  rw [val_main_call0_v1_apply, val_main_call0_cst_apply]
  show Ideal.ofBits .f32 0x00000000#32 + _ = _
  rw [Ideal.ofBits_zero_f32, zero_add]
  refine Finset.sum_congr rfl fun k _ => ?_
  rw [show idx_main_call0_v1 (ix1 r) k = ix2 r k from idx2_ext _ _ rfl rfl]
  exact sq_apply x0 x1 r k

/-- A row's clamped norm, kept as a column. -/
theorem norm_apply (r : Fin 8192) (c : Fin 1) :
    val_main_v4 (F := Ideal) x0 x1 (ix2 r c) = Cert.Spec.rnorm (Z x0 x1) r := by
  rw [val_main_v4_apply, val_main_v2_apply, val_main_call0_v2_apply, val_main_v3_apply, val_main_cst_apply,
    show idx_main_call0_v2 (ix2 r c) = ix1 r from idx1_ext _ _ rfl, sumsq_apply]
  rfl

/-- The normalized rows. -/
abbrev ZN : Fin 8192 → Fin 256 → EReal := Cert.Spec.znorm (Z x0 x1)

/-- A normalized entry: the entry over its row's clamped norm. -/
theorem znorm_apply (r : Fin 8192) (k : Fin 256) :
    val_main_v6 (F := Ideal) x0 x1 (ix2 r k) = ZN x0 x1 r k := by
  rw [val_main_v6_apply, val_main_v5_apply, z_apply,
    show idx_main_v5 (ix2 r k) = ix2 r (0 : Fin 1) from idx2_ext _ _ rfl rfl, norm_apply]
  rfl

/-! ## The logits -/

/-- The product with the transpose at `(r, q)` is the inner product of rows `r` and `q`. -/
theorem dot_apply (r q : Fin 8192) :
    val_main_v8 (F := Ideal) x0 x1 (ix2 r q) = Cert.Spec.dotn (ZN x0 x1) r q := by
  rw [val_main_v8_apply]
  refine Finset.sum_congr rfl fun k _ => ?_
  rw [show lidx_main_v8 (ix2 r q) k = ix2 r k from idx2_ext _ _ rfl rfl, znorm_apply, val_main_v7_apply,
    show idx_main_v7 (ridx_main_v8 (ix2 r q) k) = ix2 q k from idx2_ext _ _ rfl rfl, znorm_apply]

/-- The logits. -/
abbrev SIM : Fin 8192 → Fin 8192 → EReal := Cert.Spec.simR (ZN x0 x1)

/-- A logit: the inner product over the temperature. -/
theorem sim_apply (r q : Fin 8192) :
    val_main_v10 (F := Ideal) x0 x1 (ix2 r q) = SIM x0 x1 r q := by
  rw [val_main_v10_apply, dot_apply, val_main_v9_apply, val_main_cst_0_apply]
  rfl

/-! ## The two off-diagonals -/

/-- A word below `2^31` read as a signed integer is itself. -/
theorem toInt_ofNat_small (n : Nat) (h : n < 2147483648) : (BitVec.ofNat 32 n).toInt = (n : Int) := by
  have h1 : (BitVec.ofNat 32 n).toNat = n := by rw [BitVec.toNat_ofNat]; omega
  rw [BitVec.toInt_eq_toNat_cond, h1, if_pos (by omega)]

/-- Such a word is not negative. -/
theorem cmpi_slt_zero (n : Nat) (h : n < 2147483648) : IntOp.cmpi .slt (BitVec.ofNat 32 n) 0#32 = 0#1 := by
  have h1 := toInt_ofNat_small n h
  show BitVec.ofBool ((BitVec.ofNat 32 n).slt 0#32) = 0#1
  have h2 : (BitVec.ofNat 32 n).slt 0#32 = false := by
    rw [BitVec.slt, h1]
    simp
  rw [h2]
  rfl

/-- A gather of single entries of a square array at a two-column array of start indices reads, at `p`, the entry
    whose row and column are the two start indices of row `p`, read signed and clamped into the array. -/
theorem gather_pair_apply {α : Type} (x : S8192x8192.Idx → α) (idx : IVec S4096x2 32) (p : Fin 4096) (a b : Fin 8192)
    (ha : min (idx (ix2 p (0 : Fin 2))).toInt.toNat 8191 = a.val)
    (hb : min (idx (ix2 p (1 : Fin 2))).toInt.toNat 8191 = b.val) :
    Host.gather gather_S8192x8192_S4096x2_S4096_n_01_n_n_01_1_11 x idx (ix1 p) = x (ix2 a b) := by
  have h0 : (gather_S8192x8192_S4096x2_S4096_n_01_n_n_01_1_11.operandIdx (ix1 p) idx 0).val = a.val := by
    show gather_S8192x8192_S4096x2_S4096_n_01_n_n_01_1_11.start (ix1 p) idx 0 + gather_S8192x8192_S4096x2_S4096_n_01_n_n_01_1_11.batchCoord (ix1 p) 0 + gather_S8192x8192_S4096x2_S4096_n_01_n_n_01_1_11.offCoord (ix1 p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap from by decide)]
    have hsi : ∀ h, gather_S8192x8192_S4096x2_S4096_n_01_n_n_01_1_11.siIdx (ix1 p) ⟨List.idxOf (0 : Fin 2) gather_S8192x8192_S4096x2_S4096_n_01_n_n_01_1_11.startIndexMap, h⟩ = ix2 p (0 : Fin 2) :=
      fun h => idx2_ext _ _ rfl rfl
    rw [hsi]
    exact ha
  have h1 : (gather_S8192x8192_S4096x2_S4096_n_01_n_n_01_1_11.operandIdx (ix1 p) idx 1).val = b.val := by
    show gather_S8192x8192_S4096x2_S4096_n_01_n_n_01_1_11.start (ix1 p) idx 1 + gather_S8192x8192_S4096x2_S4096_n_01_n_n_01_1_11.batchCoord (ix1 p) 1 + gather_S8192x8192_S4096x2_S4096_n_01_n_n_01_1_11.offCoord (ix1 p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap from by decide)]
    have hsi : ∀ h, gather_S8192x8192_S4096x2_S4096_n_01_n_n_01_1_11.siIdx (ix1 p) ⟨List.idxOf (1 : Fin 2) gather_S8192x8192_S4096x2_S4096_n_01_n_n_01_1_11.startIndexMap, h⟩ = ix2 p (1 : Fin 2) :=
      fun h => idx2_ext _ _ rfl rfl
    rw [hsi]
    exact hb
  exact congrArg x (idx2_ext _ _ h0 h1)

/-- The upper off-diagonal's start indices: row `p`, -/
theorem call1_row (p : Fin 4096) : val_main_call1_v16 (F := Ideal) (ix2 p (0 : Fin 2)) = BitVec.ofNat 32 p.val := by
  unfold val_main_call1_v16
  refine (concatenate_pair_apply_left (t := S4096x2) (s₁ := S4096x1) (s₂ := S4096x1) 1 _ _ _ (ix2 p (0 : Fin 2)) rfl
    (ix2 p (0 : Fin 1)) (fun b => match b with | ⟨0, _⟩ => rfl | ⟨1, _⟩ => rfl)).trans ?_
  rw [val_main_call1_v14_apply, val_main_call1_v8_apply, val_main_call1_v5_apply, val_main_call1_v0_apply,
    val_main_call1_v4_apply, val_main_call1_c_0_apply]
  show Scalar.select (IntOp.cmpi .slt (BitVec.ofNat 32 p.val) 0#32) _ (BitVec.ofNat 32 p.val) = _
  rw [cmpi_slt_zero p.val (by omega), select_zero]

/-- column `p + 4096`. -/
theorem call1_col (p : Fin 4096) : val_main_call1_v16 (F := Ideal) (ix2 p (1 : Fin 2)) = BitVec.ofNat 32 (4096 + p.val) := by
  unfold val_main_call1_v16
  refine (concatenate_pair_apply_right (t := S4096x2) (s₁ := S4096x1) (s₂ := S4096x1) 1 _ _ _ (ix2 p (1 : Fin 2)) rfl rfl
    (ix2 p (0 : Fin 1))
    (fun b hb => match b, hb with
      | ⟨0, _⟩, _ => rfl
      | ⟨1, _⟩, hb => absurd rfl hb)
    rfl).trans ?_
  rw [val_main_call1_v15_apply, val_main_call1_v13_apply, val_main_call1_v10_apply, val_main_call1_v3_apply,
    val_main_call1_v2_apply, val_main_call1_c_apply, val_main_call1_v1_apply, val_main_call1_v9_apply,
    val_main_call1_c_2_apply]
  show Scalar.select (IntOp.cmpi .slt (BitVec.ofNat 32 4096 + BitVec.ofNat 32 p.val) 0#32) _
    (BitVec.ofNat 32 4096 + BitVec.ofNat 32 p.val) = _
  rw [← BitVec.ofNat_add, cmpi_slt_zero (4096 + p.val) (by omega), select_zero]

/-- The lower off-diagonal's start indices: row `p + 4096`, -/
theorem call2_row (p : Fin 4096) : val_main_call2_v16 (F := Ideal) (ix2 p (0 : Fin 2)) = BitVec.ofNat 32 (4096 + p.val) := by
  unfold val_main_call2_v16
  refine (concatenate_pair_apply_left (t := S4096x2) (s₁ := S4096x1) (s₂ := S4096x1) 1 _ _ _ (ix2 p (0 : Fin 2)) rfl
    (ix2 p (0 : Fin 1)) (fun b => match b with | ⟨0, _⟩ => rfl | ⟨1, _⟩ => rfl)).trans ?_
  rw [val_main_call2_v14_apply, val_main_call2_v8_apply, val_main_call2_v5_apply, val_main_call2_v3_apply,
    val_main_call2_v2_apply, val_main_call2_c_apply, val_main_call2_v1_apply, val_main_call2_v4_apply,
    val_main_call2_c_0_apply]
  show Scalar.select (IntOp.cmpi .slt (BitVec.ofNat 32 4096 + BitVec.ofNat 32 p.val) 0#32) _
    (BitVec.ofNat 32 4096 + BitVec.ofNat 32 p.val) = _
  rw [← BitVec.ofNat_add, cmpi_slt_zero (4096 + p.val) (by omega), select_zero]

/-- column `p`. -/
theorem call2_col (p : Fin 4096) : val_main_call2_v16 (F := Ideal) (ix2 p (1 : Fin 2)) = BitVec.ofNat 32 p.val := by
  unfold val_main_call2_v16
  refine (concatenate_pair_apply_right (t := S4096x2) (s₁ := S4096x1) (s₂ := S4096x1) 1 _ _ _ (ix2 p (1 : Fin 2)) rfl rfl
    (ix2 p (0 : Fin 1))
    (fun b hb => match b, hb with
      | ⟨0, _⟩, _ => rfl
      | ⟨1, _⟩, hb => absurd rfl hb)
    rfl).trans ?_
  rw [val_main_call2_v15_apply, val_main_call2_v13_apply, val_main_call2_v10_apply, val_main_call2_v0_apply,
    val_main_call2_v9_apply, val_main_call2_c_2_apply]
  show Scalar.select (IntOp.cmpi .slt (BitVec.ofNat 32 p.val) 0#32) _ (BitVec.ofNat 32 p.val) = _
  rw [cmpi_slt_zero p.val (by omega), select_zero]

/-- A start index below the array's extent is not clamped. -/
theorem clamp_small (n : Nat) (h : n < 8192) : min (BitVec.ofNat 32 n).toInt.toNat 8191 = n := by
  rw [toInt_ofNat_small n (by omega), Int.toNat_natCast]
  omega

/-- The upper off-diagonal: entry `p` is the logit of row `p` against row `p + 4096`. -/
theorem diag_hi (p : Fin 4096) :
    val_main_v11 (F := Ideal) x0 x1 (ix1 p) = SIM x0 x1 ⟨p.val, by omega⟩ ⟨p.val + 4096, by omega⟩ := by
  have ha : min (BitVec.toInt (val_main_call1_v16 (F := Ideal) (ix2 p (0 : Fin 2)))).toNat 8191 = p.val := by
    rw [call1_row]
    exact clamp_small p.val (by omega)
  have hb : min (BitVec.toInt (val_main_call1_v16 (F := Ideal) (ix2 p (1 : Fin 2)))).toNat 8191 = p.val + 4096 := by
    rw [call1_col]
    exact (clamp_small (4096 + p.val) (by omega)).trans (Nat.add_comm _ _)
  unfold val_main_v11
  exact (gather_pair_apply (val_main_v10 (F := Ideal) x0 x1) (val_main_call1_v16 (F := Ideal)) p
    ⟨p.val, by omega⟩ ⟨p.val + 4096, by omega⟩ ha hb).trans (sim_apply x0 x1 _ _)

/-- The lower off-diagonal: entry `p` is the logit of row `p + 4096` against row `p`. -/
theorem diag_lo (p : Fin 4096) :
    val_main_v12 (F := Ideal) x0 x1 (ix1 p) = SIM x0 x1 ⟨p.val + 4096, by omega⟩ ⟨p.val, by omega⟩ := by
  have ha : min (BitVec.toInt (val_main_call2_v16 (F := Ideal) (ix2 p (0 : Fin 2)))).toNat 8191 = p.val + 4096 := by
    rw [call2_row]
    exact (clamp_small (4096 + p.val) (by omega)).trans (Nat.add_comm _ _)
  have hb : min (BitVec.toInt (val_main_call2_v16 (F := Ideal) (ix2 p (1 : Fin 2)))).toNat 8191 = p.val := by
    rw [call2_col]
    exact clamp_small p.val (by omega)
  unfold val_main_v12
  exact (gather_pair_apply (val_main_v10 (F := Ideal) x0 x1) (val_main_call2_v16 (F := Ideal)) p
    ⟨p.val + 4096, by omega⟩ ⟨p.val, by omega⟩ ha hb).trans (sim_apply x0 x1 _ _)

/-- A logit depends on its two rows through their positions only. -/
theorem sim_congr (a a' b b' : Fin 8192) (ha : a.val = a'.val) (hb : b.val = b'.val) :
    SIM x0 x1 a b = SIM x0 x1 a' b' := by
  rw [Fin.ext ha, Fin.ext hb]

/-- The positives: row `r`'s logit against its partner. -/
theorem pos_apply (r : Fin 8192) :
    val_main_v13 (F := Ideal) x0 x1 (ix1 r) = Cert.Spec.pos (SIM x0 x1) r := by
  unfold val_main_v13 Cert.Spec.pos Cert.Spec.partner
  by_cases h : r.val < 4096
  · rw [dif_pos h]
    refine (concatenate_pair_apply_left (t := S8192) (s₁ := S4096) (s₂ := S4096) 0 _ _ _ (ix1 r) rfl
      (ix1 ⟨r.val, h⟩) (fun b => match b with | ⟨0, _⟩ => rfl)).trans ?_
    exact (diag_hi x0 x1 ⟨r.val, h⟩).trans (sim_congr x0 x1 _ _ _ _ rfl rfl)
  · rw [dif_neg h]
    refine (concatenate_pair_apply_right (t := S8192) (s₁ := S4096) (s₂ := S4096) 0 _ _ _ (ix1 r) rfl rfl
      (ix1 ⟨r.val - 4096, by omega⟩)
      (fun b hb => match b, hb with
        | ⟨0, _⟩, hb => absurd rfl hb)
      (by show r.val - 4096 + 4096 = r.val; omega)).trans ?_
    exact (diag_lo x0 x1 ⟨r.val - 4096, by omega⟩).trans
      (sim_congr x0 x1 _ _ _ _ (by show r.val - 4096 + 4096 = r.val; omega) rfl)

/-! ## The masked logits -/

/-- A select on "the two words differ" is the `if` on their inequality. -/
theorem select_cmpi_ne {α : Type} (a b : BitVec 32) (A B : α) :
    Scalar.select (IntOp.cmpi .ne a b) A B = if a ≠ b then A else B := by
  unfold Scalar.select
  show (if BitVec.ofBool (a != b) = 1#1 then A else B) = _
  by_cases h : a = b
  · subst h
    have e : (a != a) = false := bne_self_eq_false a
    rw [e, if_neg (show ¬ BitVec.ofBool false = 1#1 by decide), if_neg (fun hn : a ≠ a => hn rfl)]
  · have e : (a != b) = true := bne_iff_ne.mpr h
    rw [e, if_pos (show BitVec.ofBool true = 1#1 by decide), if_pos h]

/-- The stacked labels. -/
abbrev LC : Fin 8192 → BitVec 32 := Cert.Spec.labcat (LAB x2)

/-- The masked logits. -/
abbrev NEG : Fin 8192 → Fin 8192 → EReal := Cert.Spec.neg (SIM x0 x1) (LC x2)

/-- A masked logit: the logit where the labels differ, the large negative constant elsewhere. -/
theorem neg_apply (r q : Fin 8192) :
    val_main_v19 (F := Ideal) x0 x1 x2 (ix2 r q) = NEG x0 x1 x2 r q := by
  rw [val_main_v19_apply, val_main_v18_apply, val_main_v16_apply, val_main_v14_apply, val_main_v17_apply,
    val_main_v15_apply, sim_apply, val_main_call3_v1_apply, val_main_call3_v0_apply, val_main_cst_1_apply,
    show idx_main_v14 (idx_main_v16 (ix2 r q)) = ix1 r from idx1_ext _ _ rfl,
    show idx_main_v15 (idx_main_v17 (ix2 r q)) = ix1 q from idx1_ext _ _ rfl, lab_apply, lab_apply, select_cmpi_ne]
  rfl

/-! ## A row's maximum, its sum of exponentials and its loss -/

/-- The square array loses its second axis. -/
theorem red_cols : S8192x8192.Reduces [1] S8192 := by decide

/-- The maximum of a row's masked logits is their supremum. -/
theorem rowmax_apply (r : Fin 8192) :
    val_main_v20 (F := Ideal) x0 x1 x2 (ix1 r) = ⨆ q : Fin 8192, NEG x0 x1 x2 r q := by
  unfold val_main_v20 val_main_cst_2
  rw [Ideal.hostReduce_maximumf_single_iSup _ _ red_cols]
  refine iSup_congr fun q => ?_
  rw [show red_cols.lift (ix1 r) q = ix2 r q from idx2_ext _ _ rfl rfl]
  exact neg_apply x0 x1 x2 r q

/-- The positives. -/
abbrev P : Fin 8192 → EReal := Cert.Spec.pos (SIM x0 x1)

/-- A row's maximum over its positive and its masked logits. -/
abbrev M (r : Fin 8192) : EReal := max (P x0 x1 r) (⨆ q : Fin 8192, NEG x0 x1 x2 r q)

theorem m_apply (r : Fin 8192) : val_main_v21 (F := Ideal) x0 x1 x2 (ix1 r) = M x0 x1 x2 r := by
  rw [val_main_v21_apply, pos_apply, rowmax_apply]
  rfl

/-- A row's sum of the shifted masked logits' exponentials. -/
theorem sumexp_apply (r : Fin 8192) :
    val_main_v28 (F := Ideal) x0 x1 x2 (ix1 r) = ∑ q : Fin 8192, Ideal.exp (NEG x0 x1 x2 r q - M x0 x1 x2 r) := by
  rw [val_main_v28_apply, val_main_cst_3_apply]
  show Ideal.ofBits .f32 0x00000000#32 + _ = _
  rw [Ideal.ofBits_zero_f32, zero_add]
  refine Finset.sum_congr rfl fun q _ => ?_
  rw [show idx_main_v28 (ix1 r) q = ix2 r q from idx2_ext _ _ rfl rfl, val_main_v27_apply, val_main_v26_apply, neg_apply,
    val_main_v25_apply, val_main_v24_apply,
    show idx_main_v24 (idx_main_v25 (ix2 r q)) = ix1 r from idx1_ext _ _ rfl, m_apply]
  rfl

/-- A row's loss. -/
theorem rowloss_apply (r : Fin 8192) :
    val_main_v32 (F := Ideal) x0 x1 x2 (ix1 r) = Cert.Spec.rowLoss (NEG x0 x1 x2 r) (P x0 x1 r) := by
  rw [val_main_v32_apply, val_main_v31_apply, val_main_v30_apply, val_main_v29_apply, val_main_v23_apply,
    val_main_v22_apply, sumexp_apply, m_apply, pos_apply]
  rfl

/-! ## The mean -/

/-- A rank-1 index set is its coordinate's range. -/
def idxEquiv1 {n : Nat} : (⟨1, ![n]⟩ : Shape).Idx ≃ Fin n where
  toFun i := i 0
  invFun := ix1
  left_inv i := (eq_ix1 i).symm
  right_inv _ := rfl

/-- The reference's result is the mean of the rows' two-pass losses. -/
theorem ref_result (i : S_.Idx) :
    Cert.ReferenceIdeal.Read.val_main_v34 (F := Ideal) x0 x1 x2 i
      = Cert.Spec.resultR (fun r k => x0 (ix2 r k)) (fun r k => x1 (ix2 r k)) (fun r => x2 (ix1 r)) := by
  rw [val_main_v34_apply, val_main_v33_apply, val_main_cst_4_apply, val_main_cst_5_apply]
  show Ideal.div (Ideal.ofBits .f32 0x00000000#32 + ∑ j : S8192.Idx, val_main_v32 (F := Ideal) x0 x1 x2 j)
    (Ideal.ofBits .f32 0x46000000#32) = _
  rw [Ideal.ofBits_zero_f32, zero_add]
  unfold Cert.Spec.resultR Cert.Spec.total Cert.Spec.nRows
  refine congrArg (fun s : EReal => Ideal.div s (Ideal.ofBits .f32 0x46000000#32)) ?_
  exact (Fintype.sum_equiv (idxEquiv1 (n := 8192)).symm _ _ (fun r => (rowloss_apply x0 x1 x2 r).symm)).symm

end Cert.RefValue

end
-- ==== Proof.PreFinite.lean ====
/-
  Under the precondition every entry of the two float arguments is a real number.

  The precondition is two conjunctions over all entries, one per float argument, of "the entry's absolute value is
  below `+∞`", joined by an `and`. Read at an entry it says that the extended real there is neither infinity.
-/
import proofs.«156892_j84602265797103_2_alg».proof.Pre_finite_inputs
import proofs.«156892_j84602265797103_2_alg».proof.Proof.Gen.Pre_finite_inputs
import proofs.«156892_j84602265797103_2_alg».proof.Proof.LibMaxReduce
import Idealize.ShloMosaic.Lib.ReduceAll
import Idealize.ShloMosaic.Lib.ValueIdx
import Idealize.ShloMosaic.PureOps.Ideal

noncomputable section

namespace Cert.PreFinite

open Idealize.ShloMosaic Idealize.ShloMosaic.ValueIdx

/-- The f32 pattern of `+∞` denotes the top of the extended reals. -/
theorem ofBits_posInf_f32 : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` being 1 says that `x` is a real number. -/
theorem real_of_cmp (x : EReal) (h : Ideal.cmp .olt (max x (-x)) (Ideal.ofBits .f32 0x7F800000#32) = 1#1) :
    ∃ r : ℝ, x = (r : EReal) := by
  rw [ofBits_posInf_f32] at h
  refine real_of_abs_lt_top x ?_
  by_contra hn
  have e : Ideal.cmp .olt (max x (-x)) ⊤ = 0#1 := by
    show BitVec.ofBool (decide (max x (-x) < ⊤)) = 0#1
    rw [decide_eq_false hn]
    rfl
  rw [e] at h
  exact absurd h (by decide)

/-- The scalar shape has one index. -/
instance : Subsingleton Cert.Pre_finite_inputs.S_.Idx := ⟨fun a b => funext fun d => d.elim0⟩

variable [Cert.Pre_finite_inputs.Facts]

/-- Under the precondition both float arguments hold real numbers only. -/
theorem real_of_pre (a0 a1 : FVec Ideal Cert.Pre_finite_inputs.S4096x256 .f32) (a2 : IVec Cert.Pre_finite_inputs.S4096 32)
    (h : Cert.Pre_finite_inputs.fn (F := Ideal) a0 a1 a2 = (fun _ => 1#1)) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_cmp (a0 i) (Host.reduce_andi_all _ _ _ _ _ h1 i)
  · exact real_of_cmp (a1 i) (Host.reduce_andi_all _ _ _ _ _ h2 i)

end Cert.PreFinite

end
-- ==== Proof.lean ====
/-
  The five claims.

  Both printed kernels (the word-level program and its reading at the ideal values) are the same text, so one
  frame argument, written for any float instance, gives both their frames: @main's host lines, the one pipelined
  region — whose two input windows on the array of normalized rows each hold half of it, and whose three scratch
  buffers carry a running maximum, a running sum and the positive logit through each row block's eight points — and
  the host's closing mean. The reference's frame is its run with the result dropped. The ideal pass rewrote nothing,
  so `preserves` is trivial.

  For the value claim: at the ideal values the kernel's result is the mean over the 8192 rows of
  `logsumexp(positive, masked negatives) - positive` evaluated by the recurrence over eight column blocks, and the
  reference's is the same mean evaluated in two passes over each whole row; the logits are a product with 2 on one
  side and a quotient by 1/2 on the other. Under the precondition every input entry is a real number, hence so is
  every normalized entry (the norm is clamped below by a positive constant) and every logit, and on rows of reals
  the recurrence and the two passes agree.
-/
import proofs.«156892_j84602265797103_2_alg».proof.Defs
import proofs.«156892_j84602265797103_2_alg».proof.Proof.Gen.Kernel
import proofs.«156892_j84602265797103_2_alg».proof.Proof.Gen.KernelIdeal
import proofs.«156892_j84602265797103_2_alg».proof.Proof.Gen.ReferenceIdeal
import proofs.«156892_j84602265797103_2_alg».proof.Proof.Gen.Pre_finite_inputs
import proofs.«156892_j84602265797103_2_alg».proof.Proof.KRunB
import proofs.«156892_j84602265797103_2_alg».proof.Proof.KBodyB
import proofs.«156892_j84602265797103_2_alg».proof.Proof.KRunI
import proofs.«156892_j84602265797103_2_alg».proof.Proof.KBodyI
import proofs.«156892_j84602265797103_2_alg».proof.Proof.KFinalI
import proofs.«156892_j84602265797103_2_alg».proof.Proof.RefValue
import proofs.«156892_j84602265797103_2_alg».proof.Proof.Online
import proofs.«156892_j84602265797103_2_alg».proof.Proof.PreFinite
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ =>
  (θ_run (Cert.Kernel.defs (F := Bits)) _ _).mono (fun _ h c => (h c).2)
    (Cert.Kernel.Hand.run_main_of (F := Bits) m ρ fun c => Cert.Kernel.Hand.body_obligation _ c)

theorem frame_ki : Cert.frame_KernelIdeal := fun m ρ _ =>
  (θ_run (Cert.KernelIdeal.defs (F := Ideal)) _ _).mono (fun _ h c => (h c).2)
    (Cert.KernelIdeal.Hand.run_main_of (F := Ideal) m ρ fun c => Cert.KernelIdeal.Hand.body_obligation _ c)

theorem frame_ri : Cert.frame_ReferenceIdeal := fun m ρ _ =>
  (θ_run (Cert.ReferenceIdeal.defs (F := Ideal)) _ _).mono (fun _ h c => (h c).2) (Cert.ReferenceIdeal.Value.run (F := Ideal) m ρ)

theorem preserves : Cert.preserves_Kernel_KernelIdeal := trivial

/-- Both programs end at the mean of the rows' losses; the two evaluations agree on real inputs. -/
theorem algebraic : Cert.algebraic_KernelIdeal_ReferenceIdeal := by
  intro m ρ m' ρ' hpre hagree
  refine ⟨fun c _ => Cert.Spec.resultK (fun (r : Fin 4096) (k : Fin 256) => m ((c.tc : Thread Cert.KernelIdeal.nD Cert.KernelIdeal.τ).loc Cert.KernelIdeal.main_arg0) (ix2 r k))
      (fun (r : Fin 4096) (k : Fin 256) => m ((c.tc : Thread Cert.KernelIdeal.nD Cert.KernelIdeal.τ).loc Cert.KernelIdeal.main_arg1) (ix2 r k))
      (fun (r : Fin 4096) => m ((c.tc : Thread Cert.KernelIdeal.nD Cert.KernelIdeal.τ).loc Cert.KernelIdeal.main_arg2) (ix1 r)), ?_, ?_⟩
  · refine (θ_run (Cert.KernelIdeal.defs (F := Ideal)) _ _).mono (fun _ h c => ⟨(h c).1.trans ?_, (h c).2⟩)
      (Cert.KernelIdeal.Hand.run_main_of (F := Ideal) m ρ fun c => Cert.KernelIdeal.Hand.body_obligation _ c)
    funext i
    rw [show i = ix0 from funext fun a => a.elim0]
    exact Cert.KernelIdeal.Hand.kernel_value m ρ c
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2]
    funext i
    refine (Cert.RefValue.ref_result _ _ _ i).trans ?_
    obtain ⟨h0, h1⟩ := Cert.PreFinite.real_of_pre _ _ _ (hpre c)
    exact (Cert.Spec.resultK_eq_resultR _ _ _ (fun r k => h0 (ix2 r k)) (fun r k => h1 (ix2 r k))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
